-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v153)) (v1 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_v161) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S3x128x128 : Shape := ⟨3, ![3, 128, 128]⟩
abbrev S3x128 : Shape := ⟨2, ![3, 128]⟩
abbrev S300000 : Shape := ⟨1, ![300000]⟩
abbrev S150000 : Shape := ⟨1, ![150000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg7 : FVec F S3x128x128 .f32) (main_v33 : IVec S_ 1) : IVec S_ 1 :=
  let main_v34 : FVec F S3x128x128 .f32 := Host.absf main_arg7
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  main_v38

def fn_part1 {F : FTy → Type} [FloatOps F] (main_arg4 : FVec F S3x128x128 .f32) (main_arg5 : FVec F S3x128x128 .f32) (main_arg6 : FVec F S3x128 .f32) (main_arg7 : FVec F S3x128x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128x128 .f32 := Host.absf main_arg5
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg6
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S50000x128 .f32) (main_arg2 : FVec F S3x128x128 .f32) (main_arg3 : FVec F S3x128 .f32) (main_arg4 : FVec F S3x128x128 .f32) (main_arg5 : FVec F S3x128x128 .f32) (main_arg6 : FVec F S3x128 .f32) (main_arg7 : FVec F S3x128x128 .f32) (main_arg8 : IVec S300000 32) (main_arg9 : IVec S300000 32) (main_arg10 : IVec S150000 32) (main_arg11 : IVec S150000 32) (main_arg12 : IVec S150000 32) (main_arg13 : IVec S150000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_arg5 main_arg6 main_arg7 main_v13 main_v16
-- ==== Kernel.lean ====
abbrev S100000x128 : Shape := ⟨2, ![100000, 128]⟩
abbrev S50000x128 : Shape := ⟨2, ![50000, 128]⟩
abbrev S3x128x128 : Shape := ⟨3, ![3, 128, 128]⟩
abbrev S3x128 : Shape := ⟨2, ![3, 128]⟩
abbrev S300000 : Shape := ⟨1, ![300000]⟩
abbrev S150000 : Shape := ⟨1, ![150000]⟩
abbrev S_ : Shape := ⟨0, ![]⟩
abbrev S300000x1 : Shape := ⟨2, ![300000, 1]⟩
abbrev S300000x128 : Shape := ⟨2, ![300000, 128]⟩
abbrev S100000 : Shape := ⟨1, ![100000]⟩
abbrev S100000x1 : Shape := ⟨2, ![100000, 1]⟩
abbrev S150000x1 : Shape := ⟨2, ![150000, 1]⟩
abbrev S150000x128 : Shape := ⟨2, ![150000, 128]⟩
abbrev S50000 : Shape := ⟨1, ![50000]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩

abbrev nBuf : Space → Nat
  | .hbm => 212
  | .vmem => 42
  | .smem => 0
  | _ => 0

abbrev hbmTy0_0 (i : Nat) : BufTy := match i % 128 with
  | 0 => ⟨S100000x128, .f32⟩
  | 1 => ⟨S50000x128, .f32⟩
  | 2 => ⟨S3x128x128, .f32⟩
  | 3 => ⟨S3x128, .f32⟩
  | 4 => ⟨S3x128x128, .f32⟩
  | 5 => ⟨S3x128x128, .f32⟩
  | 6 => ⟨S3x128, .f32⟩
  | 7 => ⟨S3x128x128, .f32⟩
  | 8 => ⟨S300000, .i32⟩
  | 9 => ⟨S300000, .i32⟩
  | 10 => ⟨S150000, .i32⟩
  | 11 => ⟨S150000, .i32⟩
  | 12 => ⟨S150000, .i32⟩
  | 13 => ⟨S150000, .i32⟩
  | 14 => ⟨S_, .i32⟩
  | 15 => ⟨S300000, .i32⟩
  | 16 => ⟨S300000, .i1⟩
  | 17 => ⟨S_, .i32⟩
  | 18 => ⟨S300000, .i32⟩
  | 19 => ⟨S300000, .i32⟩
  | 20 => ⟨S300000, .i32⟩
  | 21 => ⟨S300000x1, .i32⟩
  | 22 => ⟨S300000x128, .f32⟩
  | 23 => ⟨S_, .f32⟩
  | 24 => ⟨S100000x128, .f32⟩
  | 25 => ⟨S300000x1, .i32⟩
  | 26 => ⟨S100000x128, .f32⟩
  | 27 => ⟨S_, .f32⟩
  | 28 => ⟨S300000, .f32⟩
  | 29 => ⟨S_, .f32⟩
  | 30 => ⟨S100000, .f32⟩
  | 31 => ⟨S300000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S_, .i32⟩
  | 40 => ⟨S150000, .i32⟩
  | 41 => ⟨S150000, .i1⟩
  | 42 => ⟨S_, .i32⟩
  | 43 => ⟨S150000, .i32⟩
  | 44 => ⟨S150000, .i32⟩
  | 45 => ⟨S150000, .i32⟩
  | 46 => ⟨S150000x1, .i32⟩
  | 47 => ⟨S150000x128, .f32⟩
  | 48 => ⟨S_, .f32⟩
  | 49 => ⟨S100000x128, .f32⟩
  | 50 => ⟨S150000x1, .i32⟩
  | 51 => ⟨S100000x128, .f32⟩
  | 52 => ⟨S_, .f32⟩
  | 53 => ⟨S150000, .f32⟩
  | 54 => ⟨S_, .f32⟩
  | 55 => ⟨S100000, .f32⟩
  | 56 => ⟨S150000x1, .i32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x128, .f32⟩
  | 63 => ⟨S100000x128, .f32⟩
  | 64 => ⟨S_, .i32⟩
  | 65 => ⟨S150000, .i32⟩
  | 66 => ⟨S150000, .i1⟩
  | 67 => ⟨S_, .i32⟩
  | 68 => ⟨S150000, .i32⟩
  | 69 => ⟨S150000, .i32⟩
  | 70 => ⟨S150000, .i32⟩
  | 71 => ⟨S150000x1, .i32⟩
  | 72 => ⟨S150000x128, .f32⟩
  | 73 => ⟨S_, .f32⟩
  | 74 => ⟨S50000x128, .f32⟩
  | 75 => ⟨S150000x1, .i32⟩
  | 76 => ⟨S50000x128, .f32⟩
  | 77 => ⟨S_, .f32⟩
  | 78 => ⟨S150000, .f32⟩
  | 79 => ⟨S_, .f32⟩
  | 80 => ⟨S50000, .f32⟩
  | 81 => ⟨S150000x1, .i32⟩
  | 82 => ⟨S50000, .f32⟩
  | 83 => ⟨S_, .f32⟩
  | 84 => ⟨S50000, .f32⟩
  | 85 => ⟨S50000, .f32⟩
  | 86 => ⟨S50000x1, .f32⟩
  | 87 => ⟨S50000x128, .f32⟩
  | 88 => ⟨S50000x128, .f32⟩
  | 89 => ⟨S1x128x128, .f32⟩
  | 90 => ⟨S128x128, .f32⟩
  | 91 => ⟨S1x128x128, .f32⟩
  | 92 => ⟨S128x128, .f32⟩
  | 93 => ⟨S128x128, .f32⟩
  | 94 => ⟨S1x128, .f32⟩
  | 95 => ⟨S128, .f32⟩
  | 96 => ⟨S1x128, .f32⟩
  | 97 => ⟨S128, .f32⟩
  | 98 => ⟨S128, .f32⟩
  | 99 => ⟨S1x128, .f32⟩
  | 100 => ⟨S1x128x128, .f32⟩
  | 101 => ⟨S128x128, .f32⟩
  | 102 => ⟨S1x128x128, .f32⟩
  | 103 => ⟨S128x128, .f32⟩
  | 104 => ⟨S100000x128, .f32⟩
  | 105 => ⟨S1x128, .f32⟩
  | 106 => ⟨S128, .f32⟩
  | 107 => ⟨S1x128, .f32⟩
  | 108 => ⟨S1x128x128, .f32⟩
  | 109 => ⟨S128x128, .f32⟩
  | 110 => ⟨S1x128x128, .f32⟩
  | 111 => ⟨S128x128, .f32⟩
  | 112 => ⟨S50000x128, .f32⟩
  | 113 => ⟨S_, .i32⟩
  | 114 => ⟨S300000, .i32⟩
  | 115 => ⟨S300000, .i1⟩
  | 116 => ⟨S_, .i32⟩
  | 117 => ⟨S300000, .i32⟩
  | 118 => ⟨S300000, .i32⟩
  | 119 => ⟨S300000, .i32⟩
  | 120 => ⟨S300000x1, .i32⟩
  | 121 => ⟨S300000x128, .f32⟩
  | 122 => ⟨S_, .f32⟩
  | 123 => ⟨S100000x128, .f32⟩
  | 124 => ⟨S300000x1, .i32⟩
  | 125 => ⟨S100000x128, .f32⟩
  | 126 => ⟨S_, .f32⟩
  | 127 => ⟨S300000, .f32⟩
  | _ => ⟨S100000x128, .f32⟩

abbrev hbmTy0_1 (i : Nat) : BufTy := match i % 128 with
  | 0 => ⟨S_, .f32⟩
  | 1 => ⟨S100000, .f32⟩
  | 2 => ⟨S300000x1, .i32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x128, .f32⟩
  | 9 => ⟨S100000x128, .f32⟩
  | 10 => ⟨S_, .i32⟩
  | 11 => ⟨S150000, .i32⟩
  | 12 => ⟨S150000, .i1⟩
  | 13 => ⟨S_, .i32⟩
  | 14 => ⟨S150000, .i32⟩
  | 15 => ⟨S150000, .i32⟩
  | 16 => ⟨S150000, .i32⟩
  | 17 => ⟨S150000x1, .i32⟩
  | 18 => ⟨S150000x128, .f32⟩
  | 19 => ⟨S_, .f32⟩
  | 20 => ⟨S100000x128, .f32⟩
  | 21 => ⟨S150000x1, .i32⟩
  | 22 => ⟨S100000x128, .f32⟩
  | 23 => ⟨S_, .f32⟩
  | 24 => ⟨S150000, .f32⟩
  | 25 => ⟨S_, .f32⟩
  | 26 => ⟨S100000, .f32⟩
  | 27 => ⟨S150000x1, .i32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x128, .f32⟩
  | 34 => ⟨S100000x128, .f32⟩
  | 35 => ⟨S_, .i32⟩
  | 36 => ⟨S150000, .i32⟩
  | 37 => ⟨S150000, .i1⟩
  | 38 => ⟨S_, .i32⟩
  | 39 => ⟨S150000, .i32⟩
  | 40 => ⟨S150000, .i32⟩
  | 41 => ⟨S150000, .i32⟩
  | 42 => ⟨S150000x1, .i32⟩
  | 43 => ⟨S150000x128, .f32⟩
  | 44 => ⟨S_, .f32⟩
  | 45 => ⟨S50000x128, .f32⟩
  | 46 => ⟨S150000x1, .i32⟩
  | 47 => ⟨S50000x128, .f32⟩
  | 48 => ⟨S_, .f32⟩
  | 49 => ⟨S150000, .f32⟩
  | 50 => ⟨S_, .f32⟩
  | 51 => ⟨S50000, .f32⟩
  | 52 => ⟨S150000x1, .i32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x128, .f32⟩
  | 59 => ⟨S50000x128, .f32⟩
  | 60 => ⟨S1x128x128, .f32⟩
  | 61 => ⟨S128x128, .f32⟩
  | 62 => ⟨S1x128x128, .f32⟩
  | 63 => ⟨S128x128, .f32⟩
  | 64 => ⟨S128x128, .f32⟩
  | 65 => ⟨S1x128, .f32⟩
  | 66 => ⟨S128, .f32⟩
  | 67 => ⟨S1x128, .f32⟩
  | 68 => ⟨S128, .f32⟩
  | 69 => ⟨S128, .f32⟩
  | 70 => ⟨S1x128, .f32⟩
  | 71 => ⟨S1x128x128, .f32⟩
  | 72 => ⟨S128x128, .f32⟩
  | 73 => ⟨S1x128x128, .f32⟩
  | 74 => ⟨S128x128, .f32⟩
  | 75 => ⟨S100000x128, .f32⟩
  | 76 => ⟨S1x128, .f32⟩
  | 77 => ⟨S128, .f32⟩
  | 78 => ⟨S1x128, .f32⟩
  | 79 => ⟨S1x128x128, .f32⟩
  | 80 => ⟨S128x128, .f32⟩
  | 81 => ⟨S1x128x128, .f32⟩
  | 82 => ⟨S128x128, .f32⟩
  | 83 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S128x128, .f32⟩
  | .local _ .vmem, ⟨38, _⟩ => ⟨S128x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_cst_8 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_c_11 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_12 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_13 : Ref sig .tc := ⟨.hbm, 77, rfl⟩
abbrev main_v48 : Ref sig .tc := ⟨.hbm, 78, rfl⟩
abbrev main_cst_14 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_15 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_16 : Ref sig .tc := ⟨.hbm, 113, rfl⟩
abbrev main_v81 : Ref sig .tc := ⟨.hbm, 114, rfl⟩
abbrev main_v82 : Ref sig .tc := ⟨.hbm, 115, rfl⟩
abbrev main_c_17 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_18 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_19 : Ref sig .tc := ⟨.hbm, 126, rfl⟩
abbrev main_v91 : Ref sig .tc := ⟨.hbm, 127, rfl⟩
abbrev main_cst_20 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_21 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_22 : Ref sig .tc := ⟨.hbm, 138, rfl⟩
abbrev main_v100 : Ref sig .tc := ⟨.hbm, 139, rfl⟩
abbrev main_v101 : Ref sig .tc := ⟨.hbm, 140, rfl⟩
abbrev main_c_23 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_24 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_25 : Ref sig .tc := ⟨.hbm, 151, rfl⟩
abbrev main_v110 : Ref sig .tc := ⟨.hbm, 152, rfl⟩
abbrev main_cst_26 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_27 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_c_28 : Ref sig .tc := ⟨.hbm, 163, rfl⟩
abbrev main_v119 : Ref sig .tc := ⟨.hbm, 164, rfl⟩
abbrev main_v120 : Ref sig .tc := ⟨.hbm, 165, rfl⟩
abbrev main_c_29 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_30 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_31 : Ref sig .tc := ⟨.hbm, 176, rfl⟩
abbrev main_v129 : Ref sig .tc := ⟨.hbm, 177, rfl⟩
abbrev main_cst_32 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_33 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S150000 : S_.BroadcastsInDim S150000 (![] : Fin 0 → Fin S150000.rank)
  bcast_S150000_S150000x1_0 : S150000.BroadcastsInDim S150000x1 (![0] : Fin 1 → Fin S150000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128_S1x128_0_0 : S3x128.Slices ![0, 0] S1x128
  shapeCasts_S1x128_S128 : S1x128.ShapeCasts S128
  slices_S3x128_S1x128_1_0 : S3x128.Slices ![1, 0] S1x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128_S1x128_2_0 : S3x128.Slices ![2, 0] S1x128
  slices_S3x128x128_S1x128x128_2_0_0 : S3x128x128.Slices ![2, 0, 0] S1x128x128
  gather_S100000x128_S300000x1_S300000x128_1_0_n_n_0_1_1128_wf : GatherDims.WF S100000x128 S300000x1 S300000x128 [1] [0] [] [0] [] 1 ![1, 128]
  scatter_S100000x128_S300000x1_S300000x128_1_0_0_1_wf : ScatterDims.WF S100000x128 S300000x1 S300000x128 [1] [0] [0] 1
  scatter_S100000_S300000x1_S300000_n_0_0_1_wf : ScatterDims.WF S100000 S300000x1 S300000 [] [0] [0] 1
  gather_S50000x128_S150000x1_S150000x128_1_0_n_n_0_1_1128_wf : GatherDims.WF S50000x128 S150000x1 S150000x128 [1] [0] [] [0] [] 1 ![1, 128]
  scatter_S100000x128_S150000x1_S150000x128_1_0_0_1_wf : ScatterDims.WF S100000x128 S150000x1 S150000x128 [1] [0] [0] 1
  scatter_S100000_S150000x1_S150000_n_0_0_1_wf : ScatterDims.WF S100000 S150000x1 S150000 [] [0] [0] 1
  gather_S100000x128_S150000x1_S150000x128_1_0_n_n_0_1_1128_wf : GatherDims.WF S100000x128 S150000x1 S150000x128 [1] [0] [] [0] [] 1 ![1, 128]
  scatter_S50000x128_S150000x1_S150000x128_1_0_0_1_wf : ScatterDims.WF S50000x128 S150000x1 S150000x128 [1] [0] [0] 1
  scatter_S50000_S150000x1_S150000_n_0_0_1_wf : ScatterDims.WF S50000 S150000x1 S150000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def scatter_S100000x128_S150000x1_S150000x128_1_0_0_1 : ScatterDims S100000x128 S150000x1 S150000x128 where
  updateWindowDims := [1]
  insertedWindowDims := [0]
  scatterDimsToOperandDims := [0]
  indexVectorDim := 1
  wf := scatter_S100000x128_S150000x1_S150000x128_1_0_0_1_wf
def scatter_S100000_S150000x1_S150000_n_0_0_1 : ScatterDims S100000 S150000x1 S150000 where
  updateWindowDims := []
  insertedWindowDims := [0]
  scatterDimsToOperandDims := [0]
  indexVectorDim := 1
  wf := scatter_S100000_S150000x1_S150000_n_0_0_1_wf
def gather_S100000x128_S150000x1_S150000x128_1_0_n_n_0_1_1128 : GatherDims S100000x128 S150000x1 S150000x128 where
  offsetDims := [1]
  collapsedSliceDims := [0]
  operandBatchingDims := []
  startIndicesBatchingDims := []
  startIndexMap := [0]
  indexVectorDim := 1
  sliceSizes := ![1, 128]
  wf := gather_S100000x128_S150000x1_S150000x128_1_0_n_n_0_1_1128_wf
def scatter_S50000x128_S150000x1_S150000x128_1_0_0_1 : ScatterDims S50000x128 S150000x1 S150000x128 where
  updateWindowDims := [1]
  insertedWindowDims := [0]
  scatterDimsToOperandDims := [0]
  indexVectorDim := 1
  wf := scatter_S50000x128_S150000x1_S150000x128_1_0_0_1_wf
def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v69) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v71) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v61) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v67) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v72) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v56) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v77) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v79) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v75) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v80) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v99) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v118) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v150) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v152) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v142) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v148) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v153) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v137) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v158) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v160) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v156) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v161) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S3x128x128 : Shape := ⟨3, ![3, 128, 128]⟩
abbrev S3x128 : Shape := ⟨2, ![3, 128]⟩
abbrev S300000 : Shape := ⟨1, ![300000]⟩
abbrev S150000 : Shape := ⟨1, ![150000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S300000x1 : Shape := ⟨2, ![300000, 1]⟩
abbrev S300000x128 : Shape := ⟨2, ![300000, 128]⟩
abbrev S100000 : Shape := ⟨1, ![100000]⟩
abbrev S100000x1 : Shape := ⟨2, ![100000, 1]⟩
abbrev S150000x1 : Shape := ⟨2, ![150000, 1]⟩
abbrev S150000x128 : Shape := ⟨2, ![150000, 128]⟩
abbrev S50000 : Shape := ⟨1, ![50000]⟩
abbrev S50000x1 : Shape := ⟨2, ![50000, 1]⟩

abbrev nBuf : Space → Nat
  | .hbm => 244
  | .vmem => 0
  | .smem => 0
  | _ => 0

abbrev hbmTy0_0 (i : Nat) : BufTy := match i % 128 with
  | 0 => ⟨S100000x128, .f32⟩
  | 1 => ⟨S50000x128, .f32⟩
  | 2 => ⟨S3x128x128, .f32⟩
  | 3 => ⟨S3x128, .f32⟩
  | 4 => ⟨S3x128x128, .f32⟩
  | 5 => ⟨S3x128x128, .f32⟩
  | 6 => ⟨S3x128, .f32⟩
  | 7 => ⟨S3x128x128, .f32⟩
  | 8 => ⟨S300000, .i32⟩
  | 9 => ⟨S300000, .i32⟩
  | 10 => ⟨S150000, .i32⟩
  | 11 => ⟨S150000, .i32⟩
  | 12 => ⟨S150000, .i32⟩
  | 13 => ⟨S150000, .i32⟩
  | 14 => ⟨S1x128x128, .f32⟩
  | 15 => ⟨S128x128, .f32⟩
  | 16 => ⟨S1x128, .f32⟩
  | 17 => ⟨S128, .f32⟩
  | 18 => ⟨S1x128x128, .f32⟩
  | 19 => ⟨S128x128, .f32⟩
  | 20 => ⟨S_, .i32⟩
  | 21 => ⟨S300000, .i32⟩
  | 22 => ⟨S300000, .i1⟩
  | 23 => ⟨S_, .i32⟩
  | 24 => ⟨S300000, .i32⟩
  | 25 => ⟨S300000, .i32⟩
  | 26 => ⟨S300000, .i32⟩
  | 27 => ⟨S300000x1, .i32⟩
  | 28 => ⟨S300000x128, .f32⟩
  | 29 => ⟨S_, .f32⟩
  | 30 => ⟨S100000x128, .f32⟩
  | 31 => ⟨S300000x1, .i32⟩
  | 32 => ⟨S100000x128, .f32⟩
  | 33 => ⟨S_, .f32⟩
  | 34 => ⟨S300000, .f32⟩
  | 35 => ⟨S_, .f32⟩
  | 36 => ⟨S100000, .f32⟩
  | 37 => ⟨S300000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S100000x128, .f32⟩
  | 50 => ⟨S100000x128, .f32⟩
  | 51 => ⟨S1x128x128, .f32⟩
  | 52 => ⟨S128x128, .f32⟩
  | 53 => ⟨S1x128, .f32⟩
  | 54 => ⟨S128, .f32⟩
  | 55 => ⟨S1x128x128, .f32⟩
  | 56 => ⟨S128x128, .f32⟩
  | 57 => ⟨S_, .i32⟩
  | 58 => ⟨S150000, .i32⟩
  | 59 => ⟨S150000, .i1⟩
  | 60 => ⟨S_, .i32⟩
  | 61 => ⟨S150000, .i32⟩
  | 62 => ⟨S150000, .i32⟩
  | 63 => ⟨S150000, .i32⟩
  | 64 => ⟨S150000x1, .i32⟩
  | 65 => ⟨S150000x128, .f32⟩
  | 66 => ⟨S_, .f32⟩
  | 67 => ⟨S100000x128, .f32⟩
  | 68 => ⟨S150000x1, .i32⟩
  | 69 => ⟨S100000x128, .f32⟩
  | 70 => ⟨S_, .f32⟩
  | 71 => ⟨S150000, .f32⟩
  | 72 => ⟨S_, .f32⟩
  | 73 => ⟨S100000, .f32⟩
  | 74 => ⟨S150000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S100000x128, .f32⟩
  | 87 => ⟨S100000x128, .f32⟩
  | 88 => ⟨S100000x128, .f32⟩
  | 89 => ⟨S1x128x128, .f32⟩
  | 90 => ⟨S128x128, .f32⟩
  | 91 => ⟨S1x128, .f32⟩
  | 92 => ⟨S128, .f32⟩
  | 93 => ⟨S1x128x128, .f32⟩
  | 94 => ⟨S128x128, .f32⟩
  | 95 => ⟨S_, .i32⟩
  | 96 => ⟨S150000, .i32⟩
  | 97 => ⟨S150000, .i1⟩
  | 98 => ⟨S_, .i32⟩
  | 99 => ⟨S150000, .i32⟩
  | 100 => ⟨S150000, .i32⟩
  | 101 => ⟨S150000, .i32⟩
  | 102 => ⟨S150000x1, .i32⟩
  | 103 => ⟨S150000x128, .f32⟩
  | 104 => ⟨S_, .f32⟩
  | 105 => ⟨S50000x128, .f32⟩
  | 106 => ⟨S150000x1, .i32⟩
  | 107 => ⟨S50000x128, .f32⟩
  | 108 => ⟨S_, .f32⟩
  | 109 => ⟨S150000, .f32⟩
  | 110 => ⟨S_, .f32⟩
  | 111 => ⟨S50000, .f32⟩
  | 112 => ⟨S150000x1, .i32⟩
  | 113 => ⟨S50000, .f32⟩
  | 114 => ⟨S_, .f32⟩
  | 115 => ⟨S50000, .f32⟩
  | 116 => ⟨S50000, .f32⟩
  | 117 => ⟨S50000x1, .f32⟩
  | 118 => ⟨S50000x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S50000x128, .f32⟩
  | 125 => ⟨S50000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S50000x128, .f32⟩
  | 3 => ⟨S50000x128, .f32⟩
  | 4 => ⟨S1x128x128, .f32⟩
  | 5 => ⟨S128x128, .f32⟩
  | 6 => ⟨S1x128, .f32⟩
  | 7 => ⟨S128, .f32⟩
  | 8 => ⟨S1x128x128, .f32⟩
  | 9 => ⟨S128x128, .f32⟩
  | 10 => ⟨S_, .i32⟩
  | 11 => ⟨S300000, .i32⟩
  | 12 => ⟨S300000, .i1⟩
  | 13 => ⟨S_, .i32⟩
  | 14 => ⟨S300000, .i32⟩
  | 15 => ⟨S300000, .i32⟩
  | 16 => ⟨S300000, .i32⟩
  | 17 => ⟨S300000x1, .i32⟩
  | 18 => ⟨S300000x128, .f32⟩
  | 19 => ⟨S_, .f32⟩
  | 20 => ⟨S100000x128, .f32⟩
  | 21 => ⟨S300000x1, .i32⟩
  | 22 => ⟨S100000x128, .f32⟩
  | 23 => ⟨S_, .f32⟩
  | 24 => ⟨S300000, .f32⟩
  | 25 => ⟨S_, .f32⟩
  | 26 => ⟨S100000, .f32⟩
  | 27 => ⟨S300000x1, .i32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S100000x128, .f32⟩
  | 40 => ⟨S100000x128, .f32⟩
  | 41 => ⟨S1x128x128, .f32⟩
  | 42 => ⟨S128x128, .f32⟩
  | 43 => ⟨S1x128, .f32⟩
  | 44 => ⟨S128, .f32⟩
  | 45 => ⟨S1x128x128, .f32⟩
  | 46 => ⟨S128x128, .f32⟩
  | 47 => ⟨S_, .i32⟩
  | 48 => ⟨S150000, .i32⟩
  | 49 => ⟨S150000, .i1⟩
  | 50 => ⟨S_, .i32⟩
  | 51 => ⟨S150000, .i32⟩
  | 52 => ⟨S150000, .i32⟩
  | 53 => ⟨S150000, .i32⟩
  | 54 => ⟨S150000x1, .i32⟩
  | 55 => ⟨S150000x128, .f32⟩
  | 56 => ⟨S_, .f32⟩
  | 57 => ⟨S100000x128, .f32⟩
  | 58 => ⟨S150000x1, .i32⟩
  | 59 => ⟨S100000x128, .f32⟩
  | 60 => ⟨S_, .f32⟩
  | 61 => ⟨S150000, .f32⟩
  | 62 => ⟨S_, .f32⟩
  | 63 => ⟨S100000, .f32⟩
  | 64 => ⟨S150000x1, .i32⟩
  | 65 => ⟨S100000, .f32⟩
  | 66 => ⟨S_, .f32⟩
  | 67 => ⟨S100000, .f32⟩
  | 68 => ⟨S100000, .f32⟩
  | 69 => ⟨S100000x1, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S100000x128, .f32⟩
  | 77 => ⟨S100000x128, .f32⟩
  | 78 => ⟨S100000x128, .f32⟩
  | 79 => ⟨S1x128x128, .f32⟩
  | 80 => ⟨S128x128, .f32⟩
  | 81 => ⟨S1x128, .f32⟩
  | 82 => ⟨S128, .f32⟩
  | 83 => ⟨S1x128x128, .f32⟩
  | 84 => ⟨S128x128, .f32⟩
  | 85 => ⟨S_, .i32⟩
  | 86 => ⟨S150000, .i32⟩
  | 87 => ⟨S150000, .i1⟩
  | 88 => ⟨S_, .i32⟩
  | 89 => ⟨S150000, .i32⟩
  | 90 => ⟨S150000, .i32⟩
  | 91 => ⟨S150000, .i32⟩
  | 92 => ⟨S150000x1, .i32⟩
  | 93 => ⟨S150000x128, .f32⟩
  | 94 => ⟨S_, .f32⟩
  | 95 => ⟨S50000x128, .f32⟩
  | 96 => ⟨S150000x1, .i32⟩
  | 97 => ⟨S50000x128, .f32⟩
  | 98 => ⟨S_, .f32⟩
  | 99 => ⟨S150000, .f32⟩
  | 100 => ⟨S_, .f32⟩
  | 101 => ⟨S50000, .f32⟩
  | 102 => ⟨S150000x1, .i32⟩
  | 103 => ⟨S50000, .f32⟩
  | 104 => ⟨S_, .f32⟩
  | 105 => ⟨S50000, .f32⟩
  | 106 => ⟨S50000, .f32⟩
  | 107 => ⟨S50000x1, .f32⟩
  | 108 => ⟨S50000x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S50000x128, .f32⟩
  | 115 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_4 : Ref sig .tc := ⟨.hbm, 57, rfl⟩
abbrev main_v37 : Ref sig .tc := ⟨.hbm, 58, rfl⟩
abbrev main_v38 : Ref sig .tc := ⟨.hbm, 59, rfl⟩
abbrev main_c_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_10 : Ref sig .tc := ⟨.hbm, 95, rfl⟩
abbrev main_v69 : Ref sig .tc := ⟨.hbm, 96, rfl⟩
abbrev main_v70 : Ref sig .tc := ⟨.hbm, 97, rfl⟩
abbrev main_c_11 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_12 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_13 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_15 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_call0_cst : Ref sig .tc := ⟨.hbm, 126, rfl⟩
abbrev main_call0_v0 : Ref sig .tc := ⟨.hbm, 127, rfl⟩
abbrev main_v94 : Ref sig .tc := ⟨.hbm, 128, rfl⟩
abbrev main_call1_cst : Ref sig .tc := ⟨.hbm, 129, rfl⟩
abbrev main_call1_v0 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_16 : Ref sig .tc := ⟨.hbm, 138, rfl⟩
abbrev main_v102 : Ref sig .tc := ⟨.hbm, 139, rfl⟩
abbrev main_v103 : Ref sig .tc := ⟨.hbm, 140, rfl⟩
abbrev main_c_17 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_18 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_19 : Ref sig .tc := ⟨.hbm, 151, rfl⟩
abbrev main_v112 : Ref sig .tc := ⟨.hbm, 152, rfl⟩
abbrev main_cst_20 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_21 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_c_22 : Ref sig .tc := ⟨.hbm, 175, rfl⟩
abbrev main_v133 : Ref sig .tc := ⟨.hbm, 176, rfl⟩
abbrev main_v134 : Ref sig .tc := ⟨.hbm, 177, rfl⟩
abbrev main_c_23 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_24 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_25 : Ref sig .tc := ⟨.hbm, 188, rfl⟩
abbrev main_v143 : Ref sig .tc := ⟨.hbm, 189, rfl⟩
abbrev main_cst_26 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_27 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_c_28 : Ref sig .tc := ⟨.hbm, 213, rfl⟩
abbrev main_v165 : Ref sig .tc := ⟨.hbm, 214, rfl⟩
abbrev main_v166 : Ref sig .tc := ⟨.hbm, 215, rfl⟩
abbrev main_c_29 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_cst_30 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_cst_31 : Ref sig .tc := ⟨.hbm, 226, rfl⟩
abbrev main_v175 : Ref sig .tc := ⟨.hbm, 227, rfl⟩
abbrev main_cst_32 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_cst_33 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S300000 : S_.BroadcastsInDim S300000 (![] : Fin 0 → Fin S300000.rank)
  bcast_S300000_S300000x1_0 : S300000.BroadcastsInDim S300000x1 (![0] : Fin 1 → Fin S300000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  bcast_S_S150000 : S_.BroadcastsInDim S150000 (![] : Fin 0 → Fin S150000.rank)
  bcast_S150000_S150000x1_0 : S150000.BroadcastsInDim S150000x1 (![0] : Fin 1 → Fin S150000x1.rank)
  slices_S3x128x128_S1x128x128_2_0_0 : S3x128x128.Slices ![2, 0, 0] S1x128x128
  slices_S3x128_S1x128_2_0 : S3x128.Slices ![2, 0] S1x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  gather_S100000x128_S300000x1_S300000x128_1_0_n_n_0_1_1128_wf : GatherDims.WF S100000x128 S300000x1 S300000x128 [1] [0] [] [0] [] 1 ![1, 128]
  scatter_S100000x128_S300000x1_S300000x128_1_0_0_1_wf : ScatterDims.WF S100000x128 S300000x1 S300000x128 [1] [0] [0] 1
  scatter_S100000_S300000x1_S300000_n_0_0_1_wf : ScatterDims.WF S100000 S300000x1 S300000 [] [0] [0] 1
  dot_S100000x128_S128x128_S100000x128_1_0_0_1_n_n_wf : DotDims.WF S100000x128 S128x128 S100000x128 [1] [0] [0] [1] [] []
  gather_S50000x128_S150000x1_S150000x128_1_0_n_n_0_1_1128_wf : GatherDims.WF S50000x128 S150000x1 S150000x128 [1] [0] [] [0] [] 1 ![1, 128]
  scatter_S100000x128_S150000x1_S150000x128_1_0_0_1_wf : ScatterDims.WF S100000x128 S150000x1 S150000x128 [1] [0] [0] 1
  scatter_S100000_S150000x1_S150000_n_0_0_1_wf : ScatterDims.WF S100000 S150000x1 S150000 [] [0] [0] 1
  gather_S100000x128_S150000x1_S150000x128_1_0_n_n_0_1_1128_wf : GatherDims.WF S100000x128 S150000x1 S150000x128 [1] [0] [] [0] [] 1 ![1, 128]
  scatter_S50000x128_S150000x1_S150000x128_1_0_0_1_wf : ScatterDims.WF S50000x128 S150000x1 S150000x128 [1] [0] [0] 1
  scatter_S50000_S150000x1_S150000_n_0_0_1_wf : ScatterDims.WF S50000 S150000x1 S150000 [] [0] [0] 1
  dot_S50000x128_S128x128_S50000x128_1_0_0_1_n_n_wf : DotDims.WF S50000x128 S128x128 S50000x128 [1] [0] [0] [1] [] []

variable [Facts₀]

def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def scatter_S100000x128_S150000x1_S150000x128_1_0_0_1 : ScatterDims S100000x128 S150000x1 S150000x128 where
  updateWindowDims := [1]
  insertedWindowDims := [0]
  scatterDimsToOperandDims := [0]
  indexVectorDim := 1
  wf := scatter_S100000x128_S150000x1_S150000x128_1_0_0_1_wf
def scatter_S100000_S150000x1_S150000_n_0_0_1 : ScatterDims S100000 S150000x1 S150000 where
  updateWindowDims := []
  insertedWindowDims := [0]
  scatterDimsToOperandDims := [0]
  indexVectorDim := 1
  wf := scatter_S100000_S150000x1_S150000_n_0_0_1_wf
def gather_S100000x128_S150000x1_S150000x128_1_0_n_n_0_1_1128 : GatherDims S100000x128 S150000x1 S150000x128 where
  offsetDims := [1]
  collapsedSliceDims := [0]
  operandBatchingDims := []
  startIndicesBatchingDims := []
  startIndexMap := [0]
  indexVectorDim := 1
  sliceSizes := ![1, 128]
  wf := gather_S100000x128_S150000x1_S150000x128_1_0_n_n_0_1_1128_wf
def scatter_S50000x128_S150000x1_S150000x128_1_0_0_1 : ScatterDims S50000x128 S150000x1 S150000x128 where
  updateWindowDims := [1]
  insertedWindowDims := [0]
  scatterDimsToOperandDims := [0]
  indexVectorDim := 1
  wf := scatter_S50000x128_S150000x1_S150000x128_1_0_0_1_wf
def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  One entry of one graph layer, as plain mathematics on the extended reals.

  For a paper node the layer adds three contractions over the 128 features — the mean of the cited papers against
  its weights, the mean of the writing authors against theirs, the node's own features against the root weights — and
  the biases. One arrangement contracts the node's features ONCE against the SUM of the two root matrices and adds the
  two biases together at the end (`paperK`); the other contracts them against each root matrix separately and adds
  each bias right after its message term (`paperR`). The two agree when the node's features and the root weights are
  real numbers: `x * (a + b) = x * a + x * b` holds for reals, and fails on the extended reals in general
  (`⊤ * (1 + -1) = 0` but `⊤ * 1 + ⊤ * -1 = ⊥`). Everything else is commutativity and associativity of `+`, which hold
  on all of the extended reals. For an author node there is one message term and the two arrangements differ only in
  the order of the additions (`authorK`, `authorR`).

  A layer's entry is a real number when everything it is computed from is (`paperK_real`, `authorK_real`): the second
  layer's features are the first layer's outputs, so this is what lets the law be used again there.
-/
import Idealize.ShloMosaic.PureOps.Ideal
import Idealize.ShloMosaic.Lib.ValueIdx

open scoped BigOperators

noncomputable section

namespace GraphLayer

/-- An extended real that is a real number. -/
def IsR (x : EReal) : Prop := ∃ r : ℝ, x = (r : EReal)

/-- A family of extended reals all of which are real numbers. -/
def AllReal {ι : Type*} (f : ι → EReal) : Prop := ∀ i, IsR (f i)

theorem IsR.coe (r : ℝ) : IsR (r : EReal) := ⟨r, rfl⟩
theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.max {x y : EReal} (hx : IsR x) (hy : IsR y) : IsR (max x y) := by
  obtain ⟨a, rfl⟩ := hx; obtain ⟨b, rfl⟩ := hy
  rcases le_total a b with h | h
  · exact ⟨b, max_eq_right (EReal.coe_le_coe_iff.mpr h)⟩
  · exact ⟨a, max_eq_left (EReal.coe_le_coe_iff.mpr h)⟩
theorem IsR.sum {κ : Type*} (s : Finset κ) (f : κ → EReal) (hf : ∀ k ∈ s, IsR (f k)) : IsR (∑ k ∈ s, f k) := by
  classical
  induction s using Finset.induction_on with
  | empty => simpa using IsR.zero
  | insert a s ha ih =>
    rw [Finset.sum_insert ha]
    exact (hf a (Finset.mem_insert_self a s)).add (ih fun k hk => hf k (Finset.mem_insert_of_mem hk))
theorem IsR.dot {κ : Type*} [Fintype κ] {x w : κ → EReal} (hx : AllReal x) (hw : AllReal w) : IsR (∑ k, x k * w k) :=
  IsR.sum _ _ fun k _ => (hx k).mul (hw k)

/-- The layer's activation: ReLU after the first layer, nothing after the second. -/
def act (relu : Bool) (x : EReal) : EReal := if relu then max x 0 else x

theorem IsR.act (relu : Bool) {x : EReal} (hx : IsR x) : IsR (act relu x) := by
  unfold GraphLayer.act; cases relu
  · simpa using hx
  · simpa using hx.max IsR.zero

/-- For real `x`, `a`, `b` the contraction against a sum of weights is the sum of the contractions. -/
theorem sum_mul_add {κ : Type*} [Fintype κ] (x a b : κ → EReal) (hx : AllReal x) (ha : AllReal a) (hb : AllReal b) :
    ∑ k, x k * (a k + b k) = ∑ k, x k * a k + ∑ k, x k * b k := by
  rw [← Finset.sum_add_distrib]
  refine Finset.sum_congr rfl fun k _ => ?_
  obtain ⟨x', hx'⟩ := hx k; obtain ⟨a', ha'⟩ := ha k; obtain ⟨b', hb'⟩ := hb k
  rw [hx', ha', hb', ← EReal.coe_add, ← EReal.coe_mul, ← EReal.coe_mul, ← EReal.coe_mul, ← EReal.coe_add, mul_add]

/-- A paper node's entry with the root weights summed before the contraction and the biases summed at the end. -/
def paperK (relu : Bool) (mc mw xp wm0 wm1 wr0 wr1 : Fin 128 → EReal) (b0 b1 : EReal) : EReal :=
  act relu ((((0 + ∑ k, mc k * wm0 k) + ∑ k, mw k * wm1 k) + ∑ k, xp k * (wr0 k + wr1 k)) + (b0 + b1))

/-- A paper node's entry as the sum of the two edge types' outputs, each `(message + bias) + root`. -/
def paperR (relu : Bool) (mc mw xp wm0 wm1 wr0 wr1 : Fin 128 → EReal) (b0 b1 : EReal) : EReal :=
  act relu (((∑ k, mc k * wm0 k + b0) + ∑ k, xp k * wr0 k) + ((∑ k, mw k * wm1 k + b1) + ∑ k, xp k * wr1 k))

theorem paperK_eq_paperR (relu : Bool) (mc mw xp wm0 wm1 wr0 wr1 : Fin 128 → EReal) (b0 b1 : EReal)
    (hx : AllReal xp) (h0 : AllReal wr0) (h1 : AllReal wr1) :
    paperK relu mc mw xp wm0 wm1 wr0 wr1 b0 b1 = paperR relu mc mw xp wm0 wm1 wr0 wr1 b0 b1 := by
  unfold paperK paperR
  rw [sum_mul_add xp wr0 wr1 hx h0 h1, zero_add]
  congr 1
  abel

theorem paperK_real (relu : Bool) {mc mw xp wm0 wm1 wr0 wr1 : Fin 128 → EReal} {b0 b1 : EReal}
    (hmc : AllReal mc) (hmw : AllReal mw) (hx : AllReal xp) (hm0 : AllReal wm0) (hm1 : AllReal wm1)
    (h0 : AllReal wr0) (h1 : AllReal wr1) (hb0 : IsR b0) (hb1 : IsR b1) :
    IsR (paperK relu mc mw xp wm0 wm1 wr0 wr1 b0 b1) :=
  IsR.act relu ((((IsR.zero.add (IsR.dot hmc hm0)).add (IsR.dot hmw hm1)).add
    (IsR.dot hx fun k => (h0 k).add (h1 k))).add (hb0.add hb1))

/-- An author node's entry, the accumulator started at zero and the bias added last. -/
def authorK (relu : Bool) (mb xa wm wr : Fin 128 → EReal) (b : EReal) : EReal :=
  act relu (((0 + ∑ k, mb k * wm k) + ∑ k, xa k * wr k) + b)

/-- An author node's entry as `(message + bias) + root`. -/
def authorR (relu : Bool) (mb xa wm wr : Fin 128 → EReal) (b : EReal) : EReal :=
  act relu ((∑ k, mb k * wm k + b) + ∑ k, xa k * wr k)

theorem authorK_eq_authorR (relu : Bool) (mb xa wm wr : Fin 128 → EReal) (b : EReal) :
    authorK relu mb xa wm wr b = authorR relu mb xa wm wr b := by
  unfold authorK authorR
  rw [zero_add]
  congr 1
  abel

theorem authorK_real (relu : Bool) {mb xa wm wr : Fin 128 → EReal} {b : EReal}
    (hmb : AllReal mb) (hx : AllReal xa) (hm : AllReal wm) (hr : AllReal wr) (hb : IsR b) :
    IsR (authorK relu mb xa wm wr b) :=
  IsR.act relu (((IsR.zero.add (IsR.dot hmb hm)).add (IsR.dot hx hr)).add hb)

/-- What one pipelined block computes for an entry: three contractions added into an accumulator started at zero, then
    the bias, then the activation. -/
def node3 (relu : Bool) (a0 a1 a2 w0 w1 w2 : Fin 128 → EReal) (b : EReal) : EReal :=
  act relu ((((0 + ∑ k, a0 k * w0 k) + ∑ k, a1 k * w1 k) + ∑ k, a2 k * w2 k) + b)

/-- The same with two contractions. -/
def node2 (relu : Bool) (a0 a1 w0 w1 : Fin 128 → EReal) (b : EReal) : EReal :=
  act relu (((0 + ∑ k, a0 k * w0 k) + ∑ k, a1 k * w1 k) + b)

theorem paperK_eq_node3 (relu : Bool) (mc mw xp wm0 wm1 wr0 wr1 : Fin 128 → EReal) (b0 b1 : EReal) :
    paperK relu mc mw xp wm0 wm1 wr0 wr1 b0 b1 = node3 relu mc mw xp wm0 wm1 (fun k => wr0 k + wr1 k) (b0 + b1) := rfl

theorem authorK_eq_node2 (relu : Bool) (mb xa wm wr : Fin 128 → EReal) (b : EReal) :
    authorK relu mb xa wm wr b = node2 relu mb xa wm wr b := rfl

end GraphLayer

end
-- ==== Proof.Stages.lean ====
/-
  The three neighbourhood means of the graph layer, each as ONE term of its source features and its edge list:
  papers citing papers, authors writing papers, papers written by authors. Both layers of both programs apply
  exactly these terms; nothing here is opened except to show that real features give real means.
-/
import proofs.«103435_j85461259255857_1_alg».proof.KernelIdeal
import proofs.«103435_j85461259255857_1_alg».proof.Proof.Gen.KernelIdeal

noncomputable section

namespace Cert.KernelIdeal.Stages

open Idealize.ShloMosaic Cert.KernelIdeal Cert.KernelIdeal.Facts₀

variable {F : FTy → Type} [FloatOps F]

/-- The mean over incoming edges, as the program prints it: rows of `x` fetched at the (negative-wrapped) source of each
    edge, added into the row of the edge's target, and each row divided by `max(number of incoming edges, 1)`. -/
def meanCites (x : (⟨S100000x128, .f32⟩ : BufTy).Contents (Elt F)) (src dst : (⟨S300000, .i32⟩ : BufTy).Contents (Elt F)) :
    (⟨S100000x128, .f32⟩ : BufTy).Contents (Elt F) :=
  Host.divf
    (Host.scatterAdd scatter_S100000x128_S300000x1_S300000x128_1_0_0_1
      (broadcastInDim S100000x128 ![] bcast_S_S100000x128 (constant S_ .f32 0x00000000#32))
      (broadcastInDim S300000x1 ![0] bcast_S300000_S300000x1_0 dst)
      (Host.gather gather_S100000x128_S300000x1_S300000x128_1_0_n_n_0_1_1128 x
        (broadcastInDim S300000x1 ![0] bcast_S300000_S300000x1_0
          (select (cmpi .slt src (broadcastInDim S300000 ![] bcast_S_S300000 (constantI S_ 32 0#32)))
            (addi src (broadcastInDim S300000 ![] bcast_S_S300000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S300000x1_S300000_n_0_0_1
            (broadcastInDim S100000 ![] bcast_S_S100000 (constant S_ .f32 0x00000000#32))
            (broadcastInDim S300000x1 ![0] bcast_S300000_S300000x1_0 dst)
            (broadcastInDim S300000 ![] bcast_S_S300000 (constant S_ .f32 0x3F800000#32)))
          (broadcastInDim S100000 ![] bcast_S_S100000 (constant S_ .f32 0x3F800000#32)))))

/-- The mean over incoming edges, as the program prints it: rows of `x` fetched at the (negative-wrapped) source of each
    edge, added into the row of the edge's target, and each row divided by `max(number of incoming edges, 1)`. -/
def meanWrites (x : (⟨S50000x128, .f32⟩ : BufTy).Contents (Elt F)) (src dst : (⟨S150000, .i32⟩ : BufTy).Contents (Elt F)) :
    (⟨S100000x128, .f32⟩ : BufTy).Contents (Elt F) :=
  Host.divf
    (Host.scatterAdd scatter_S100000x128_S150000x1_S150000x128_1_0_0_1
      (broadcastInDim S100000x128 ![] bcast_S_S100000x128 (constant S_ .f32 0x00000000#32))
      (broadcastInDim S150000x1 ![0] bcast_S150000_S150000x1_0 dst)
      (Host.gather gather_S50000x128_S150000x1_S150000x128_1_0_n_n_0_1_1128 x
        (broadcastInDim S150000x1 ![0] bcast_S150000_S150000x1_0
          (select (cmpi .slt src (broadcastInDim S150000 ![] bcast_S_S150000 (constantI S_ 32 0#32)))
            (addi src (broadcastInDim S150000 ![] bcast_S_S150000 (constantI S_ 32 50000#32))) src))))
    (broadcastInDim S100000x128 ![0, 1] bcast_S100000x1_S100000x128_0_1
      (broadcastInDim S100000x1 ![0] bcast_S100000_S100000x1_0
        (maximumf
          (Host.scatterAdd scatter_S100000_S150000x1_S150000_n_0_0_1
            (broadcastInDim S100000 ![] bcast_S_S100000 (constant S_ .f32 0x00000000#32))
            (broadcastInDim S150000x1 ![0] bcast_S150000_S150000x1_0 dst)
            (broadcastInDim S150000 ![] bcast_S_S150000 (constant S_ .f32 0x3F800000#32)))
          (broadcastInDim S100000 ![] bcast_S_S100000 (constant S_ .f32 0x3F800000#32)))))

/-- The mean over incoming edges, as the program prints it: rows of `x` fetched at the (negative-wrapped) source of each
    edge, added into the row of the edge's target, and each row divided by `max(number of incoming edges, 1)`. -/
def meanWb (x : (⟨S100000x128, .f32⟩ : BufTy).Contents (Elt F)) (src dst : (⟨S150000, .i32⟩ : BufTy).Contents (Elt F)) :
    (⟨S50000x128, .f32⟩ : BufTy).Contents (Elt F) :=
  Host.divf
    (Host.scatterAdd scatter_S50000x128_S150000x1_S150000x128_1_0_0_1
      (broadcastInDim S50000x128 ![] bcast_S_S50000x128 (constant S_ .f32 0x00000000#32))
      (broadcastInDim S150000x1 ![0] bcast_S150000_S150000x1_0 dst)
      (Host.gather gather_S100000x128_S150000x1_S150000x128_1_0_n_n_0_1_1128 x
        (broadcastInDim S150000x1 ![0] bcast_S150000_S150000x1_0
          (select (cmpi .slt src (broadcastInDim S150000 ![] bcast_S_S150000 (constantI S_ 32 0#32)))
            (addi src (broadcastInDim S150000 ![] bcast_S_S150000 (constantI S_ 32 100000#32))) src))))
    (broadcastInDim S50000x128 ![0, 1] bcast_S50000x1_S50000x128_0_1
      (broadcastInDim S50000x1 ![0] bcast_S50000_S50000x1_0
        (maximumf
          (Host.scatterAdd scatter_S50000_S150000x1_S150000_n_0_0_1
            (broadcastInDim S50000 ![] bcast_S_S50000 (constant S_ .f32 0x00000000#32))
            (broadcastInDim S150000x1 ![0] bcast_S150000_S150000x1_0 dst)
            (broadcastInDim S150000 ![] bcast_S_S150000 (constant S_ .f32 0x3F800000#32)))
          (broadcastInDim S50000 ![] bcast_S_S50000 (constant S_ .f32 0x3F800000#32)))))

end Cert.KernelIdeal.Stages

end
-- ==== Proof.Layer.lean ====
/-
  The two-layer network as whole-array functions of the program's arguments, in the two arrangements.

  An entry `(r, j)` of a layer's output is the scalar function of `Spec` applied to row `r` of each feature array
  and column `j` of each weight matrix; the weight tensors `[3, 128, 128]` and the biases `[3, 128]` are read at their
  edge type (0: paper cites paper, 1: author writes paper, 2: paper written by author). The first layer's outputs,
  after ReLU, are the second layer's features; the second layer has no activation. The neighbourhood means are the
  terms of `Stages`.
-/
import proofs.«103435_j85461259255857_1_alg».proof.Proof.Spec
import proofs.«103435_j85461259255857_1_alg».proof.Proof.Stages

noncomputable section

namespace Cert.KernelIdeal.Layer

open Idealize.ShloMosaic Idealize.ShloMosaic.ValueIdx Cert.KernelIdeal Cert.KernelIdeal.Stages GraphLayer

/-- Feature arrays of paper and author nodes, weight tensors, bias tables and edge lists, at the exact instance. -/
abbrev PaperArr := S100000x128.Idx → EReal
abbrev AuthorArr := S50000x128.Idx → EReal
abbrev Weights := S3x128x128.Idx → EReal
abbrev Biases := S3x128.Idx → EReal
abbrev Edges300 := (⟨S300000, .i32⟩ : BufTy).Contents (Elt Ideal)
abbrev Edges150 := (⟨S150000, .i32⟩ : BufTy).Contents (Elt Ideal)

/-- Paper nodes, root weights summed before the contraction. -/
def paperOutK (relu : Bool) (mc mw xp : PaperArr) (Wm Wr : Weights) (b : Biases) : PaperArr := fun i =>
  paperK relu (fun k => mc (ix2 (i 0) k)) (fun k => mw (ix2 (i 0) k)) (fun k => xp (ix2 (i 0) k))
    (fun k => Wm (ix3 0 k (i 1))) (fun k => Wm (ix3 1 k (i 1)))
    (fun k => Wr (ix3 0 k (i 1))) (fun k => Wr (ix3 1 k (i 1))) (b (ix2 0 (i 1))) (b (ix2 1 (i 1)))

/-- Paper nodes, the two edge types' outputs computed separately and added. -/
def paperOutR (relu : Bool) (mc mw xp : PaperArr) (Wm Wr : Weights) (b : Biases) : PaperArr := fun i =>
  paperR relu (fun k => mc (ix2 (i 0) k)) (fun k => mw (ix2 (i 0) k)) (fun k => xp (ix2 (i 0) k))
    (fun k => Wm (ix3 0 k (i 1))) (fun k => Wm (ix3 1 k (i 1)))
    (fun k => Wr (ix3 0 k (i 1))) (fun k => Wr (ix3 1 k (i 1))) (b (ix2 0 (i 1))) (b (ix2 1 (i 1)))

/-- Author nodes, accumulator from zero and bias last. -/
def authorOutK (relu : Bool) (mb xa : AuthorArr) (Wm Wr : Weights) (b : Biases) : AuthorArr := fun i =>
  authorK relu (fun k => mb (ix2 (i 0) k)) (fun k => xa (ix2 (i 0) k))
    (fun k => Wm (ix3 2 k (i 1))) (fun k => Wr (ix3 2 k (i 1))) (b (ix2 2 (i 1)))

/-- Author nodes, `(message + bias) + root`. -/
def authorOutR (relu : Bool) (mb xa : AuthorArr) (Wm Wr : Weights) (b : Biases) : AuthorArr := fun i =>
  authorR relu (fun k => mb (ix2 (i 0) k)) (fun k => xa (ix2 (i 0) k))
    (fun k => Wm (ix3 2 k (i 1))) (fun k => Wr (ix3 2 k (i 1))) (b (ix2 2 (i 1)))

section Net
variable (xp : PaperArr) (xa : AuthorArr) (Wm1 : Weights) (b1 : Biases) (Wr1 : Weights) (Wm2 : Weights) (b2 : Biases)
  (Wr2 : Weights) (cs cd : Edges300) (ws wd bs bd : Edges150)

/-- First-layer paper features (after ReLU), first arrangement. -/
def hpK : PaperArr := paperOutK true (meanCites (F := Ideal) xp cs cd) (meanWrites (F := Ideal) xa ws wd) xp Wm1 Wr1 b1
/-- First-layer author features (after ReLU), first arrangement. -/
def haK : AuthorArr := authorOutK true (meanWb (F := Ideal) xp bs bd) xa Wm1 Wr1 b1
/-- Second-layer paper output, first arrangement. -/
def opK : PaperArr :=
  paperOutK false (meanCites (F := Ideal) (hpK xp xa Wm1 b1 Wr1 cs cd ws wd) cs cd)
    (meanWrites (F := Ideal) (haK xp xa Wm1 b1 Wr1 bs bd) ws wd) (hpK xp xa Wm1 b1 Wr1 cs cd ws wd) Wm2 Wr2 b2
/-- Second-layer author output, first arrangement. -/
def oaK : AuthorArr :=
  authorOutK false (meanWb (F := Ideal) (hpK xp xa Wm1 b1 Wr1 cs cd ws wd) bs bd) (haK xp xa Wm1 b1 Wr1 bs bd) Wm2 Wr2 b2

/-- First-layer paper features (after ReLU), second arrangement. -/
def hpR : PaperArr := paperOutR true (meanCites (F := Ideal) xp cs cd) (meanWrites (F := Ideal) xa ws wd) xp Wm1 Wr1 b1
/-- First-layer author features (after ReLU), second arrangement. -/
def haR : AuthorArr := authorOutR true (meanWb (F := Ideal) xp bs bd) xa Wm1 Wr1 b1
/-- Second-layer paper output, second arrangement. -/
def opR : PaperArr :=
  paperOutR false (meanCites (F := Ideal) (hpR xp xa Wm1 b1 Wr1 cs cd ws wd) cs cd)
    (meanWrites (F := Ideal) (haR xp xa Wm1 b1 Wr1 bs bd) ws wd) (hpR xp xa Wm1 b1 Wr1 cs cd ws wd) Wm2 Wr2 b2
/-- Second-layer author output, second arrangement. -/
def oaR : AuthorArr :=
  authorOutR false (meanWb (F := Ideal) (hpR xp xa Wm1 b1 Wr1 cs cd ws wd) bs bd) (haR xp xa Wm1 b1 Wr1 bs bd) Wm2 Wr2 b2

end Net

end Cert.KernelIdeal.Layer

end
-- ==== Proof.RefRead.lean ====
/-
  The reference program's two results are the second arrangement of the two-layer network.

  Each of the reference's layers is, for the paper nodes, the sum of two edge types' outputs
  `(mean · Wm[e] + b[e]) + x · Wr[e]` and, for the author nodes, one such output; the weight matrices and bias rows are
  slices of the `[3,128,128]` and `[3,128]` arguments read at the edge type. These blocks are read once at an entry for
  arbitrary feature arrays and then used for both layers. The neighbourhood means are never opened: each is, as a
  whole term, one of the three means of `Stages` applied to the layer's features and the edge lists.
-/
import proofs.«103435_j85461259255857_1_alg».proof.Defs
import proofs.«103435_j85461259255857_1_alg».proof.Proof.Gen.ReferenceIdeal.Read
import proofs.«103435_j85461259255857_1_alg».proof.Proof.Layer

open scoped BigOperators

noncomputable section

namespace Cert.ReferenceIdeal.RefValue

open Cert.ReferenceIdeal Cert.ReferenceIdeal.Read Idealize.ShloMosaic Idealize.ShloMosaic.ValueIdx
  Cert.KernelIdeal.Layer GraphLayer

/-! ## The weight matrices and bias rows read at an entry -/

/-- The matrix of edge type 0 of a weight tensor, at row `k` and column `j`. -/
theorem w0_read (W : Weights) (k j : Fin 128) : val_main_v1 (F := Ideal) W (ix2 k j) = W (ix3 0 k j) := by
  rw [val_main_v1_apply, val_main_v0_apply]
  congr 1
  funext a
  apply Fin.ext
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- The matrix of edge type 1 of a weight tensor, at row `k` and column `j`. -/
theorem w1_read (W : Weights) (k j : Fin 128) : val_main_v32 (F := Ideal) W (ix2 k j) = W (ix3 1 k j) := by
  rw [val_main_v32_apply, val_main_v31_apply]
  congr 1
  funext a
  apply Fin.ext
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- The matrix of edge type 2 of a weight tensor, at row `k` and column `j`. -/
theorem w2_read (W : Weights) (k j : Fin 128) : val_main_v64 (F := Ideal) W (ix2 k j) = W (ix3 2 k j) := by
  rw [val_main_v64_apply, val_main_v63_apply]
  congr 1
  funext a
  apply Fin.ext
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- The bias row of edge type 0 broadcast over the paper nodes: every row reads the bias at the column. -/
theorem b0_read (b : Biases) (r : Fin 100000) (j : Fin 128) : val_main_v27 (F := Ideal) b (ix2 r j) = b (ix2 0 j) := by
  rw [val_main_v27_apply, val_main_v26_apply, val_main_v3_apply, val_main_v2_apply]
  congr 1
  funext a
  apply Fin.ext
  have hj := j.isLt
  match a with
  | ⟨0, _⟩ => rfl
  | ⟨1, _⟩ => show j.val % 128 = j.val; omega

/-- The bias row of edge type 1 broadcast over the paper nodes. -/
theorem b1_read (b : Biases) (r : Fin 100000) (j : Fin 128) : val_main_v58 (F := Ideal) b (ix2 r j) = b (ix2 1 j) := by
  rw [val_main_v58_apply, val_main_v57_apply, val_main_v34_apply, val_main_v33_apply]
  congr 1
  funext a
  apply Fin.ext
  have hj := j.isLt
  match a with
  | ⟨0, _⟩ => rfl
  | ⟨1, _⟩ => show j.val % 128 = j.val; omega

/-- The bias row of edge type 2 broadcast over the author nodes. -/
theorem b2_read (b : Biases) (r : Fin 50000) (j : Fin 128) : val_main_v90 (F := Ideal) b (ix2 r j) = b (ix2 2 j) := by
  rw [val_main_v90_apply, val_main_v89_apply, val_main_v66_apply, val_main_v65_apply]
  congr 1
  funext a
  apply Fin.ext
  have hj := j.isLt
  match a with
  | ⟨0, _⟩ => rfl
  | ⟨1, _⟩ => show j.val % 128 = j.val; omega

/-! ## The contractions read at an entry -/

/-- A `[100000,128] × [128,128]` contraction at the exact instance: the sum over the shared axis of the products. -/
theorem dotP_read (a : PaperArr) (w : (⟨S128x128, .f32⟩ : BufTy).Contents (Elt Ideal)) (r : Fin 100000) (j : Fin 128) :
    Host.dotGeneral (F := Ideal) (φ₁ := .f32) (φ₂ := .f32) dot_S100000x128_S128x128_S100000x128_1_0_0_1_n_n none a w (ix2 r j)
      = ∑ k : Fin 128, a (ix2 r k) * w (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r j) ((ValueIdx.contrEquiv1 dot_S100000x128_S128x128_S100000x128_1_0_0_1_n_n 128 rfl rfl).symm k) = ix2 r k := funext fun a => Fin.ext (by
    match a with
    | ⟨0, _⟩ => exact lhs_main_v25_0 _ _
    | ⟨1, _⟩ => exact (lhs_main_v25_1 _ _).trans hk)
  have er : dot_S100000x128_S128x128_S100000x128_1_0_0_1_n_n.rhsIdx (ix2 r j) ((ValueIdx.contrEquiv1 dot_S100000x128_S128x128_S100000x128_1_0_0_1_n_n 128 rfl rfl).symm k) = ix2 k j := funext fun a => Fin.ext (by
    match a with
    | ⟨0, _⟩ => exact (rhs_main_v25_0 _ _).trans hk
    | ⟨1, _⟩ => exact rhs_main_v25_1 _ _)
  rw [el, er]

/-- A `[50000,128] × [128,128]` contraction at the exact instance: the sum over the shared axis of the products. -/
theorem dotA_read (a : AuthorArr) (w : (⟨S128x128, .f32⟩ : BufTy).Contents (Elt Ideal)) (r : Fin 50000) (j : Fin 128) :
    Host.dotGeneral (F := Ideal) (φ₁ := .f32) (φ₂ := .f32) dot_S50000x128_S128x128_S50000x128_1_0_0_1_n_n none a w (ix2 r j)
      = ∑ k : Fin 128, a (ix2 r k) * w (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r j) ((ValueIdx.contrEquiv1 dot_S50000x128_S128x128_S50000x128_1_0_0_1_n_n 128 rfl rfl).symm k) = ix2 r k := funext fun a => Fin.ext (by
    match a with
    | ⟨0, _⟩ => exact lhs_main_v92_0 _ _
    | ⟨1, _⟩ => exact (lhs_main_v92_1 _ _).trans hk)
  have er : dot_S50000x128_S128x128_S50000x128_1_0_0_1_n_n.rhsIdx (ix2 r j) ((ValueIdx.contrEquiv1 dot_S50000x128_S128x128_S50000x128_1_0_0_1_n_n 128 rfl rfl).symm k) = ix2 k j := funext fun a => Fin.ext (by
    match a with
    | ⟨0, _⟩ => exact (rhs_main_v92_0 _ _).trans hk
    | ⟨1, _⟩ => exact rhs_main_v92_1 _ _)
  rw [el, er]

/-! ## One layer's blocks, for arbitrary features -/

/-- The paper nodes' block as the reference prints it: per edge type `(mean · Wm + b) + x · Wr`, the two added. -/
def paperBlock (mc mw xp : PaperArr) (Wm Wr : Weights) (b : Biases) : PaperArr :=
  addf (F := Ideal) (s := S100000x128) (φ := .f32)
    (addf (F := Ideal) (s := S100000x128) (φ := .f32)
      (addf (F := Ideal) (s := S100000x128) (φ := .f32) (Host.dotGeneral (F := Ideal) (φ₁ := .f32) (φ₂ := .f32) dot_S100000x128_S128x128_S100000x128_1_0_0_1_n_n none mc (val_main_v1 (F := Ideal) Wm)) (val_main_v27 (F := Ideal) b))
      (Host.dotGeneral (F := Ideal) (φ₁ := .f32) (φ₂ := .f32) dot_S100000x128_S128x128_S100000x128_1_0_0_1_n_n none xp (val_main_v1 (F := Ideal) Wr)))
    (addf (F := Ideal) (s := S100000x128) (φ := .f32)
      (addf (F := Ideal) (s := S100000x128) (φ := .f32) (Host.dotGeneral (F := Ideal) (φ₁ := .f32) (φ₂ := .f32) dot_S100000x128_S128x128_S100000x128_1_0_0_1_n_n none mw (val_main_v32 (F := Ideal) Wm)) (val_main_v58 (F := Ideal) b))
      (Host.dotGeneral (F := Ideal) (φ₁ := .f32) (φ₂ := .f32) dot_S100000x128_S128x128_S100000x128_1_0_0_1_n_n none xp (val_main_v32 (F := Ideal) Wr)))

/-- The author nodes' block as the reference prints it: `(mean · Wm + b) + x · Wr` at edge type 2. -/
def authorBlock (mb xa : AuthorArr) (Wm Wr : Weights) (b : Biases) : AuthorArr :=
  addf (F := Ideal) (s := S50000x128) (φ := .f32)
    (addf (F := Ideal) (s := S50000x128) (φ := .f32) (Host.dotGeneral (F := Ideal) (φ₁ := .f32) (φ₂ := .f32) dot_S50000x128_S128x128_S50000x128_1_0_0_1_n_n none mb (val_main_v64 (F := Ideal) Wm)) (val_main_v90 (F := Ideal) b))
    (Host.dotGeneral (F := Ideal) (φ₁ := .f32) (φ₂ := .f32) dot_S50000x128_S128x128_S50000x128_1_0_0_1_n_n none xa (val_main_v64 (F := Ideal) Wr))

/-- The paper block without activation is the second arrangement's paper layer. -/
theorem paperBlock_eq (mc mw xp : PaperArr) (Wm Wr : Weights) (b : Biases) :
    paperBlock mc mw xp Wm Wr b = paperOutR false mc mw xp Wm Wr b := by
  funext i
  obtain ⟨r, j, rfl⟩ : ∃ (r : Fin 100000) (j : Fin 128), i = ix2 r j := ⟨i 0, i 1, ValueIdx.eq_ix2 i⟩
  unfold paperBlock paperOutR paperR GraphLayer.act
  simp only [addf_apply, dotP_read, w0_read, w1_read, b0_read, b1_read]
  rfl

/-- The author block without activation is the second arrangement's author layer. -/
theorem authorBlock_eq (mb xa : AuthorArr) (Wm Wr : Weights) (b : Biases) :
    authorBlock mb xa Wm Wr b = authorOutR false mb xa Wm Wr b := by
  funext i
  obtain ⟨r, j, rfl⟩ : ∃ (r : Fin 50000) (j : Fin 128), i = ix2 r j := ⟨i 0, i 1, ValueIdx.eq_ix2 i⟩
  unfold authorBlock authorOutR authorR GraphLayer.act
  simp only [addf_apply, dotA_read, w2_read, b2_read]
  rfl

/-! ## The neighbourhood means, each as one term -/

/-- First layer, papers citing papers. -/
theorem mean1_cites (x0 : PaperArr) (x8 x9 : Edges300) :
    val_main_v24 (F := Ideal) x0 x8 x9 = Cert.KernelIdeal.Stages.meanCites (F := Ideal) x0 x8 x9 := rfl

/-- First layer, authors writing papers. -/
theorem mean1_writes (x1 : AuthorArr) (x10 x11 : Edges150) :
    val_main_v55 (F := Ideal) x1 x10 x11 = Cert.KernelIdeal.Stages.meanWrites (F := Ideal) x1 x10 x11 := rfl

/-- First layer, papers written by authors. -/
theorem mean1_wb (x0 : PaperArr) (x12 x13 : Edges150) :
    val_main_v87 (F := Ideal) x0 x12 x13 = Cert.KernelIdeal.Stages.meanWb (F := Ideal) x0 x12 x13 := rfl

/-! ## ReLU -/

/-- The zero array ReLU compares the paper features against. -/
theorem relu0_read (i : S100000x128.Idx) : val_main_call0_v0 (F := Ideal) i = 0 := by
  rw [val_main_call0_v0_apply, val_main_call0_cst_apply]
  exact Ideal.ofBits_zero_f32

/-- The zero array ReLU compares the author features against. -/
theorem relu1_read (i : S50000x128.Idx) : val_main_call1_v0 (F := Ideal) i = 0 := by
  rw [val_main_call1_v0_apply, val_main_call1_cst_apply]
  exact Ideal.ofBits_zero_f32

/-- With ReLU the paper layer's entry is the maximum of the entry without activation and zero. -/
theorem paperOutR_relu (mc mw xp : PaperArr) (Wm Wr : Weights) (b : Biases) (i : S100000x128.Idx) :
    paperOutR true mc mw xp Wm Wr b i = max (paperOutR false mc mw xp Wm Wr b i) 0 := by
  unfold paperOutR paperR GraphLayer.act
  simp

/-- With ReLU the author layer's entry is the maximum of the entry without activation and zero. -/
theorem authorOutR_relu (mb xa : AuthorArr) (Wm Wr : Weights) (b : Biases) (i : S50000x128.Idx) :
    authorOutR true mb xa Wm Wr b i = max (authorOutR false mb xa Wm Wr b i) 0 := by
  unfold authorOutR authorR GraphLayer.act
  simp

/-! ## The first layer -/

/-- The reference's first-layer paper features are the second arrangement's. -/
theorem layer1_paper (x0 : PaperArr) (x1 : AuthorArr) (x2 : Weights) (x3 : Biases) (x4 : Weights)
    (x8 x9 : Edges300) (x10 x11 : Edges150) :
    val_main_v94 (F := Ideal) x0 x1 x2 x3 x4 x8 x9 x10 x11 = hpR x0 x1 x2 x3 x4 x8 x9 x10 x11 := by
  have h : val_main_v62 (F := Ideal) x0 x1 x2 x3 x4 x8 x9 x10 x11
      = paperBlock (val_main_v24 (F := Ideal) x0 x8 x9) (val_main_v55 (F := Ideal) x1 x10 x11) x0 x2 x4 x3 := rfl
  funext i
  rw [val_main_v94_apply, h, paperBlock_eq, mean1_cites, mean1_writes, relu0_read, Ideal.maximumf_def]
  unfold hpR
  rw [paperOutR_relu]

/-- The reference's first-layer author features are the second arrangement's. -/
theorem layer1_author (x0 : PaperArr) (x1 : AuthorArr) (x2 : Weights) (x3 : Biases) (x4 : Weights)
    (x12 x13 : Edges150) :
    val_main_v95 (F := Ideal) x0 x1 x2 x3 x4 x12 x13 = haR x0 x1 x2 x3 x4 x12 x13 := by
  have h : val_main_v93 (F := Ideal) x0 x1 x2 x3 x4 x12 x13
      = authorBlock (val_main_v87 (F := Ideal) x0 x12 x13) x1 x2 x4 x3 := rfl
  funext i
  rw [val_main_v95_apply, h, authorBlock_eq, mean1_wb, relu1_read, Ideal.maximumf_def]
  unfold haR
  rw [authorOutR_relu]

/-! ## The second layer's means, each as one term of the first layer's features -/

/-- Second layer, papers citing papers. -/
theorem mean2_cites (x0 : PaperArr) (x1 : AuthorArr) (x2 : Weights) (x3 : Biases) (x4 : Weights)
    (x8 x9 : Edges300) (x10 x11 : Edges150) :
    val_main_v120 (F := Ideal) x0 x1 x2 x3 x4 x8 x9 x10 x11
      = Cert.KernelIdeal.Stages.meanCites (F := Ideal) (val_main_v94 (F := Ideal) x0 x1 x2 x3 x4 x8 x9 x10 x11) x8 x9 := rfl

/-- Second layer, authors writing papers. -/
theorem mean2_writes (x0 : PaperArr) (x1 : AuthorArr) (x2 : Weights) (x3 : Biases) (x4 : Weights)
    (x10 x11 x12 x13 : Edges150) :
    val_main_v151 (F := Ideal) x0 x1 x2 x3 x4 x10 x11 x12 x13
      = Cert.KernelIdeal.Stages.meanWrites (F := Ideal) (val_main_v95 (F := Ideal) x0 x1 x2 x3 x4 x12 x13) x10 x11 := rfl

/-- Second layer, papers written by authors. -/
theorem mean2_wb (x0 : PaperArr) (x1 : AuthorArr) (x2 : Weights) (x3 : Biases) (x4 : Weights)
    (x8 x9 : Edges300) (x10 x11 x12 x13 : Edges150) :
    val_main_v183 (F := Ideal) x0 x1 x2 x3 x4 x8 x9 x10 x11 x12 x13
      = Cert.KernelIdeal.Stages.meanWb (F := Ideal) (val_main_v94 (F := Ideal) x0 x1 x2 x3 x4 x8 x9 x10 x11) x12 x13 := rfl

/-! ## The two results -/

/-- The reference's paper result is the second arrangement's second-layer paper output. -/
theorem result_paper (x0 : PaperArr) (x1 : AuthorArr) (x2 : Weights) (x3 : Biases) (x4 x5 : Weights) (x6 : Biases)
    (x7 : Weights) (x8 x9 : Edges300) (x10 x11 x12 x13 : Edges150) :
    val_main_v158 (F := Ideal) x0 x1 x2 x3 x4 x5 x6 x7 x8 x9 x10 x11 x12 x13
      = opR x0 x1 x2 x3 x4 x5 x6 x7 x8 x9 x10 x11 x12 x13 := by
  have h : val_main_v158 (F := Ideal) x0 x1 x2 x3 x4 x5 x6 x7 x8 x9 x10 x11 x12 x13
      = paperBlock (val_main_v120 (F := Ideal) x0 x1 x2 x3 x4 x8 x9 x10 x11)
          (val_main_v151 (F := Ideal) x0 x1 x2 x3 x4 x10 x11 x12 x13)
          (val_main_v94 (F := Ideal) x0 x1 x2 x3 x4 x8 x9 x10 x11) x5 x7 x6 := rfl
  rw [h, paperBlock_eq, mean2_cites, mean2_writes, layer1_paper, layer1_author]
  rfl

/-- The reference's author result is the second arrangement's second-layer author output. -/
theorem result_author (x0 : PaperArr) (x1 : AuthorArr) (x2 : Weights) (x3 : Biases) (x4 x5 : Weights) (x6 : Biases)
    (x7 : Weights) (x8 x9 : Edges300) (x10 x11 x12 x13 : Edges150) :
    val_main_v189 (F := Ideal) x0 x1 x2 x3 x4 x5 x6 x7 x8 x9 x10 x11 x12 x13
      = oaR x0 x1 x2 x3 x4 x5 x6 x7 x8 x9 x10 x11 x12 x13 := by
  have h : val_main_v189 (F := Ideal) x0 x1 x2 x3 x4 x5 x6 x7 x8 x9 x10 x11 x12 x13
      = authorBlock (val_main_v183 (F := Ideal) x0 x1 x2 x3 x4 x8 x9 x10 x11 x12 x13)
          (val_main_v95 (F := Ideal) x0 x1 x2 x3 x4 x12 x13) x5 x7 x6 := rfl
  rw [h, authorBlock_eq, mean2_wb, layer1_paper, layer1_author]
  rfl

end Cert.ReferenceIdeal.RefValue

end
-- ==== Proof.Finite.lean ====
/-
  From the precondition to real inputs.

  The precondition says of each of the eight float arrays that every entry's absolute value is below plus infinity,
  the eight statements joined by `and`. An extended real whose absolute value `max x (-x)` is below plus infinity is
  neither infinity (either one has absolute value plus infinity), so it is a real number. Hence all eight arrays have
  only real entries.
-/
import Idealize.ShloMosaic.Lib.ReduceAll
import Idealize.ShloMosaic.Lib.ValueIdx
import proofs.«103435_j85461259255857_1_alg».proof.Defs
import proofs.«103435_j85461259255857_1_alg».proof.Proof.Spec

noncomputable section

namespace Cert.KernelIdeal.Finite

open Idealize.ShloMosaic Idealize.SL.Sem GraphLayer

/-- The rank-zero shape has one index. -/
instance : Subsingleton Cert.Pre_finite_inputs.S_.Idx := ⟨fun a b => funext fun d => d.elim0⟩

/-- The bit pattern the comparison is made against denotes plus infinity. -/
theorem ofBits_inf_f32 : Ideal.ofBits .f32 0x7F800000#32 = ⊤ := by
  simp [Ideal.ofBits, Ideal.ieee]

/-- An extended real whose absolute value is below plus infinity is a real number. -/
theorem isR_of_abs_lt_top (x : EReal) (h : Ideal.cmp .olt (max x (-x)) (Ideal.ofBits .f32 0x7F800000#32) = 1#1) :
    IsR x := by
  rw [ofBits_inf_f32] at h
  induction x using EReal.rec with
  | bot => simp [Ideal.cmp] at h
  | coe r => exact ⟨r, rfl⟩
  | top => simp [Ideal.cmp] at h

/-- One conjunct of the precondition: if "every entry's absolute value is below plus infinity" came out true, every
    entry is a real number. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf x) (broadcastInDim s ![] hb (constant Cert.Pre_finite_inputs.S_ .f32 0x7F800000#32)))
        init hr hu ValueIdx.ix0 = 1#1) : AllReal x := by
  intro i
  exact isR_of_abs_lt_top (x i) (Host.reduce_andi_all _ init hr hu ValueIdx.ix0 e i)

/-- Under the precondition each of the eight float arguments has only real entries, on every device. -/
theorem args_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7)) := by
  have h0 := congrFun (h c) ValueIdx.ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all _ _ _ _ _ e0, allReal_of_all _ _ _ _ _ e1, allReal_of_all _ _ _ _ _ e2,
    allReal_of_all _ _ _ _ _ e3, allReal_of_all _ _ _ _ _ e4, allReal_of_all _ _ _ _ _ e5,
    allReal_of_all _ _ _ _ _ e6, allReal_of_all _ _ _ _ _ e7⟩

end Cert.KernelIdeal.Finite

end
-- ==== Proof.LibEntries.lean ====
/-
  Every entry of a gathered or concatenated array is an entry of an operand, so any property of all operand entries
  passes to the result.

  A gather reads, at each result index, the operand at one computed index; a concatenation reads, at each result
  index, one of the listed operands (the one whose span along the joined axis holds the index) at one index. Neither
  computes on the values it moves. Hence a predicate that holds of every entry of every operand holds of every entry
  of the result, whatever the index arithmetic is.
-/
import Idealize.ShloMosaic.PureOps.ShapeOps

namespace Idealize.ShloMosaic.Entries

open Idealize.ShloMosaic

variable {α : Type} {P : α → Prop}

/-- Every entry of a gather is an entry of its operand. -/
theorem gather_entry {s si t : Shape} {w : Nat} (d : GatherDims s si t) (x : s.Idx → α) (idx : IVec si w)
    (hx : ∀ i, P (x i)) : ∀ j, P (Host.gather d x idx j) :=
  fun j => hx (d.operandIdx j idx)

/-- Every entry of a concatenation is an entry of one of the listed operands. -/
theorem concatenate_entry (t : Shape) (a : Fin t.rank) (xs : List ((s : Shape) × (s.Idx → α)))
    (h : Shape.Concatenates (xs.map (·.1)) t a) (hxs : ∀ p ∈ xs, ∀ i, P (p.2 i)) :
    ∀ j, P (concatenate t a xs h j) := by
  intro j
  unfold concatenate
  dsimp only
  exact hxs _ (List.getElem_mem _) _

/-- The concatenation of two operands: a property of every entry of each holds of every entry of the result. -/
theorem concatenate_pair_entry (t : Shape) (a : Fin t.rank) {sA sB : Shape} (A : sA.Idx → α) (B : sB.Idx → α)
    (h : Shape.Concatenates (([⟨sA, A⟩, ⟨sB, B⟩] : List ((s : Shape) × (s.Idx → α))).map (·.1)) t a)
    (hA : ∀ i, P (A i)) (hB : ∀ i, P (B i)) : ∀ j, P (concatenate t a [⟨sA, A⟩, ⟨sB, B⟩] h j) := by
  refine concatenate_entry t a _ h ?_
  intro p hp
  rcases List.mem_cons.1 hp with rfl | hp
  · exact hA
  rcases List.mem_cons.1 hp with rfl | hp
  · exact hB
  · exact absurd hp (List.not_mem_nil)

end Idealize.ShloMosaic.Entries
-- ==== Proof.LibRowScatter.lean ====
/-
  Rows of a matrix moved by an index column, read at an index.

  A graph layer gathers the rows of a node table `[N, C]` at one index per edge (`[E, 1]`, the edge's source) and
  adds the gathered rows `[E, C]` into a node table at another index per edge (the edge's target). This file reads
  both operations at one entry, for any extents `N`, `E`, `C`:

  * `gather_rows_apply`: entry `(e, c)` of the gathered table is the operand's entry `(r, c)`, where `r` is the
    edge's index read as a signed integer and clamped into `[0, N - 1]`; `gather_vec_apply` is the same for a
    vector `[N]` gathered into `[E]`;
  * `scatterAdd_rows_apply`: over the extended reals, entry `(n, c)` of the accumulated table is the operand's
    entry plus the sum, over the edges whose index read as a signed integer IS `n`, of the update's entry `(e, c)`.
    An edge whose index is negative or at least `N` contributes to no row.
    (`host_scatterAdd_rows_apply` is the same statement for the host operation `Host.scatterAdd` at the ideal instance.)
  * `clamp_of_inRange` / `wrapNeg_of_nonneg`: an index already in `[0, N)` is left alone both by the clamp and by
    the normalisation of negative indices `select (v < 0) (v + N) v` that precedes a gather.
-/
import Idealize.ShloMosaic.Lib.ValueIdx
import Idealize.ShloMosaic.Lib.Affine

noncomputable section

open scoped BigOperators

namespace Idealize.ShloMosaic.RowScatter

open Idealize.ShloMosaic Idealize.ShloMosaic.ValueIdx

/-! ## Two rank-2 indices are equal when their coordinates are -/

theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

/-! ## Gathering rows -/

/-- The dimension numbers of `x[idx]` for a table `x : [N, C]` and one row index per edge, `idx : [E, 1]`:
    the row axis is collapsed and indexed, the column axis is the slice. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the gathered rows: the table's row at edge `e`'s index, read signed and clamped into
    `[0, N - 1]`, at column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e (0 : Fin 1))).toInt.toNat (N - 1), by omega⟩ c) := by
  unfold Host.gather
  refine congrArg x (funext fun a => Fin.ext ?_)
  show (rowGather N E C wf).start (ix2 e c) idx a + (rowGather N E C wf).batchCoord (ix2 e c) a
      + (rowGather N E C wf).offCoord (ix2 e c) a = _
  rw [GatherDims.batchCoord_eq_zero _ _ _ List.not_mem_nil]
  revert a
  refine Fin.forall_fin_two.mpr ⟨?_, ?_⟩
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show ¬ (1 : Fin 2) ∈ (rowGather N E C wf).startIndexMap from
      fun h => absurd (List.mem_singleton.mp h) (show (1 : Fin 2) ≠ 0 by decide))]
    simp only [Nat.zero_add, Nat.add_zero]
    unfold GatherDims.offCoord
    rw [dif_pos (show (1 : Fin 2) ∈ (rowGather N E C wf).sKept from
      (GatherDims.mem_sKept _ _).mpr ⟨fun h => absurd (List.mem_singleton.mp h) (show (1 : Fin 2) ≠ 0 by decide), List.not_mem_nil⟩)]
    rfl

/-- The dimension numbers of `v[idx]` for a vector `v : [N]` and one index per edge, `idx : [E, 1]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector: the vector at edge `e`'s index, read signed and clamped into `[0, N - 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  refine congrArg x (funext fun a => Fin.ext ?_)
  obtain rfl : a = 0 := Subsingleton.elim _ _
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Adding rows into a table -/

/-- The dimension numbers of `x.at[idx].add(u)` for a table `x : [N, C]`, one row index per edge `idx : [E, 1]`
    and one row of updates per edge `u : [E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis receives a window axis of the updates exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

/-- Where update entry `(e, c)` lands: row `t`, column `c`, when edge `e`'s index read signed is a row `t` of the
    table; nowhere when it is negative or at least `N`. -/
theorem rowScatter_resultIdx? {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = if h : 0 ≤ (idx (ix2 e (0 : Fin 1))).toInt ∧ (idx (ix2 e (0 : Fin 1))).toInt < N then
          some (ix2 ⟨(idx (ix2 e (0 : Fin 1))).toInt.toNat, by omega⟩ c)
        else none := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e c) idx 1 = 0 := by
    unfold ScatterDims.start
    rw [dif_neg (show ¬ (1 : Fin 2) ∈ (rowScatter N E C wf).scatterDimsToOperandDims from
      fun h => absurd (List.mem_singleton.mp h) (show (1 : Fin 2) ≠ 0 by decide))]
  have hw0 : (rowScatter N E C wf).window (ix2 e c) 0 = 0 := by
    unfold ScatterDims.window
    rw [dif_neg (show ¬ (0 : Fin 2) ∈ (rowScatter N E C wf).sKept from
      fun h => (mem_sKept _ _).mp h (List.mem_singleton.mpr rfl))]
  have hw1 : (rowScatter N E C wf).window (ix2 e c) 1 = c.val := by
    unfold ScatterDims.window
    rw [dif_pos (show (1 : Fin 2) ∈ (rowScatter N E C wf).sKept from
      (mem_sKept _ _).mpr fun h => absurd (List.mem_singleton.mp h) (show (1 : Fin 2) ≠ 0 by decide))]
    rfl
  unfold ScatterDims.resultIdx?
  by_cases h : 0 ≤ (idx (ix2 e (0 : Fin 1))).toInt ∧ (idx (ix2 e (0 : Fin 1))).toInt < N
  · have hall : ∀ a : Fin 2, 0 ≤ (rowScatter N E C wf).start (ix2 e c) idx a + (rowScatter N E C wf).window (ix2 e c) a
        ∧ (rowScatter N E C wf).start (ix2 e c) idx a + (rowScatter N E C wf).window (ix2 e c) a
          < ((⟨2, ![N, C]⟩ : Shape).size a : ℤ) := by
      refine Fin.forall_fin_two.mpr ⟨?_, ?_⟩
      · rw [hs0, hw0]
        refine ⟨by omega, ?_⟩
        show (idx (ix2 e (0 : Fin 1))).toInt + ((0 : ℕ) : ℤ) < (N : ℤ)
        omega
      · rw [hs1, hw1]
        refine ⟨by omega, ?_⟩
        show (0 : ℤ) + (c.val : ℤ) < (C : ℤ)
        have := c.isLt; omega
    rw [dif_pos hall, dif_pos h]
    refine congrArg some (funext fun a => Fin.ext ?_)
    match a with
    | ⟨0, _⟩ =>
      show ((rowScatter N E C wf).start (ix2 e c) idx 0 + (rowScatter N E C wf).window (ix2 e c) 0).toNat = _
      rw [hs0, hw0]; simp
    | ⟨1, _⟩ =>
      show ((rowScatter N E C wf).start (ix2 e c) idx 1 + (rowScatter N E C wf).window (ix2 e c) 1).toNat = _
      rw [hs1, hw1]; simp
  · rw [dif_neg h, dif_neg]
    intro hall
    have h0 := hall 0
    rw [hs0, hw0] at h0
    apply h
    refine ⟨by omega, ?_⟩
    have h02 : (idx (ix2 e (0 : Fin 1))).toInt + ((0 : ℕ) : ℤ) < (N : ℤ) := h0.2
    omega

/-- Entry `(n, c)` of a table after rows are added into it, over the extended reals: the entry before, plus the
    sum over the edges whose index read signed is `n` of the update's entry `(e, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c)
        + ∑ e ∈ Finset.univ.filter (fun e : Fin E => (idx (ix2 e (0 : Fin 1))).toInt = (n.val : ℤ)), upd (ix2 e c) := by
  unfold Ideal.hostScatterAdd
  refine congrArg (x (ix2 n c) + ·) ?_
  rw [Finset.sum_filter, Finset.sum_filter, sum_idx2]
  refine Finset.sum_congr rfl fun e _ => ?_
  have hiff : ∀ c' : Fin C, ((rowScatter N E C wf).resultIdx? (ix2 e c') idx = some (ix2 n c))
      ↔ ((idx (ix2 e (0 : Fin 1))).toInt = (n.val : ℤ) ∧ c' = c) := by
    intro c'
    rw [rowScatter_resultIdx?]
    by_cases h : 0 ≤ (idx (ix2 e (0 : Fin 1))).toInt ∧ (idx (ix2 e (0 : Fin 1))).toInt < N
    · rw [dif_pos h, Option.some_inj, ix2_inj]
      constructor
      · rintro ⟨h1, h2⟩
        refine ⟨?_, h2⟩
        have := congrArg Fin.val h1
        simp only at this
        omega
      · rintro ⟨h1, h2⟩
        refine ⟨Fin.ext ?_, h2⟩
        show (idx (ix2 e (0 : Fin 1))).toInt.toNat = n.val
        omega
    · rw [dif_neg h]
      constructor
      · intro hh; exact absurd hh (by simp)
      · rintro ⟨h1, _⟩
        exfalso; apply h
        have := n.isLt
        omega
  by_cases ht : (idx (ix2 e (0 : Fin 1))).toInt = (n.val : ℤ)
  · rw [if_pos ht]
    rw [Finset.sum_eq_single c]
    · rw [if_pos ((hiff c).mpr ⟨ht, rfl⟩)]
    · intro c' _ hne
      rw [if_neg (fun hh => hne ((hiff c').mp hh).2)]
    · intro hc; exact absurd (Finset.mem_univ c) hc
  · rw [if_neg ht]
    refine Finset.sum_eq_zero fun c' _ => ?_
    rw [if_neg (fun hh => ht ((hiff c').mp hh).1)]

/-- The same for the host's accumulating scatter at the ideal instance, which is that sum. -/
theorem host_scatterAdd_rows_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w)
    (upd : FVec Ideal ⟨2, ![E, C]⟩ .f32) (n : Fin N) (c : Fin C) :
    Host.scatterAdd (rowScatter N E C wf) x idx upd (ix2 n c)
      = x (ix2 n c)
        + ∑ e ∈ Finset.univ.filter (fun e : Fin E => (idx (ix2 e (0 : Fin 1))).toInt = (n.val : ℤ)), upd (ix2 e c) :=
  scatterAdd_rows_apply wf x idx upd n c

/-! ## An index already in range -/

/-- The clamp into `[0, N - 1]` leaves an index in `[0, N)` alone. -/
theorem clamp_of_inRange {w N : Nat} (v : BitVec w) (h0 : 0 ≤ v.toInt) (hN : v.toInt < N) :
    min v.toInt.toNat (N - 1) = v.toInt.toNat := by
  omega

/-- The normalisation of a possibly negative index, `select (v < 0) (v + N) v` one element at a time, leaves a
    non-negative index alone. -/
theorem wrapNeg_of_nonneg {w : Nat} (v z nn : BitVec w) (hz : z.toInt = 0) (h0 : 0 ≤ v.toInt) :
    Scalar.select (IntOp.cmpi .slt v z) (IntOp.addi v nn) v = v := by
  unfold Scalar.select
  rw [if_neg]
  intro h
  have := IntOp.cmpi_slt.mp h
  omega

end Idealize.ShloMosaic.RowScatter

end
-- ==== Proof.LibVecScatter.lean ====
/-
  Values added into a vector at one index per edge, read at an entry.

  `x.at[idx].add(u)` for a vector `x : [N]`, one index per edge `idx : [E, 1]` and one value per edge `u : [E]`:
  over the extended reals entry `n` of the result is the operand's entry plus the sum, over the edges whose index
  read as a signed integer IS `n`, of the edge's value. An edge whose index is negative or at least `N`
  contributes to no entry. (Counting the edges into each node is the case of a zero operand and all values one.)
-/
import Idealize.ShloMosaic.Lib.ValueIdx
import Idealize.ShloMosaic.Lib.Affine

noncomputable section

open scoped BigOperators

namespace Idealize.ShloMosaic.VecScatter

open Idealize.ShloMosaic Idealize.ShloMosaic.ValueIdx

/-- The dimension numbers of `x.at[idx].add(u)` for a vector `x : [N]`, one index per edge and one value per edge. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- An operand axis receives a window axis of the updates exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

/-- A sum over the indices of a vector of length `n`, coordinate by coordinate. -/
theorem sum_vecIdx {M : Type*} [AddCommMonoid M] {n : Nat} (f : (⟨1, ![n]⟩ : Shape).Idx → M) :
    ∑ j, f j = ∑ i : Fin n, f (ix1 i) :=
  Fintype.sum_equiv
    { toFun := fun j => j 0, invFun := fun i => ix1 i, left_inv := fun j => (eq_ix1 j).symm, right_inv := fun _ => rfl }
    f (fun i => f (ix1 i)) fun j => congrArg f (eq_ix1 j)

/-- Where edge `e`'s value lands: entry `t` when the edge's index read signed is an entry `t` of the vector;
    nowhere when it is negative or at least `N`. -/
theorem vecScatter_resultIdx? {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx
      = if h : 0 ≤ (idx (ix2 e (0 : Fin 1))).toInt ∧ (idx (ix2 e (0 : Fin 1))).toInt < N then
          some (ix1 ⟨(idx (ix2 e (0 : Fin 1))).toInt.toNat, by omega⟩)
        else none := by
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (vecScatter N E wf).start (ix1 e) idx 0 = (idx (ix2 e (0 : Fin 1))).toInt := by
    unfold ScatterDims.start
    rw [dif_pos (show (0 : Fin 1) ∈ (vecScatter N E wf).scatterDimsToOperandDims from List.mem_singleton.mpr rfl), hsi]
  have hw0 : (vecScatter N E wf).window (ix1 e) 0 = 0 := by
    unfold ScatterDims.window
    rw [dif_neg (show ¬ (0 : Fin 1) ∈ (vecScatter N E wf).sKept from
      fun h => (mem_sKept _ _).mp h (List.mem_singleton.mpr rfl))]
  unfold ScatterDims.resultIdx?
  by_cases h : 0 ≤ (idx (ix2 e (0 : Fin 1))).toInt ∧ (idx (ix2 e (0 : Fin 1))).toInt < N
  · have hall : ∀ a : Fin 1, 0 ≤ (vecScatter N E wf).start (ix1 e) idx a + (vecScatter N E wf).window (ix1 e) a
        ∧ (vecScatter N E wf).start (ix1 e) idx a + (vecScatter N E wf).window (ix1 e) a
          < ((⟨1, ![N]⟩ : Shape).size a : ℤ) := by
      intro a
      match a with
      | ⟨0, _⟩ =>
        show 0 ≤ (vecScatter N E wf).start (ix1 e) idx 0 + (vecScatter N E wf).window (ix1 e) 0
          ∧ (vecScatter N E wf).start (ix1 e) idx 0 + (vecScatter N E wf).window (ix1 e) 0 < ((⟨1, ![N]⟩ : Shape).size 0 : ℤ)
        rw [hs0, hw0]
        refine ⟨by omega, ?_⟩
        show (idx (ix2 e (0 : Fin 1))).toInt + ((0 : ℕ) : ℤ) < (N : ℤ)
        omega
    rw [dif_pos hall, dif_pos h]
    refine congrArg some (funext fun a => Fin.ext ?_)
    match a with
    | ⟨0, _⟩ =>
      show ((vecScatter N E wf).start (ix1 e) idx 0 + (vecScatter N E wf).window (ix1 e) 0).toNat = _
      rw [hs0, hw0]; simp
  · rw [dif_neg h, dif_neg]
    intro hall
    have h0 := hall 0
    rw [hs0, hw0] at h0
    apply h
    refine ⟨by omega, ?_⟩
    have h02 : (idx (ix2 e (0 : Fin 1))).toInt + ((0 : ℕ) : ℤ) < (N : ℤ) := h0.2
    omega

/-- Entry `n` of a vector after values are added into it, over the extended reals: the entry before, plus the sum
    over the edges whose index read signed is `n` of the edge's value. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n)
        + ∑ e ∈ Finset.univ.filter (fun e : Fin E => (idx (ix2 e (0 : Fin 1))).toInt = (n.val : ℤ)), upd (ix1 e) := by
  unfold Ideal.hostScatterAdd
  refine congrArg (x (ix1 n) + ·) ?_
  rw [Finset.sum_filter, Finset.sum_filter, sum_vecIdx]
  refine Finset.sum_congr rfl fun e _ => ?_
  have hiff : ((vecScatter N E wf).resultIdx? (ix1 e) idx = some (ix1 n))
      ↔ (idx (ix2 e (0 : Fin 1))).toInt = (n.val : ℤ) := by
    rw [vecScatter_resultIdx?]
    by_cases h : 0 ≤ (idx (ix2 e (0 : Fin 1))).toInt ∧ (idx (ix2 e (0 : Fin 1))).toInt < N
    · rw [dif_pos h, Option.some_inj]
      constructor
      · intro h1
        have h2 : (idx (ix2 e (0 : Fin 1))).toInt.toNat = n.val := congrArg Fin.val (congrFun h1 0)
        omega
      · intro h1
        refine congrArg ix1 (Fin.ext ?_)
        show (idx (ix2 e (0 : Fin 1))).toInt.toNat = n.val
        omega
    · rw [dif_neg h]
      constructor
      · intro hh; exact absurd hh (by simp)
      · intro h1
        exfalso; apply h
        have := n.isLt
        omega
  by_cases ht : (idx (ix2 e (0 : Fin 1))).toInt = (n.val : ℤ)
  · rw [if_pos ht, if_pos (hiff.mpr ht)]
  · rw [if_neg ht, if_neg (fun hh => ht (hiff.mp hh))]

/-- The same for the host's accumulating scatter at the ideal instance, which is that sum. -/
theorem host_scatterAdd_vec_apply {N E w : Nat}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w)
    (upd : FVec Ideal ⟨1, ![E]⟩ .f32) (n : Fin N) :
    Host.scatterAdd (vecScatter N E wf) x idx upd (ix1 n)
      = x (ix1 n)
        + ∑ e ∈ Finset.univ.filter (fun e : Fin E => (idx (ix2 e (0 : Fin 1))).toInt = (n.val : ℤ)), upd (ix1 e) :=
  scatterAdd_vec_apply wf x idx upd n

end Idealize.ShloMosaic.VecScatter

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibTripleSum.lean ====
/-
  Associativity of a triple product of finite families.

  For real families a(k), b(k, j), c(j) over any finite index types,
      ∑ k, a(k) · (∑ j, b(k, j) · c(j)) = ∑ j, (∑ k, a(k) · b(k, j)) · c(j):
  distribute both products over the inner sums, exchange the two sums, reassociate each term. This is the
  entrywise content of (A · B) · C = A · (B · C) for matrices. The coercion of the reals into the extended reals is
  additive and multiplicative, so it commutes with finite sums, and the same identity holds for extended reals that
  are coercions of reals — the form a proof about finite inputs meets. (With an infinite entry the two sides can
  differ, for instance through a product 0 · ∞ present on one side only.)
-/
import Mathlib.Data.EReal.Basic
import Mathlib.Algebra.BigOperators.Ring.Finset
import Mathlib.Algebra.BigOperators.Group.Finset.Sigma

noncomputable section

open scoped BigOperators

namespace Idealize.ShloMosaic.TripleSum

/-- The coercion of the reals into the extended reals commutes with finite sums. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product over the reals, for arbitrary finite index types. -/
theorem real_sum_assoc {κ ι : Type*} [Fintype κ] [Fintype ι] (a : κ → ℝ) (b : κ → ι → ℝ) (c : ι → ℝ) :
    ∑ k, a k * ∑ j, b k j * c j = ∑ j, (∑ k, a k * b k j) * c j := by
  simp only [Finset.mul_sum, Finset.sum_mul]
  rw [Finset.sum_comm]
  exact Finset.sum_congr rfl fun j _ => Finset.sum_congr rfl fun k _ => (mul_assoc _ _ _).symm

/-- Associativity of the triple product over extended reals that are coercions of reals. -/
theorem ereal_sum_assoc {κ ι : Type*} [Fintype κ] [Fintype ι] (a : κ → ℝ) (b : κ → ι → ℝ) (c : ι → ℝ) :
    ∑ k, (a k : EReal) * ∑ j, (b k j : EReal) * (c j : EReal)
      = ∑ j, (∑ k, (a k : EReal) * (b k j : EReal)) * (c j : EReal) := by
  simp only [← EReal.coe_mul, ← coe_finsetSum]
  exact congrArg _ (real_sum_assoc a b c)

end Idealize.ShloMosaic.TripleSum

end
-- ==== Proof.LibRealEntries.lean ====
/-
  Extended reals that are real numbers.

  The extended reals carry every operation a float program uses; on the two infinities the operations have corner
  values, and the ring laws (distributivity, cancellation) fail there.  On entries that are coercions of real
  numbers nothing of the kind happens: each operation is the coercion of the real operation.  The lemmas below state
  that, one operation at a time, in the direction that pushes a coercion outwards, so that an equation between
  extended reals whose entries are all real becomes the coercion of an equation between reals.
-/
import Idealize.ShloMosaic.PureOps.Ideal
import proofs.«103435_j85461259255857_1_alg».proof.Proof.LibTripleSum

noncomputable section

open scoped BigOperators

namespace Idealize.ShloMosaic.RealEntries

/-- The sum of two real entries is the real sum. -/
theorem add_coe (a b : ℝ) : (a : EReal) + (b : EReal) = ((a + b : ℝ) : EReal) := (EReal.coe_add a b).symm

/-- The product of two real entries is the real product. -/
theorem mul_coe (a b : ℝ) : (a : EReal) * (b : EReal) = ((a * b : ℝ) : EReal) := (EReal.coe_mul a b).symm

/-- The difference of two real entries is the real difference. -/
theorem sub_coe (a b : ℝ) : (a : EReal) - (b : EReal) = ((a - b : ℝ) : EReal) := (EReal.coe_sub a b).symm

/-- The negative of a real entry is the real negative. -/
theorem neg_coe (a : ℝ) : -(a : EReal) = ((-a : ℝ) : EReal) := (EReal.coe_neg a).symm

/-- The extended real `1` is the real `1`. -/
theorem one_coe : (1 : EReal) = ((1 : ℝ) : EReal) := EReal.coe_one.symm

/-- The extended real `0` is the real `0`. -/
theorem zero_coe : (0 : EReal) = ((0 : ℝ) : EReal) := EReal.coe_zero.symm

/-- The larger of two real entries is the real maximum. -/
theorem max_coe (a b : ℝ) : max (a : EReal) (b : EReal) = ((max a b : ℝ) : EReal) :=
  (EReal.coe_strictMono.monotone.map_max (a := a) (b := b)).symm

/-- Division of a real entry by a nonzero real entry is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The exponential of a real entry is the real exponential. -/
theorem exp_coe (a : ℝ) : Ideal.exp (a : EReal) = ((Real.exp a : ℝ) : EReal) := rfl

/-- The logistic function of a real entry is the real `(1 + e^(-a))⁻¹`. -/
theorem logistic_coe (a : ℝ) : Ideal.logistic (a : EReal) = (((1 + Real.exp (-a))⁻¹ : ℝ) : EReal) :=
  Ideal.logistic_coe a

/-- The square root of a nonnegative real entry is the real square root. -/
theorem sqrt_coe_of_nonneg {a : ℝ} (ha : 0 ≤ a) : Ideal.sqrt (a : EReal) = ((Real.sqrt a : ℝ) : EReal) := by
  rw [Ideal.sqrt_coe, if_neg (not_lt.mpr ha)]

/-- A finite sum of real entries is the real sum. -/
theorem sum_coe {ι : Type*} (s : Finset ι) (f : ι → ℝ) : ∑ i ∈ s, (f i : EReal) = ((∑ i ∈ s, f i : ℝ) : EReal) :=
  (TripleSum.coe_finsetSum s f).symm

/-- A sum of real entries over a finite type is the real sum. -/
theorem univ_sum_coe {ι : Type*} [Fintype ι] (f : ι → ℝ) : ∑ i, (f i : EReal) = ((∑ i, f i : ℝ) : EReal) :=
  sum_coe Finset.univ f

/-- The real logistic denominator is positive, hence not zero. -/
theorem one_add_exp_pos (a : ℝ) : 0 < 1 + Real.exp a := by positivity

/-- A sum of squares of reals is nonnegative. -/
theorem sum_mul_self_nonneg {ι : Type*} (s : Finset ι) (f : ι → ℝ) : 0 ≤ ∑ i ∈ s, f i * f i :=
  Finset.sum_nonneg fun i _ => mul_self_nonneg (f i)

/-- A maximum with a positive real is positive. -/
theorem max_pos_of_right (a : ℝ) {e : ℝ} (he : 0 < e) : 0 < max a e := lt_max_of_lt_right he

end Idealize.ShloMosaic.RealEntries

end
-- ==== Proof.SegReal.lean ====
/-
  Real features give real neighbourhood means.

  A neighbourhood mean is a quotient, entry by entry: the numerator is the sum of the source rows over the edges that
  arrive at the node, the denominator is the larger of the number of those edges and one. Fetching rows computes
  nothing, so every fetched entry is an entry of the features and is a real number when those are. A finite sum of real
  numbers added to zero is a real number: that is the numerator, and with every summand equal to one it is the count.
  The larger of a real number and one is a real number at least one, so it is not zero, and a real number divided by
  a nonzero real number is a real number.
-/
import Idealize.ShloMosaic.PureOps.Ideal.Laws
import proofs.«103435_j85461259255857_1_alg».proof.Proof.Stages
import proofs.«103435_j85461259255857_1_alg».proof.Proof.Spec
import proofs.«103435_j85461259255857_1_alg».proof.Proof.LibEntries
import proofs.«103435_j85461259255857_1_alg».proof.Proof.LibRowScatter
import proofs.«103435_j85461259255857_1_alg».proof.Proof.LibVecScatter
import proofs.«103435_j85461259255857_1_alg».proof.Proof.LibKeepdims
import proofs.«103435_j85461259255857_1_alg».proof.Proof.LibRealEntries

open scoped BigOperators

noncomputable section

namespace Cert.KernelIdeal.Stages

open Idealize.ShloMosaic Idealize.ShloMosaic.ValueIdx Cert.KernelIdeal Cert.KernelIdeal.Facts₀ GraphLayer

/-- The bit pattern of the float one denotes the extended real `1`. -/
theorem ofBits_one_f32 : Ideal.ofBits .f32 0x3F800000#32 = 1 := by
  simp [Ideal.ofBits, Ideal.ieee, -EReal.coe_mul] <;> norm_num

/-- A real number divided by the larger of a real number and one is a real number: the divisor is at least one. -/
theorem isR_div_max_one {a c : EReal} (ha : IsR a) (hc : IsR c) : IsR (Ideal.div a (max c 1)) := by
  obtain ⟨a', rfl⟩ := ha
  obtain ⟨c', rfl⟩ := hc
  have hne : max c' (1 : ℝ) ≠ 0 := (lt_of_lt_of_le one_pos (le_max_right c' 1)).ne'
  rw [RealEntries.one_coe, RealEntries.max_coe, RealEntries.div_coe_coe a' hne]
  exact ⟨_, rfl⟩

/-- The mean over incoming edges of real rows is real, for a table of `N` nodes and `C` columns and `E` edges:
    entry `(n, c)` is (zero plus the sum of the rows' entries at column `c` over the edges arriving at `n`) divided by
    the larger of (zero plus one for each such edge) and one. -/
theorem segMean_real {N E C : Nat}
    (wfR : ScatterDims.WF ⟨2, ![N, C]⟩ ⟨2, ![E, 1]⟩ ⟨2, ![E, C]⟩ [1] [0] [0] 1)
    (wfV : ScatterDims.WF ⟨1, ![N]⟩ ⟨2, ![E, 1]⟩ ⟨1, ![E]⟩ [] [0] [0] 1)
    (hz2 : S_.BroadcastsInDim ⟨2, ![N, C]⟩ ![])
    (hz1 : S_.BroadcastsInDim ⟨1, ![N]⟩ ![])
    (ho1 : S_.BroadcastsInDim ⟨1, ![E]⟩ ![])
    (hk1 : (⟨1, ![N]⟩ : Shape).BroadcastsInDim ⟨2, ![N, 1]⟩ ![0])
    (hk2 : (⟨2, ![N, 1]⟩ : Shape).BroadcastsInDim ⟨2, ![N, C]⟩ ![0, 1])
    (idx : IVec ⟨2, ![E, 1]⟩ 32) (upd : FVec Ideal ⟨2, ![E, C]⟩ .f32) (hupd : AllReal upd) :
    AllReal (Host.divf (F := Ideal)
      (Host.scatterAdd (RowScatter.rowScatter N E C wfR)
        (broadcastInDim ⟨2, ![N, C]⟩ ![] hz2 (constant S_ .f32 0x00000000#32)) idx upd)
      (broadcastInDim ⟨2, ![N, C]⟩ ![0, 1] hk2
        (broadcastInDim ⟨2, ![N, 1]⟩ ![0] hk1
          (maximumf
            (Host.scatterAdd (VecScatter.vecScatter N E wfV)
              (broadcastInDim ⟨1, ![N]⟩ ![] hz1 (constant S_ .f32 0x00000000#32)) idx
              (broadcastInDim ⟨1, ![E]⟩ ![] ho1 (constant S_ .f32 0x3F800000#32)))
            (broadcastInDim ⟨1, ![N]⟩ ![] hz1 (constant S_ .f32 0x3F800000#32)))))) := by
  intro i
  obtain ⟨n, c, rfl⟩ : ∃ (n : Fin N) (c : Fin C), i = ix2 n c := ⟨i 0, i 1, ValueIdx.eq_ix2 i⟩
  have hnum : IsR (Host.scatterAdd (F := Ideal) (RowScatter.rowScatter N E C wfR)
      (broadcastInDim ⟨2, ![N, C]⟩ ![] hz2 (constant S_ .f32 0x00000000#32)) idx upd (ix2 n c)) := by
    rw [RowScatter.host_scatterAdd_rows_apply]
    refine IsR.add ?_ (IsR.sum _ _ fun e _ => hupd _)
    show IsR (Ideal.ofBits .f32 0x00000000#32)
    rw [Ideal.ofBits_zero_f32]; exact IsR.zero
  have hcnt : IsR (Host.scatterAdd (F := Ideal) (VecScatter.vecScatter N E wfV)
      (broadcastInDim ⟨1, ![N]⟩ ![] hz1 (constant S_ .f32 0x00000000#32)) idx
      (broadcastInDim ⟨1, ![E]⟩ ![] ho1 (constant S_ .f32 0x3F800000#32)) (ix1 n)) := by
    rw [VecScatter.host_scatterAdd_vec_apply]
    refine IsR.add ?_ (IsR.sum _ _ fun e _ => ?_)
    · show IsR (Ideal.ofBits .f32 0x00000000#32)
      rw [Ideal.ofBits_zero_f32]; exact IsR.zero
    · show IsR (Ideal.ofBits .f32 0x3F800000#32)
      rw [ofBits_one_f32]; exact IsR.one
  show IsR (Ideal.div _ _)
  rw [Keepdims.rows_apply]
  show IsR (Ideal.div _ (max _ (Ideal.ofBits .f32 0x3F800000#32)))
  rw [ofBits_one_f32]
  exact isR_div_max_one hnum hcnt

/-- Papers citing papers: real paper features give a real mean. -/
theorem meanCites_real (x : S100000x128.Idx → EReal) (src dst : (⟨S300000, .i32⟩ : BufTy).Contents (Elt Ideal))
    (hx : AllReal x) : AllReal (meanCites (F := Ideal) x src dst) := by
  unfold meanCites
  exact segMean_real _ _ _ _ _ _ _ _ _ (Entries.gather_entry (P := IsR) _ x _ hx)

/-- Authors writing papers: real author features give a real mean over the papers. -/
theorem meanWrites_real (x : S50000x128.Idx → EReal) (src dst : (⟨S150000, .i32⟩ : BufTy).Contents (Elt Ideal))
    (hx : AllReal x) : AllReal (meanWrites (F := Ideal) x src dst) := by
  unfold meanWrites
  exact segMean_real _ _ _ _ _ _ _ _ _ (Entries.gather_entry (P := IsR) _ x _ hx)

/-- Papers written by authors: real paper features give a real mean over the authors. -/
theorem meanWb_real (x : S100000x128.Idx → EReal) (src dst : (⟨S150000, .i32⟩ : BufTy).Contents (Elt Ideal))
    (hx : AllReal x) : AllReal (meanWb (F := Ideal) x src dst) := by
  unfold meanWb
  exact segMean_real _ _ _ _ _ _ _ _ _ (Entries.gather_entry (P := IsR) _ x _ hx)

end Cert.KernelIdeal.Stages

end
-- ==== Proof.Bridge.lean ====
/-
  The two arrangements of the network agree when the float arguments are real numbers.

  Entry by entry the two arrangements of a paper node differ by `x * (a + b) = x * a + x * b` on the node's own features
  and the two root weights, and otherwise by the order of additions; of an author node only by the order of additions.
  So the first layers agree as soon as the paper features and the first root weights are real. The first layer's
  outputs are then real as well (a real mean of real features, real weights and biases, and a maximum with zero), and
  they are the second layer's features, so the same law gives the second layer with the second root weights real.
-/
import proofs.«103435_j85461259255857_1_alg».proof.Proof.Layer
import proofs.«103435_j85461259255857_1_alg».proof.Proof.SegReal
import proofs.«103435_j85461259255857_1_alg».proof.Proof.Spec

noncomputable section

namespace Cert.KernelIdeal.Layer

open Idealize.ShloMosaic Idealize.ShloMosaic.ValueIdx Cert.KernelIdeal Cert.KernelIdeal.Stages GraphLayer

section Net
variable (xp : PaperArr) (xa : AuthorArr) (Wm1 : Weights) (b1 : Biases) (Wr1 : Weights) (Wm2 : Weights) (b2 : Biases)
  (Wr2 : Weights) (cs cd : Edges300) (ws wd bs bd : Edges150)

/-- First layer, paper nodes: the two arrangements agree when the paper features and the root weights are real. -/
theorem hpK_eq_hpR (hxp : AllReal xp) (hWr1 : AllReal Wr1) :
    hpK xp xa Wm1 b1 Wr1 cs cd ws wd = hpR xp xa Wm1 b1 Wr1 cs cd ws wd := by
  funext i
  exact paperK_eq_paperR true _ _ _ _ _ _ _ _ _ (fun k => hxp _) (fun k => hWr1 _) (fun k => hWr1 _)

/-- First layer, author nodes: the two arrangements agree always. -/
theorem haK_eq_haR : haK xp xa Wm1 b1 Wr1 bs bd = haR xp xa Wm1 b1 Wr1 bs bd := by
  funext i
  exact authorK_eq_authorR true _ _ _ _ _

/-- First layer, paper nodes: real arguments give real features. -/
theorem hpK_real (hxp : AllReal xp) (hxa : AllReal xa) (hWm1 : AllReal Wm1) (hb1 : AllReal b1) (hWr1 : AllReal Wr1) :
    AllReal (hpK xp xa Wm1 b1 Wr1 cs cd ws wd) := by
  intro i
  exact paperK_real true (fun k => meanCites_real xp cs cd hxp _) (fun k => meanWrites_real xa ws wd hxa _)
    (fun k => hxp _) (fun k => hWm1 _) (fun k => hWm1 _) (fun k => hWr1 _) (fun k => hWr1 _) (hb1 _) (hb1 _)

/-- First layer, author nodes: real arguments give real features. -/
theorem haK_real (hxp : AllReal xp) (hxa : AllReal xa) (hWm1 : AllReal Wm1) (hb1 : AllReal b1) (hWr1 : AllReal Wr1) :
    AllReal (haK xp xa Wm1 b1 Wr1 bs bd) := by
  intro i
  exact authorK_real true (fun k => meanWb_real xp bs bd hxp _) (fun k => hxa _) (fun k => hWm1 _) (fun k => hWr1 _)
    (hb1 _)

/-- Second layer, paper nodes: the two arrangements agree when all float arguments of the first layer and the second
    root weights are real. -/
theorem opK_eq_opR (hxp : AllReal xp) (hxa : AllReal xa) (hWm1 : AllReal Wm1) (hb1 : AllReal b1) (hWr1 : AllReal Wr1)
    (hWr2 : AllReal Wr2) :
    opK xp xa Wm1 b1 Wr1 Wm2 b2 Wr2 cs cd ws wd bs bd = opR xp xa Wm1 b1 Wr1 Wm2 b2 Wr2 cs cd ws wd bs bd := by
  unfold opK opR
  rw [← hpK_eq_hpR xp xa Wm1 b1 Wr1 cs cd ws wd hxp hWr1, ← haK_eq_haR xp xa Wm1 b1 Wr1 bs bd]
  funext i
  exact paperK_eq_paperR false _ _ _ _ _ _ _ _ _
    (fun k => hpK_real xp xa Wm1 b1 Wr1 cs cd ws wd hxp hxa hWm1 hb1 hWr1 _) (fun k => hWr2 _) (fun k => hWr2 _)

/-- Second layer, author nodes: the two arrangements agree when the first layers do. -/
theorem oaK_eq_oaR (hxp : AllReal xp) (hWr1 : AllReal Wr1) :
    oaK xp xa Wm1 b1 Wr1 Wm2 b2 Wr2 cs cd ws wd bs bd = oaR xp xa Wm1 b1 Wr1 Wm2 b2 Wr2 cs cd ws wd bs bd := by
  unfold oaK oaR
  rw [← hpK_eq_hpR xp xa Wm1 b1 Wr1 cs cd ws wd hxp hWr1, ← haK_eq_haR xp xa Wm1 b1 Wr1 bs bd]
  funext i
  exact authorK_eq_authorR false _ _ _ _ _

end Net

end Cert.KernelIdeal.Layer

end
-- ==== Proof.ValueRun.lean ====
/-
  The idealized kernel program's run with its final memory named: every weakly fair execution of the whole program —
  four stretches of host operations, each followed by one pipelined region — terminates without a fault, and every
  buffer that outlives the regions ends at the value the fold through the program gives it (a stretch applies its
  operations to what it finds; a region leaves each of its arrays at what its write-backs leave and every other buffer
  as it found it). The two result buffers are read off this fold in the modules that follow.
-/
import proofs.«103435_j85461259255857_1_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole program's run, every surviving buffer at the fold's final contents `W8`. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.KValue

end
-- ==== Proof.KArgs.lean ====
/-
  The fourteen argument arrays of the kernel program on a device, each named with its array type: paper and author
  features, the first layer's message weights, biases and root weights, the second layer's, and the three edge lists
  (source and target).
-/
import proofs.«103435_j85461259255857_1_alg».proof.Proof.Layer

noncomputable section

namespace Cert.KernelIdeal.KArgs

open Idealize.ShloMosaic Idealize.ShloMosaic.TcCoe Idealize.SL.Sem Cert.KernelIdeal Cert.KernelIdeal.Layer

variable (m : (ℓ : Loc nD τ sig) → Buf (Elt Ideal) ℓ) (c : Dev nD)

abbrev a0 : PaperArr := m ((c : Thread nD τ).loc main_arg0)
abbrev a1 : AuthorArr := m ((c : Thread nD τ).loc main_arg1)
abbrev a2 : Weights := m ((c : Thread nD τ).loc main_arg2)
abbrev a3 : Biases := m ((c : Thread nD τ).loc main_arg3)
abbrev a4 : Weights := m ((c : Thread nD τ).loc main_arg4)
abbrev a5 : Weights := m ((c : Thread nD τ).loc main_arg5)
abbrev a6 : Biases := m ((c : Thread nD τ).loc main_arg6)
abbrev a7 : Weights := m ((c : Thread nD τ).loc main_arg7)
abbrev a8 : Edges300 := m ((c : Thread nD τ).loc main_arg8)
abbrev a9 : Edges300 := m ((c : Thread nD τ).loc main_arg9)
abbrev a10 : Edges150 := m ((c : Thread nD τ).loc main_arg10)
abbrev a11 : Edges150 := m ((c : Thread nD τ).loc main_arg11)
abbrev a12 : Edges150 := m ((c : Thread nD τ).loc main_arg12)
abbrev a13 : Edges150 := m ((c : Thread nD τ).loc main_arg13)

end Cert.KernelIdeal.KArgs

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.KPay.lean ====
/-
  What each of the four pipelined blocks stores, read at one entry `(p, q)` of its [2000, 128] block.

  A block's body casts each feature block and each weight matrix to bf16 (the identity on the extended reals),
  multiplies them on the matrix unit into a zero accumulator — at an entry the sum over the 128 features of row `p`
  of the features times column `q` of the weights —, adds the products into an accumulator started at zero, adds the
  bias row, and in the first layer takes the maximum with zero. That is `node3` / `node2` of the row and the columns.
-/
import proofs.«103435_j85461259255857_1_alg».proof.Proof.Gen.KernelIdeal.Skeleton
import proofs.«103435_j85461259255857_1_alg».proof.Proof.Spec
import proofs.«103435_j85461259255857_1_alg».proof.Proof.LibContract
import Idealize.ShloMosaic.Lib.ValueIdx
import Idealize.ShloMosaic.Lib.Pipeline.Value
import Idealize.ShloMosaic.PureOps.Ideal.Laws

open scoped BigOperators

noncomputable section

namespace Cert.KernelIdeal.KPay

open Idealize.ShloMosaic Idealize.ShloMosaic.ValueIdx Cert.KernelIdeal Cert.KernelIdeal.Gen GraphLayer

/-- A [2000,128] x [128,128] product into the zero accumulator, at entry `(p, q)`: the sum over the shared axis. -/
theorem mm_apply {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  exact Contract2.sum_contr_eq_sum_fin dot_S2000x128_S128x128_S2000x128_1_0_0_1_n_n rfl rfl rfl rfl
    (fun j c => by unfold DotDims.lhsIdx; rw [dif_neg (by decide), dif_pos (by decide)]; rfl)
    (fun j c => by unfold DotDims.rhsIdx; rw [dif_neg (by decide), dif_pos (by decide)]; rfl) l r (ix2 p q)

/-- The bias row spread over the block's rows, at entry `(p, q)`. -/
theorem bias_apply (b : Vec Ideal S1x128 .f32) (p : Fin 2000) (q : Fin 128) :
    broadcastTo S2000x128 b broadcasts_S1x128_S2000x128 (ix2 p q) = b (ix2 0 q) :=
  broadcastTo_apply b broadcasts_S1x128_S2000x128 (ix2 p q) (ix2 0 q) (fun a => by
    match a with
    | ⟨0, _⟩ => rfl
    | ⟨1, _⟩ => rfl)

theorem zero_f32 : (Scalar.ofBits .f32 0x00000000#32 : Ideal .f32) = 0 := Ideal.ofBits_zero_f32

theorem k0_pay1_apply (v1 : Vec Ideal S2000x128 .f32) (v4 : Vec Ideal S128x128 .f32) (v9 : Vec Ideal S2000x128 .f32)
    (v12 : Vec Ideal S128x128 .f32) (v17 : Vec Ideal S2000x128 .f32) (v19 : Vec Ideal S128x128 .f32)
    (v24 : Vec Ideal S1x128 .f32) (p : Fin 2000) (q : Fin 128) :
    k0_pay1 (F := Ideal) v1 v4 v9 v12 v17 v19 v24 (ix2 p q)
      = node3 true (fun k => v1 (ix2 p k)) (fun k => v9 (ix2 p k)) (fun k => v17 (ix2 p k))
          (fun k => v4 (ix2 k q)) (fun k => v12 (ix2 k q)) (fun k => v19 (ix2 k q)) (v24 (ix2 0 q)) := by
  unfold k0_pay1 node3 GraphLayer.act
  simp only [shapeCast_self]
  rw [maximumf_apply, addf_apply, addf_apply, addf_apply, addf_apply, mm_apply, mm_apply, mm_apply, bias_apply]
  simp only [Ideal.ofBits_def, Ideal.ofBits_zero_f32, truncf_apply, broadcast_apply, if_true, if_false, Bool.false_eq_true]

theorem k1_pay1_apply (v1 : Vec Ideal S2000x128 .f32) (v4 : Vec Ideal S128x128 .f32) (v9 : Vec Ideal S2000x128 .f32)
    (v11 : Vec Ideal S128x128 .f32) (v16 : Vec Ideal S1x128 .f32) (p : Fin 2000) (q : Fin 128) :
    k1_pay1 (F := Ideal) v1 v4 v9 v11 v16 (ix2 p q)
      = node2 true (fun k => v1 (ix2 p k)) (fun k => v9 (ix2 p k))
          (fun k => v4 (ix2 k q)) (fun k => v11 (ix2 k q)) (v16 (ix2 0 q)) := by
  unfold k1_pay1 node2 GraphLayer.act
  simp only [shapeCast_self]
  rw [maximumf_apply, addf_apply, addf_apply, addf_apply, mm_apply, mm_apply, bias_apply]
  simp only [Ideal.ofBits_def, Ideal.ofBits_zero_f32, truncf_apply, broadcast_apply, if_true, if_false, Bool.false_eq_true]

theorem k2_pay1_apply (v1 : Vec Ideal S2000x128 .f32) (v4 : Vec Ideal S128x128 .f32) (v9 : Vec Ideal S2000x128 .f32)
    (v12 : Vec Ideal S128x128 .f32) (v17 : Vec Ideal S2000x128 .f32) (v20 : Vec Ideal S128x128 .f32)
    (v25 : Vec Ideal S1x128 .f32) (p : Fin 2000) (q : Fin 128) :
    k2_pay1 (F := Ideal) v1 v4 v9 v12 v17 v20 v25 (ix2 p q)
      = node3 false (fun k => v1 (ix2 p k)) (fun k => v9 (ix2 p k)) (fun k => v17 (ix2 p k))
          (fun k => v4 (ix2 k q)) (fun k => v12 (ix2 k q)) (fun k => v20 (ix2 k q)) (v25 (ix2 0 q)) := by
  unfold k2_pay1 node3 GraphLayer.act
  simp only [shapeCast_self]
  rw [addf_apply, addf_apply, addf_apply, addf_apply, mm_apply, mm_apply, mm_apply, bias_apply]
  simp only [Ideal.ofBits_def, Ideal.ofBits_zero_f32, truncf_apply, broadcast_apply, if_true, if_false, Bool.false_eq_true]

theorem k3_pay1_apply (v1 : Vec Ideal S2000x128 .f32) (v4 : Vec Ideal S128x128 .f32) (v9 : Vec Ideal S2000x128 .f32)
    (v12 : Vec Ideal S128x128 .f32) (v17 : Vec Ideal S1x128 .f32) (p : Fin 2000) (q : Fin 128) :
    k3_pay1 (F := Ideal) v1 v4 v9 v12 v17 (ix2 p q)
      = node2 false (fun k => v1 (ix2 p k)) (fun k => v9 (ix2 p k))
          (fun k => v4 (ix2 k q)) (fun k => v12 (ix2 k q)) (v17 (ix2 0 q)) := by
  unfold k3_pay1 node2 GraphLayer.act
  simp only [shapeCast_self]
  rw [addf_apply, addf_apply, addf_apply, mm_apply, mm_apply, bias_apply]
  simp only [Ideal.ofBits_def, Ideal.ofBits_zero_f32, truncf_apply, broadcast_apply, if_true, if_false, Bool.false_eq_true]

end Cert.KernelIdeal.KPay

end
-- ==== Proof.KBlocks.lean ====
/-
  From blocks to arrays: what each of the four pipelined regions leaves in its output array, as one function of the
  arrays it finds. Grid point `t` loads rows `2000 t … 2000 t + 1999` of each feature array, the whole weight
  matrices and the bias row, and writes back the same rows of the output; the rows of the 50 (or 25) points tile the
  array, so entry `(r, j)` ends holding the block's function of row `r` of the features and column `j` of the weights.
-/
import proofs.«103435_j85461259255857_1_alg».proof.Proof.Gen.KernelIdeal.Frame
import proofs.«103435_j85461259255857_1_alg».proof.Proof.KPay
import Idealize.ShloMosaic.Lib.Pipeline.Value

set_option maxRecDepth 16384

open scoped BigOperators

noncomputable section

namespace Cert.KernelIdeal.KBlocks

open Idealize.ShloMosaic Idealize.ShloMosaic.TcCoe Idealize.ShloMosaic.ValueIdx Idealize.SL.Sem
open Idealize.ShloMosaic.Pipeline (Dat Cfg Window)
open Cert.KernelIdeal Cert.KernelIdeal.Gen GraphLayer

variable (V : (c : Dev nD) → (b : Ref sig .tc) → Buf (Elt Ideal) ((c : Thread nD τ).loc b))

theorem hz : (![0, 0] : Fin 2 → Nat) = fun _ => 0 := funext fun a => by fin_cases a <;> rfl

theorem node3_congr (relu : Bool) {a0 a1 a2 w0 w1 w2 a0' a1' a2' w0' w1' w2' : Fin 128 → EReal} {b b' : EReal}
    (e0 : a0 = a0') (e1 : a1 = a1') (e2 : a2 = a2') (e3 : w0 = w0') (e4 : w1 = w1') (e5 : w2 = w2') (e6 : b = b') :
    node3 relu a0 a1 a2 w0 w1 w2 b = node3 relu a0' a1' a2' w0' w1' w2' b' := by
  subst e0 e1 e2 e3 e4 e5 e6; rfl

theorem node2_congr (relu : Bool) {a0 a1 w0 w1 a0' a1' w0' w1' : Fin 128 → EReal} {b b' : EReal}
    (e0 : a0 = a0') (e1 : a1 = a1') (e2 : w0 = w0') (e3 : w1 = w1') (e4 : b = b') :
    node2 relu a0 a1 w0 w1 b = node2 relu a0' a1' w0' w1' b' := by
  subst e0 e1 e2 e3 e4; rfl

/-! ## Region 0: the paper nodes of layer 1 -/

/-- What region 0's output array holds after the region, entry by entry, in terms of the arrays the region finds. -/
def G0 (c : Dev nD) : S100000x128.Idx → EReal := fun i =>
  node3 true (fun k => V c main_v18 (ix2 (i 0) k))
    (fun k => V c main_v37 (ix2 (i 0) k))
    (fun k => V c main_arg0 (ix2 (i 0) k))
    (fun k => V c main_v69 (ix2 k (i 1)))
    (fun k => V c main_v71 (ix2 k (i 1)))
    (fun k => V c main_v61 (ix2 k (i 1)))
    (V c main_v67 (ix2 0 (i 1)))

/-- Where each window's block sits at grid point `t`: the feature windows and the output move down the rows with the
    point, the weights and the bias stay. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_7.index t (0 : Fin 2) = t.val
    ∧ win0_7.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0 :=
  (by decide +kernel : ∀ t : Fin grid0.N, _)

set_option maxHeartbeats 2000000 in
/-- What point `t` writes back is block `t` of `G0`. -/
theorem flushed0_eq (c : Dev nD) (t : Fin cfg0.N) :
    (dat0 V c).flushed 7 t = ((cfg0.win 7).blk t).view.read (Elt Ideal) (G0 V c) := by
  show (cfg0.win 7).cut (grid0.coords t) ((dat0 V c).after 7 t) = _
  rw [after0_7]
  unfold out0_7
  rw [View.canon_unit_zero hz]
  simp only [View.ld_unit_zero (S := S2000x128) hz, View.ld_unit_zero (S := S128x128) hz, View.ld_unit_zero (S := S1x128) hz]
  obtain ⟨f0a, f0b, f1a, f1b, f2a, f2b, f7a, f7b, f3a, f3b, f4a, f4b, f5a, f5b, f6a, f6b⟩ := idx_facts0 t
  funext j
  obtain ⟨p, q, rfl⟩ : ∃ (p : Fin 2000) (q : Fin 128), j = ix2 p q := ⟨j 0, j 1, eq_ix2 j⟩
  refine (KPay.k0_pay1_apply _ _ _ _ _ _ _ p q).trans ?_
  show node3 true (fun k => V c main_v18 (((cfg0.win 0).blk t).view.emb (ix2 p k)))
      (fun k => V c main_v37 (((cfg0.win 1).blk t).view.emb (ix2 p k)))
      (fun k => V c main_arg0 (((cfg0.win 2).blk t).view.emb (ix2 p k)))
      (fun k => V c main_v69 (((cfg0.win 3).blk t).view.emb (ix2 k q)))
      (fun k => V c main_v71 (((cfg0.win 4).blk t).view.emb (ix2 k q)))
      (fun k => V c main_v61 (((cfg0.win 5).blk t).view.emb (ix2 k q)))
      (V c main_v67 (((cfg0.win 6).blk t).view.emb (ix2 (0 : Fin 1) q)))
    = G0 V c (((cfg0.win 7).blk t).view.emb (ix2 p q))
  have h0 : ∀ k : Fin 128, ((cfg0.win 0).blk t).view.emb (ix2 p k) = ix2 ((((cfg0.win 7).blk t).view.emb (ix2 p q)) 0) k := fun k => by
    funext a; apply Fin.ext
    match a with
    | ⟨0, _⟩ => show win0_0.index t (0 : Fin 2) * 2000 + 1 * p.val = win0_7.index t (0 : Fin 2) * 2000 + 1 * p.val; omega
    | ⟨1, _⟩ => show win0_0.index t (1 : Fin 2) * 128 + 1 * k.val = k.val; omega
  have h1 : ∀ k : Fin 128, ((cfg0.win 1).blk t).view.emb (ix2 p k) = ix2 ((((cfg0.win 7).blk t).view.emb (ix2 p q)) 0) k := fun k => by
    funext a; apply Fin.ext
    match a with
    | ⟨0, _⟩ => show win0_1.index t (0 : Fin 2) * 2000 + 1 * p.val = win0_7.index t (0 : Fin 2) * 2000 + 1 * p.val; omega
    | ⟨1, _⟩ => show win0_1.index t (1 : Fin 2) * 128 + 1 * k.val = k.val; omega
  have h2 : ∀ k : Fin 128, ((cfg0.win 2).blk t).view.emb (ix2 p k) = ix2 ((((cfg0.win 7).blk t).view.emb (ix2 p q)) 0) k := fun k => by
    funext a; apply Fin.ext
    match a with
    | ⟨0, _⟩ => show win0_2.index t (0 : Fin 2) * 2000 + 1 * p.val = win0_7.index t (0 : Fin 2) * 2000 + 1 * p.val; omega
    | ⟨1, _⟩ => show win0_2.index t (1 : Fin 2) * 128 + 1 * k.val = k.val; omega
  have h3 : ∀ k : Fin 128, ((cfg0.win 3).blk t).view.emb (ix2 k q) = ix2 k ((((cfg0.win 7).blk t).view.emb (ix2 p q)) 1) := fun k => by
    funext a; apply Fin.ext
    match a with
    | ⟨0, _⟩ => show win0_3.index t (0 : Fin 2) * 128 + 1 * k.val = k.val; omega
    | ⟨1, _⟩ => show win0_3.index t (1 : Fin 2) * 128 + 1 * q.val = win0_7.index t (1 : Fin 2) * 128 + 1 * q.val; omega
  have h4 : ∀ k : Fin 128, ((cfg0.win 4).blk t).view.emb (ix2 k q) = ix2 k ((((cfg0.win 7).blk t).view.emb (ix2 p q)) 1) := fun k => by
    funext a; apply Fin.ext
    match a with
    | ⟨0, _⟩ => show win0_4.index t (0 : Fin 2) * 128 + 1 * k.val = k.val; omega
    | ⟨1, _⟩ => show win0_4.index t (1 : Fin 2) * 128 + 1 * q.val = win0_7.index t (1 : Fin 2) * 128 + 1 * q.val; omega
  have h5 : ∀ k : Fin 128, ((cfg0.win 5).blk t).view.emb (ix2 k q) = ix2 k ((((cfg0.win 7).blk t).view.emb (ix2 p q)) 1) := fun k => by
    funext a; apply Fin.ext
    match a with
    | ⟨0, _⟩ => show win0_5.index t (0 : Fin 2) * 128 + 1 * k.val = k.val; omega
    | ⟨1, _⟩ => show win0_5.index t (1 : Fin 2) * 128 + 1 * q.val = win0_7.index t (1 : Fin 2) * 128 + 1 * q.val; omega
  have h6 : ((cfg0.win 6).blk t).view.emb (ix2 (0 : Fin 1) q) = ix2 (0 : Fin 1) ((((cfg0.win 7).blk t).view.emb (ix2 p q)) 1) := by
    funext a; apply Fin.ext
    match a with
    | ⟨0, _⟩ => show win0_6.index t (0 : Fin 2) * 1 + 1 * 0 = 0; omega
    | ⟨1, _⟩ => show win0_6.index t (1 : Fin 2) * 128 + 1 * q.val = win0_7.index t (1 : Fin 2) * 128 + 1 * q.val; omega
  exact node3_congr true (funext fun k => congrArg (V c main_v18) (h0 k))
    (funext fun k => congrArg (V c main_v37) (h1 k))
    (funext fun k => congrArg (V c main_arg0) (h2 k))
    (funext fun k => congrArg (V c main_v69) (h3 k))
    (funext fun k => congrArg (V c main_v71) (h4 k))
    (funext fun k => congrArg (V c main_v61) (h5 k))
    (congrArg (V c main_v67) h6)

/-- An index of the array is in point `t`'s block iff its row is among the block's 2000 rows. -/
theorem mem_blk0 (t : Fin cfg0.N) (i : S100000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v72).slice (win0_7.rect t)).set ↔ _
  rw [View.set_slice_whole, Rect.mem_set_unit]
  exact Iff.rfl

/-- Every row of the array lies in the block of the point `row / 2000`. -/
theorem cover0 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 50 := N_0
  refine ⟨⟨(i 0).val / 2000, by omega⟩, flush0_7 _, ?_⟩
  rw [mem_blk0]
  obtain ⟨f0a, f0b, f1a, f1b, f2a, f2b, f7a, f7b, f3a, f3b, f4a, f4b, f5a, f5b, f6a, f6b⟩ := idx_facts0 ⟨(i 0).val / 2000, by omega⟩
  intro a
  match a with
  | ⟨0, _⟩ => show win0_7.index _ (0 : Fin 2) * 2000 ≤ (i 0).val ∧ (i 0).val < win0_7.index _ (0 : Fin 2) * 2000 + 2000; simp only [f7a]; omega
  | ⟨1, _⟩ => show win0_7.index _ (1 : Fin 2) * 128 ≤ (i 1).val ∧ (i 1).val < win0_7.index _ (1 : Fin 2) * 128 + 128; simp only [f7b]; omega

/-- The output array after region 0. -/
theorem final0 (c : Dev nD) : (dat0 V c).arrAt 7 cfg0.N = G0 V c :=
  (dat0 V c).arrAt_eq_of_cover 7 (G0 V c) (fun t _ => flushed0_eq V c t) (cover0)

/-! ## Region 1: the author nodes of layer 1 -/

/-- What region 1's output array holds after the region, entry by entry, in terms of the arrays the region finds. -/
def G1 (c : Dev nD) : S50000x128.Idx → EReal := fun i =>
  node2 true (fun k => V c main_v56 (ix2 (i 0) k))
    (fun k => V c main_arg1 (ix2 (i 0) k))
    (fun k => V c main_v77 (ix2 k (i 1)))
    (fun k => V c main_v79 (ix2 k (i 1)))
    (V c main_v75 (ix2 0 (i 1)))

/-- Where each window's block sits at grid point `t`: the feature windows and the output move down the rows with the
    point, the weights and the bias stay. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_5.index t (0 : Fin 2) = t.val
    ∧ win1_5.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0 :=
  (by decide +kernel : ∀ t : Fin grid1.N, _)

set_option maxHeartbeats 2000000 in
/-- What point `t` writes back is block `t` of `G1`. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨f0a, f0b, f1a, f1b, f5a, f5b, f2a, f2b, f3a, f3b, f4a, f4b⟩ := idx_facts1 t
  funext j
  obtain ⟨p, q, rfl⟩ : ∃ (p : Fin 2000) (q : Fin 128), j = ix2 p q := ⟨j 0, j 1, eq_ix2 j⟩
  refine (KPay.k1_pay1_apply _ _ _ _ _ p q).trans ?_
  show node2 true (fun k => V c main_v56 (((cfg1.win 0).blk t).view.emb (ix2 p k)))
      (fun k => V c main_arg1 (((cfg1.win 1).blk t).view.emb (ix2 p k)))
      (fun k => V c main_v77 (((cfg1.win 2).blk t).view.emb (ix2 k q)))
      (fun k => V c main_v79 (((cfg1.win 3).blk t).view.emb (ix2 k q)))
      (V c main_v75 (((cfg1.win 4).blk t).view.emb (ix2 (0 : Fin 1) q)))
    = G1 V c (((cfg1.win 5).blk t).view.emb (ix2 p q))
  have h0 : ∀ k : Fin 128, ((cfg1.win 0).blk t).view.emb (ix2 p k) = ix2 ((((cfg1.win 5).blk t).view.emb (ix2 p q)) 0) k := fun k => by
    funext a; apply Fin.ext
    match a with
    | ⟨0, _⟩ => show win1_0.index t (0 : Fin 2) * 2000 + 1 * p.val = win1_5.index t (0 : Fin 2) * 2000 + 1 * p.val; omega
    | ⟨1, _⟩ => show win1_0.index t (1 : Fin 2) * 128 + 1 * k.val = k.val; omega
  have h1 : ∀ k : Fin 128, ((cfg1.win 1).blk t).view.emb (ix2 p k) = ix2 ((((cfg1.win 5).blk t).view.emb (ix2 p q)) 0) k := fun k => by
    funext a; apply Fin.ext
    match a with
    | ⟨0, _⟩ => show win1_1.index t (0 : Fin 2) * 2000 + 1 * p.val = win1_5.index t (0 : Fin 2) * 2000 + 1 * p.val; omega
    | ⟨1, _⟩ => show win1_1.index t (1 : Fin 2) * 128 + 1 * k.val = k.val; omega
  have h2 : ∀ k : Fin 128, ((cfg1.win 2).blk t).view.emb (ix2 k q) = ix2 k ((((cfg1.win 5).blk t).view.emb (ix2 p q)) 1) := fun k => by
    funext a; apply Fin.ext
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  have h3 : ∀ k : Fin 128, ((cfg1.win 3).blk t).view.emb (ix2 k q) = ix2 k ((((cfg1.win 5).blk t).view.emb (ix2 p q)) 1) := fun k => by
    funext a; apply Fin.ext
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  have h4 : ((cfg1.win 4).blk t).view.emb (ix2 (0 : Fin 1) q) = ix2 (0 : Fin 1) ((((cfg1.win 5).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega
  exact node2_congr true (funext fun k => congrArg (V c main_v56) (h0 k))
    (funext fun k => congrArg (V c main_arg1) (h1 k))
    (funext fun k => congrArg (V c main_v77) (h2 k))
    (funext fun k => congrArg (V c main_v79) (h3 k))
    (congrArg (V c main_v75) h4)

/-- An index of the array is in point `t`'s block iff its row is among the block's 2000 rows. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v80).slice (win1_5.rect t)).set ↔ _
  rw [View.set_slice_whole, Rect.mem_set_unit]
  exact Iff.rfl

/-- Every row of the array lies in the block of the point `row / 2000`. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  refine ⟨⟨(i 0).val / 2000, by omega⟩, flush1_5 _, ?_⟩
  rw [mem_blk1]
  obtain ⟨f0a, f0b, f1a, f1b, f5a, f5b, f2a, f2b, f3a, f3b, f4a, f4b⟩ := idx_facts1 ⟨(i 0).val / 2000, by omega⟩
  intro a
  match a with
  | ⟨0, _⟩ => show win1_5.index _ (0 : Fin 2) * 2000 ≤ (i 0).val ∧ (i 0).val < win1_5.index _ (0 : Fin 2) * 2000 + 2000; simp only [f5a]; omega
  | ⟨1, _⟩ => show win1_5.index _ (1 : Fin 2) * 128 ≤ (i 1).val ∧ (i 1).val < win1_5.index _ (1 : Fin 2) * 128 + 128; simp only [f5b]; omega

/-- The output array after region 1. -/
theorem final1 (c : Dev nD) : (dat1 V c).arrAt 5 cfg1.N = G1 V c :=
  (dat1 V c).arrAt_eq_of_cover 5 (G1 V c) (fun t _ => flushed1_eq V c t) (cover1)

/-! ## Region 2: the paper nodes of layer 2 -/

/-- What region 2's output array holds after the region, entry by entry, in terms of the arrays the region finds. -/
def G2 (c : Dev nD) : S100000x128.Idx → EReal := fun i =>
  node3 false (fun k => V c main_v99 (ix2 (i 0) k))
    (fun k => V c main_v118 (ix2 (i 0) k))
    (fun k => V c main_v72 (ix2 (i 0) k))
    (fun k => V c main_v150 (ix2 k (i 1)))
    (fun k => V c main_v152 (ix2 k (i 1)))
    (fun k => V c main_v142 (ix2 k (i 1)))
    (V c main_v148 (ix2 0 (i 1)))

/-- Where each window's block sits at grid point `t`: the feature windows and the output move down the rows with the
    point, the weights and the bias stay. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_7.index t (0 : Fin 2) = t.val
    ∧ win2_7.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0 :=
  (by decide +kernel : ∀ t : Fin grid2.N, _)

set_option maxHeartbeats 2000000 in
/-- What point `t` writes back is block `t` of `G2`. -/
theorem flushed2_eq (c : Dev nD) (t : Fin cfg2.N) :
    (dat2 V c).flushed 7 t = ((cfg2.win 7).blk t).view.read (Elt Ideal) (G2 V c) := by
  show (cfg2.win 7).cut (grid2.coords t) ((dat2 V c).after 7 t) = _
  rw [after2_7]
  unfold out2_7
  rw [View.canon_unit_zero hz]
  simp only [View.ld_unit_zero (S := S2000x128) hz, View.ld_unit_zero (S := S128x128) hz, View.ld_unit_zero (S := S1x128) hz]
  obtain ⟨f0a, f0b, f1a, f1b, f2a, f2b, f7a, f7b, f3a, f3b, f4a, f4b, f5a, f5b, f6a, f6b⟩ := idx_facts2 t
  funext j
  obtain ⟨p, q, rfl⟩ : ∃ (p : Fin 2000) (q : Fin 128), j = ix2 p q := ⟨j 0, j 1, eq_ix2 j⟩
  refine (KPay.k2_pay1_apply _ _ _ _ _ _ _ p q).trans ?_
  show node3 false (fun k => V c main_v99 (((cfg2.win 0).blk t).view.emb (ix2 p k)))
      (fun k => V c main_v118 (((cfg2.win 1).blk t).view.emb (ix2 p k)))
      (fun k => V c main_v72 (((cfg2.win 2).blk t).view.emb (ix2 p k)))
      (fun k => V c main_v150 (((cfg2.win 3).blk t).view.emb (ix2 k q)))
      (fun k => V c main_v152 (((cfg2.win 4).blk t).view.emb (ix2 k q)))
      (fun k => V c main_v142 (((cfg2.win 5).blk t).view.emb (ix2 k q)))
      (V c main_v148 (((cfg2.win 6).blk t).view.emb (ix2 (0 : Fin 1) q)))
    = G2 V c (((cfg2.win 7).blk t).view.emb (ix2 p q))
  have h0 : ∀ k : Fin 128, ((cfg2.win 0).blk t).view.emb (ix2 p k) = ix2 ((((cfg2.win 7).blk t).view.emb (ix2 p q)) 0) k := fun k => by
    funext a; apply Fin.ext
    match a with
    | ⟨0, _⟩ => show win2_0.index t (0 : Fin 2) * 2000 + 1 * p.val = win2_7.index t (0 : Fin 2) * 2000 + 1 * p.val; omega
    | ⟨1, _⟩ => show win2_0.index t (1 : Fin 2) * 128 + 1 * k.val = k.val; omega
  have h1 : ∀ k : Fin 128, ((cfg2.win 1).blk t).view.emb (ix2 p k) = ix2 ((((cfg2.win 7).blk t).view.emb (ix2 p q)) 0) k := fun k => by
    funext a; apply Fin.ext
    match a with
    | ⟨0, _⟩ => show win2_1.index t (0 : Fin 2) * 2000 + 1 * p.val = win2_7.index t (0 : Fin 2) * 2000 + 1 * p.val; omega
    | ⟨1, _⟩ => show win2_1.index t (1 : Fin 2) * 128 + 1 * k.val = k.val; omega
  have h2 : ∀ k : Fin 128, ((cfg2.win 2).blk t).view.emb (ix2 p k) = ix2 ((((cfg2.win 7).blk t).view.emb (ix2 p q)) 0) k := fun k => by
    funext a; apply Fin.ext
    match a with
    | ⟨0, _⟩ => show win2_2.index t (0 : Fin 2) * 2000 + 1 * p.val = win2_7.index t (0 : Fin 2) * 2000 + 1 * p.val; omega
    | ⟨1, _⟩ => show win2_2.index t (1 : Fin 2) * 128 + 1 * k.val = k.val; omega
  have h3 : ∀ k : Fin 128, ((cfg2.win 3).blk t).view.emb (ix2 k q) = ix2 k ((((cfg2.win 7).blk t).view.emb (ix2 p q)) 1) := fun k => by
    funext a; apply Fin.ext
    match a with
    | ⟨0, _⟩ => show win2_3.index t (0 : Fin 2) * 128 + 1 * k.val = k.val; omega
    | ⟨1, _⟩ => show win2_3.index t (1 : Fin 2) * 128 + 1 * q.val = win2_7.index t (1 : Fin 2) * 128 + 1 * q.val; omega
  have h4 : ∀ k : Fin 128, ((cfg2.win 4).blk t).view.emb (ix2 k q) = ix2 k ((((cfg2.win 7).blk t).view.emb (ix2 p q)) 1) := fun k => by
    funext a; apply Fin.ext
    match a with
    | ⟨0, _⟩ => show win2_4.index t (0 : Fin 2) * 128 + 1 * k.val = k.val; omega
    | ⟨1, _⟩ => show win2_4.index t (1 : Fin 2) * 128 + 1 * q.val = win2_7.index t (1 : Fin 2) * 128 + 1 * q.val; omega
  have h5 : ∀ k : Fin 128, ((cfg2.win 5).blk t).view.emb (ix2 k q) = ix2 k ((((cfg2.win 7).blk t).view.emb (ix2 p q)) 1) := fun k => by
    funext a; apply Fin.ext
    match a with
    | ⟨0, _⟩ => show win2_5.index t (0 : Fin 2) * 128 + 1 * k.val = k.val; omega
    | ⟨1, _⟩ => show win2_5.index t (1 : Fin 2) * 128 + 1 * q.val = win2_7.index t (1 : Fin 2) * 128 + 1 * q.val; omega
  have h6 : ((cfg2.win 6).blk t).view.emb (ix2 (0 : Fin 1) q) = ix2 (0 : Fin 1) ((((cfg2.win 7).blk t).view.emb (ix2 p q)) 1) := by
    funext a; apply Fin.ext
    match a with
    | ⟨0, _⟩ => show win2_6.index t (0 : Fin 2) * 1 + 1 * 0 = 0; omega
    | ⟨1, _⟩ => show win2_6.index t (1 : Fin 2) * 128 + 1 * q.val = win2_7.index t (1 : Fin 2) * 128 + 1 * q.val; omega
  exact node3_congr false (funext fun k => congrArg (V c main_v99) (h0 k))
    (funext fun k => congrArg (V c main_v118) (h1 k))
    (funext fun k => congrArg (V c main_v72) (h2 k))
    (funext fun k => congrArg (V c main_v150) (h3 k))
    (funext fun k => congrArg (V c main_v152) (h4 k))
    (funext fun k => congrArg (V c main_v142) (h5 k))
    (congrArg (V c main_v148) h6)

/-- An index of the array is in point `t`'s block iff its row is among the block's 2000 rows. -/
theorem mem_blk2 (t : Fin cfg2.N) (i : S100000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v153).slice (win2_7.rect t)).set ↔ _
  rw [View.set_slice_whole, Rect.mem_set_unit]
  exact Iff.rfl

/-- Every row of the array lies in the block of the point `row / 2000`. -/
theorem cover2 (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 50 := N_2
  refine ⟨⟨(i 0).val / 2000, by omega⟩, flush2_7 _, ?_⟩
  rw [mem_blk2]
  obtain ⟨f0a, f0b, f1a, f1b, f2a, f2b, f7a, f7b, f3a, f3b, f4a, f4b, f5a, f5b, f6a, f6b⟩ := idx_facts2 ⟨(i 0).val / 2000, by omega⟩
  intro a
  match a with
  | ⟨0, _⟩ => show win2_7.index _ (0 : Fin 2) * 2000 ≤ (i 0).val ∧ (i 0).val < win2_7.index _ (0 : Fin 2) * 2000 + 2000; simp only [f7a]; omega
  | ⟨1, _⟩ => show win2_7.index _ (1 : Fin 2) * 128 ≤ (i 1).val ∧ (i 1).val < win2_7.index _ (1 : Fin 2) * 128 + 128; simp only [f7b]; omega

/-- The output array after region 2. -/
theorem final2 (c : Dev nD) : (dat2 V c).arrAt 7 cfg2.N = G2 V c :=
  (dat2 V c).arrAt_eq_of_cover 7 (G2 V c) (fun t _ => flushed2_eq V c t) (cover2)

/-! ## Region 3: the author nodes of layer 2 -/

/-- What region 3's output array holds after the region, entry by entry, in terms of the arrays the region finds. -/
def G3 (c : Dev nD) : S50000x128.Idx → EReal := fun i =>
  node2 false (fun k => V c main_v137 (ix2 (i 0) k))
    (fun k => V c main_v80 (ix2 (i 0) k))
    (fun k => V c main_v158 (ix2 k (i 1)))
    (fun k => V c main_v160 (ix2 k (i 1)))
    (V c main_v156 (ix2 0 (i 1)))

/-- Where each window's block sits at grid point `t`: the feature windows and the output move down the rows with the
    point, the weights and the bias stay. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_5.index t (0 : Fin 2) = t.val
    ∧ win3_5.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0 :=
  (by decide +kernel : ∀ t : Fin grid3.N, _)

set_option maxHeartbeats 2000000 in
/-- What point `t` writes back is block `t` of `G3`. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz]
  simp only [View.ld_unit_zero (S := S2000x128) hz, View.ld_unit_zero (S := S128x128) hz, View.ld_unit_zero (S := S1x128) hz]
  obtain ⟨f0a, f0b, f1a, f1b, f5a, f5b, f2a, f2b, f3a, f3b, f4a, f4b⟩ := idx_facts3 t
  funext j
  obtain ⟨p, q, rfl⟩ : ∃ (p : Fin 2000) (q : Fin 128), j = ix2 p q := ⟨j 0, j 1, eq_ix2 j⟩
  refine (KPay.k3_pay1_apply _ _ _ _ _ p q).trans ?_
  show node2 false (fun k => V c main_v137 (((cfg3.win 0).blk t).view.emb (ix2 p k)))
      (fun k => V c main_v80 (((cfg3.win 1).blk t).view.emb (ix2 p k)))
      (fun k => V c main_v158 (((cfg3.win 2).blk t).view.emb (ix2 k q)))
      (fun k => V c main_v160 (((cfg3.win 3).blk t).view.emb (ix2 k q)))
      (V c main_v156 (((cfg3.win 4).blk t).view.emb (ix2 (0 : Fin 1) q)))
    = G3 V c (((cfg3.win 5).blk t).view.emb (ix2 p q))
  have h0 : ∀ k : Fin 128, ((cfg3.win 0).blk t).view.emb (ix2 p k) = ix2 ((((cfg3.win 5).blk t).view.emb (ix2 p q)) 0) k := fun k => by
    funext a; apply Fin.ext
    match a with
    | ⟨0, _⟩ => show win3_0.index t (0 : Fin 2) * 2000 + 1 * p.val = win3_5.index t (0 : Fin 2) * 2000 + 1 * p.val; omega
    | ⟨1, _⟩ => show win3_0.index t (1 : Fin 2) * 128 + 1 * k.val = k.val; omega
  have h1 : ∀ k : Fin 128, ((cfg3.win 1).blk t).view.emb (ix2 p k) = ix2 ((((cfg3.win 5).blk t).view.emb (ix2 p q)) 0) k := fun k => by
    funext a; apply Fin.ext
    match a with
    | ⟨0, _⟩ => show win3_1.index t (0 : Fin 2) * 2000 + 1 * p.val = win3_5.index t (0 : Fin 2) * 2000 + 1 * p.val; omega
    | ⟨1, _⟩ => show win3_1.index t (1 : Fin 2) * 128 + 1 * k.val = k.val; omega
  have h2 : ∀ k : Fin 128, ((cfg3.win 2).blk t).view.emb (ix2 k q) = ix2 k ((((cfg3.win 5).blk t).view.emb (ix2 p q)) 1) := fun k => by
    funext a; apply Fin.ext
    match a with
    | ⟨0, _⟩ => show win3_2.index t (0 : Fin 2) * 128 + 1 * k.val = k.val; omega
    | ⟨1, _⟩ => show win3_2.index t (1 : Fin 2) * 128 + 1 * q.val = win3_5.index t (1 : Fin 2) * 128 + 1 * q.val; omega
  have h3 : ∀ k : Fin 128, ((cfg3.win 3).blk t).view.emb (ix2 k q) = ix2 k ((((cfg3.win 5).blk t).view.emb (ix2 p q)) 1) := fun k => by
    funext a; apply Fin.ext
    match a with
    | ⟨0, _⟩ => show win3_3.index t (0 : Fin 2) * 128 + 1 * k.val = k.val; omega
    | ⟨1, _⟩ => show win3_3.index t (1 : Fin 2) * 128 + 1 * q.val = win3_5.index t (1 : Fin 2) * 128 + 1 * q.val; omega
  have h4 : ((cfg3.win 4).blk t).view.emb (ix2 (0 : Fin 1) q) = ix2 (0 : Fin 1) ((((cfg3.win 5).blk t).view.emb (ix2 p q)) 1) := by
    funext a; apply Fin.ext
    match a with
    | ⟨0, _⟩ => show win3_4.index t (0 : Fin 2) * 1 + 1 * 0 = 0; omega
    | ⟨1, _⟩ => show win3_4.index t (1 : Fin 2) * 128 + 1 * q.val = win3_5.index t (1 : Fin 2) * 128 + 1 * q.val; omega
  exact node2_congr false (funext fun k => congrArg (V c main_v137) (h0 k))
    (funext fun k => congrArg (V c main_v80) (h1 k))
    (funext fun k => congrArg (V c main_v158) (h2 k))
    (funext fun k => congrArg (V c main_v160) (h3 k))
    (congrArg (V c main_v156) h4)

/-- An index of the array is in point `t`'s block iff its row is among the block's 2000 rows. -/
theorem mem_blk3 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v161).slice (win3_5.rect t)).set ↔ _
  rw [View.set_slice_whole, Rect.mem_set_unit]
  exact Iff.rfl

/-- Every row of the array lies in the block of the point `row / 2000`. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := N_3
  refine ⟨⟨(i 0).val / 2000, by omega⟩, flush3_5 _, ?_⟩
  rw [mem_blk3]
  obtain ⟨f0a, f0b, f1a, f1b, f5a, f5b, f2a, f2b, f3a, f3b, f4a, f4b⟩ := idx_facts3 ⟨(i 0).val / 2000, by omega⟩
  intro a
  match a with
  | ⟨0, _⟩ => show win3_5.index _ (0 : Fin 2) * 2000 ≤ (i 0).val ∧ (i 0).val < win3_5.index _ (0 : Fin 2) * 2000 + 2000; simp only [f5a]; omega
  | ⟨1, _⟩ => show win3_5.index _ (1 : Fin 2) * 128 ≤ (i 1).val ∧ (i 1).val < win3_5.index _ (1 : Fin 2) * 128 + 128; simp only [f5b]; omega

/-- The output array after region 3. -/
theorem final3 (c : Dev nD) : (dat3 V c).arrAt 5 cfg3.N = G3 V c :=
  (dat3 V c).arrAt_eq_of_cover 5 (G3 V c) (fun t _ => flushed3_eq V c t) (cover3)

end Cert.KernelIdeal.KBlocks

end
-- ==== Proof.Slices.lean ====
/-
  The weight tensor [3, 128, 128] and the bias table [3, 128] read through the slices the programs take of them.

  Edge type `r`'s weight matrix is the slice `[r : r + 1, :, :]` reshaped to [128, 128]: entry `(k, j)` is the tensor's
  `(r, k, j)`. Its bias is the slice `[r : r + 1, :]` reshaped to [128], and, where a block wants a row, reshaped again
  to [1, 128]: entry `(0, j)` is the table's `(r, j)`.
-/
import Idealize.ShloMosaic.Lib.ValueIdx
import Idealize.ShloMosaic.Lib.ValueLayout
import Idealize.ShloMosaic.Lib.Pipeline.Value

namespace GraphLayer.Slices

open Idealize.ShloMosaic Idealize.ShloMosaic.ValueIdx

variable {α : Type}

/-- Matrix `r` of the weight tensor at `(k, j)`. -/
theorem weight_apply (W : (⟨3, ![3, 128, 128]⟩ : Shape).Idx → α) (r : Fin 3)
    (hs : (⟨3, ![3, 128, 128]⟩ : Shape).Slices ![r.val, 0, 0] ⟨3, ![1, 128, 128]⟩)
    (hc : (⟨3, ![1, 128, 128]⟩ : Shape).ShapeCasts ⟨2, ![128, 128]⟩) (k j : Fin 128) :
    shapeCast ⟨2, ![128, 128]⟩ (extractStridedSlice ⟨3, ![1, 128, 128]⟩ ![r.val, 0, 0] W hs) hc (ix2 k j)
      = W (ix3 r k j) := by
  rw [shapeCast_1ab_ab_apply]
  exact extractStridedSlice_apply _ W hs _ _ (fun a => by
    match a with
    | ⟨0, _⟩ => rfl
    | ⟨1, _⟩ => exact (Nat.zero_add _).symm
    | ⟨2, _⟩ => exact (Nat.zero_add _).symm)

/-- Row `r` of the bias table as a vector, at `j`. -/
theorem bias_vec_apply (b : (⟨2, ![3, 128]⟩ : Shape).Idx → α) (r : Fin 3)
    (hs : (⟨2, ![3, 128]⟩ : Shape).Slices ![r.val, 0] ⟨2, ![1, 128]⟩)
    (hc : (⟨2, ![1, 128]⟩ : Shape).ShapeCasts ⟨1, ![128]⟩) (j : Fin 128) :
    shapeCast ⟨1, ![128]⟩ (extractStridedSlice ⟨2, ![1, 128]⟩ ![r.val, 0] b hs) hc (ix1 j) = b (ix2 r j) := by
  rw [shapeCast_1a_a_apply]
  exact extractStridedSlice_apply _ b hs _ _ (fun a => by
    match a with
    | ⟨0, _⟩ => rfl
    | ⟨1, _⟩ => exact (Nat.zero_add _).symm)

/-- A vector made a row again, at `(0, j)`. -/
theorem row_apply (v : (⟨1, ![128]⟩ : Shape).Idx → α) (hc : (⟨1, ![128]⟩ : Shape).ShapeCasts ⟨2, ![1, 128]⟩) (j : Fin 128) :
    shapeCast ⟨2, ![1, 128]⟩ v hc (ix2 (0 : Fin 1) j) = v (ix1 j) :=
  shapeCast_a_1a_apply v hc 0 j

end GraphLayer.Slices
-- ==== Proof.KHost0f.lean ====
/-
  What the first region (paper nodes, first layer) finds: the two neighbourhood means of the input features, the paper
  features themselves, the two message matrices, the sum of the two root matrices and the sum of the two bias rows. The
  stretch before it starts from the launch memory, so each is a term of the arguments.
-/
import proofs.«103435_j85461259255857_1_alg».proof.Proof.Gen.KernelIdeal.Frame
import proofs.«103435_j85461259255857_1_alg».proof.Proof.Stages
import proofs.«103435_j85461259255857_1_alg».proof.Proof.KArgs
import proofs.«103435_j85461259255857_1_alg».proof.Proof.Slices
import Idealize.ShloMosaic.Lib.StableHlo.Run
import Idealize.ShloMosaic.PureOps.Ideal

set_option maxRecDepth 16384

noncomputable section

namespace Cert.KernelIdeal.KHostF

open Idealize.ShloMosaic Idealize.ShloMosaic.TcCoe Idealize.SL.Sem Cert.KernelIdeal Cert.KernelIdeal.Gen

/-! ## A line of operations cut in two, and what a part of it leaves alone

A reference is a memory space and an index within it. Operation by operation a line writes one reference; listing
the indices of those references in order, a part of the line (its first `n` operations, or the rest) writes only the
references whose index is on the same part of the list. A reference whose index is not there is left alone by it. -/

/-- A line run from `V` is its first `n` operations run from `V`, then the rest run from what those leave. -/
theorem after_split (n : Nat) (ops : List (HloOp τ sig (Elt Ideal))) (V : Valuation τ sig (Elt Ideal)) :
    StableHlo.after ops V = StableHlo.after (ops.drop n) (StableHlo.after (ops.take n) V) := by
  conv_lhs => rw [← List.take_append_drop n ops]
  exact StableHlo.after_append _ _ _

/-- The operation writes only references of index `i`. -/
def WritesIdx (op : HloOp τ sig (Elt Ideal)) (i : Nat) : Prop :=
  ∀ b ∈ op.writes, ∃ y : Ref sig .tc, b = Proc.devRef (τ := τ) .tc y ∧ y.idx.val = i

/-- An operation whose one result is `y` writes only references of `y`'s index. -/
theorem wi {op : HloOp τ sig (Elt Ideal)} (y : Ref sig .tc) (i : Nat)
    (hw : op.writes = {Proc.devRef (τ := τ) .tc y} := by rfl) (h : y.idx.val = i := by decide) : WritesIdx op i :=
  fun b hb => ⟨y, Finset.mem_singleton.mp (hw ▸ hb), h⟩

/-- Related lists: each member of the first is related to a member of the second. -/
theorem exists_of_forall₂ {α β : Type} {R : α → β → Prop} :
    ∀ {l₁ : List α} {l₂ : List β}, List.Forall₂ R l₁ l₂ → ∀ a ∈ l₁, ∃ b ∈ l₂, R a b
  | _, _, .nil, _, ha => nomatch ha
  | _, _, .cons (a := a') (b := b') h t, a, ha => by
    rcases List.mem_cons.1 ha with rfl | ha
    · exact ⟨b', List.mem_cons_self, h⟩
    · obtain ⟨b, hb, hr⟩ := exists_of_forall₂ t a ha
      exact ⟨b, List.mem_cons_of_mem _ hb, hr⟩

/-- A reference whose index is none of those a line's operations write is after the line what it was before. -/
theorem keepF {ops : List (HloOp τ sig (Elt Ideal))} {L : List Nat} (h : List.Forall₂ WritesIdx ops L)
    (V : Valuation τ sig (Elt Ideal)) (r : Ref sig .tc) (hr : r.idx.val ∉ L) :
    StableHlo.after ops V (Proc.devRef .tc r) = V (Proc.devRef .tc r) :=
  StableHlo.after_of_forall_not_mem ops V fun op hop hb => by
    obtain ⟨i, hi, hw⟩ := exists_of_forall₂ h op hop
    obtain ⟨y, he, hy⟩ := hw _ hb
    have hry : r = y := Proc.devRef_injective _ he
    exact hr (hry ▸ hy ▸ hi)

/-- The indices of the results of the first stretch's operations, in order. -/
abbrev written0 : List Nat :=
  [
    14, 15, 16, 17, 18, 19, 20, 21, 22, 23, 24, 25, 26, 27, 28, 29, 30, 31, 32, 33,
    34, 35, 36, 37, 38, 39, 40, 41, 42, 43, 44, 45, 46, 47, 48, 49, 50, 51, 52, 53,
    54, 55, 56, 57, 58, 59, 60, 61, 62, 63, 64, 65, 66, 67, 68, 69, 70, 71, 72, 73,
    74, 75, 76, 77, 78, 79, 80, 81, 82, 83, 84, 85, 86, 87, 88, 89, 90, 91, 92, 93,
    94, 95, 96, 97, 98, 99, 100, 101, 102, 103 ]

set_option maxHeartbeats 4000000 in
/-- Operation by operation, the first stretch writes the reference of the listed index. -/
theorem fa0 : List.Forall₂ WritesIdx (hostOps0 : List (HloOp τ sig (Elt Ideal))) written0 :=
    List.Forall₂.cons (wi main_c 14) <|
    List.Forall₂.cons (wi main_v0 15) <|
    List.Forall₂.cons (wi main_v1 16) <|
    List.Forall₂.cons (wi main_c_0 17) <|
    List.Forall₂.cons (wi main_v2 18) <|
    List.Forall₂.cons (wi main_v3 19) <|
    List.Forall₂.cons (wi main_v4 20) <|
    List.Forall₂.cons (wi main_v5 21) <|
    List.Forall₂.cons (wi main_v6 22) <|
    List.Forall₂.cons (wi main_cst 23) <|
    List.Forall₂.cons (wi main_v7 24) <|
    List.Forall₂.cons (wi main_v8 25) <|
    List.Forall₂.cons (wi main_v9 26) <|
    List.Forall₂.cons (wi main_cst_1 27) <|
    List.Forall₂.cons (wi main_v10 28) <|
    List.Forall₂.cons (wi main_cst_2 29) <|
    List.Forall₂.cons (wi main_v11 30) <|
    List.Forall₂.cons (wi main_v12 31) <|
    List.Forall₂.cons (wi main_v13 32) <|
    List.Forall₂.cons (wi main_cst_3 33) <|
    List.Forall₂.cons (wi main_v14 34) <|
    List.Forall₂.cons (wi main_v15 35) <|
    List.Forall₂.cons (wi main_v16 36) <|
    List.Forall₂.cons (wi main_v17 37) <|
    List.Forall₂.cons (wi main_v18 38) <|
    List.Forall₂.cons (wi main_c_4 39) <|
    List.Forall₂.cons (wi main_v19 40) <|
    List.Forall₂.cons (wi main_v20 41) <|
    List.Forall₂.cons (wi main_c_5 42) <|
    List.Forall₂.cons (wi main_v21 43) <|
    List.Forall₂.cons (wi main_v22 44) <|
    List.Forall₂.cons (wi main_v23 45) <|
    List.Forall₂.cons (wi main_v24 46) <|
    List.Forall₂.cons (wi main_v25 47) <|
    List.Forall₂.cons (wi main_cst_6 48) <|
    List.Forall₂.cons (wi main_v26 49) <|
    List.Forall₂.cons (wi main_v27 50) <|
    List.Forall₂.cons (wi main_v28 51) <|
    List.Forall₂.cons (wi main_cst_7 52) <|
    List.Forall₂.cons (wi main_v29 53) <|
    List.Forall₂.cons (wi main_cst_8 54) <|
    List.Forall₂.cons (wi main_v30 55) <|
    List.Forall₂.cons (wi main_v31 56) <|
    List.Forall₂.cons (wi main_v32 57) <|
    List.Forall₂.cons (wi main_cst_9 58) <|
    List.Forall₂.cons (wi main_v33 59) <|
    List.Forall₂.cons (wi main_v34 60) <|
    List.Forall₂.cons (wi main_v35 61) <|
    List.Forall₂.cons (wi main_v36 62) <|
    List.Forall₂.cons (wi main_v37 63) <|
    List.Forall₂.cons (wi main_c_10 64) <|
    List.Forall₂.cons (wi main_v38 65) <|
    List.Forall₂.cons (wi main_v39 66) <|
    List.Forall₂.cons (wi main_c_11 67) <|
    List.Forall₂.cons (wi main_v40 68) <|
    List.Forall₂.cons (wi main_v41 69) <|
    List.Forall₂.cons (wi main_v42 70) <|
    List.Forall₂.cons (wi main_v43 71) <|
    List.Forall₂.cons (wi main_v44 72) <|
    List.Forall₂.cons (wi main_cst_12 73) <|
    List.Forall₂.cons (wi main_v45 74) <|
    List.Forall₂.cons (wi main_v46 75) <|
    List.Forall₂.cons (wi main_v47 76) <|
    List.Forall₂.cons (wi main_cst_13 77) <|
    List.Forall₂.cons (wi main_v48 78) <|
    List.Forall₂.cons (wi main_cst_14 79) <|
    List.Forall₂.cons (wi main_v49 80) <|
    List.Forall₂.cons (wi main_v50 81) <|
    List.Forall₂.cons (wi main_v51 82) <|
    List.Forall₂.cons (wi main_cst_15 83) <|
    List.Forall₂.cons (wi main_v52 84) <|
    List.Forall₂.cons (wi main_v53 85) <|
    List.Forall₂.cons (wi main_v54 86) <|
    List.Forall₂.cons (wi main_v55 87) <|
    List.Forall₂.cons (wi main_v56 88) <|
    List.Forall₂.cons (wi main_v57 89) <|
    List.Forall₂.cons (wi main_v58 90) <|
    List.Forall₂.cons (wi main_v59 91) <|
    List.Forall₂.cons (wi main_v60 92) <|
    List.Forall₂.cons (wi main_v61 93) <|
    List.Forall₂.cons (wi main_v62 94) <|
    List.Forall₂.cons (wi main_v63 95) <|
    List.Forall₂.cons (wi main_v64 96) <|
    List.Forall₂.cons (wi main_v65 97) <|
    List.Forall₂.cons (wi main_v66 98) <|
    List.Forall₂.cons (wi main_v67 99) <|
    List.Forall₂.cons (wi main_v68 100) <|
    List.Forall₂.cons (wi main_v69 101) <|
    List.Forall₂.cons (wi main_v70 102) <|
    List.Forall₂.cons (wi main_v71 103) <|
    List.Forall₂.nil

end Cert.KernelIdeal.KHostF

namespace Cert.KernelIdeal.KHost

open Idealize.ShloMosaic Idealize.ShloMosaic.TcCoe Idealize.ShloMosaic.ValueIdx Idealize.SL.Sem
open Idealize.ShloMosaic.Pipeline (Dat Cfg Window)
open Cert.KernelIdeal Cert.KernelIdeal.Gen GraphLayer Cert.KernelIdeal.KHostF

variable (m : (ℓ : Loc nD τ sig) → Buf (Elt Ideal) ℓ) (ρ : Dev nD → PrngReg) (c : Dev nD)

/-! ## What the first region finds

The first stretch is three self-contained runs of twenty-five operations, one per neighbourhood mean, and fifteen
slicing operations. Each buffer is evaluated inside its own run only: the runs after it do not write it, and the
arguments it reads are written by no run before it. -/

set_option maxHeartbeats 4000000 in
theorem r0_v18 : V1 m ρ c main_v18 = Stages.meanCites (F := Ideal) (KArgs.a0 m c) (KArgs.a8 m c) (KArgs.a9 m c) := by
  show StableHlo.after hostOps0 (W0 m ρ c) (Proc.devRef .tc main_v18) = _
  rw [after_split 25 hostOps0, keepF (List.forall₂_drop 25 fa0) _ main_v18 (by decide)]
  dsimp only [hostOps0]
  simp only [List.drop_succ_cons, List.drop_zero, List.take_succ_cons, List.take_zero]
  after_results
  rfl

set_option maxHeartbeats 4000000 in
theorem r0_v37 : V1 m ρ c main_v37 = Stages.meanWrites (F := Ideal) (KArgs.a1 m c) (KArgs.a10 m c) (KArgs.a11 m c) := by
  show StableHlo.after hostOps0 (W0 m ρ c) (Proc.devRef .tc main_v37) = _
  rw [after_split 25 hostOps0, after_split 25 (List.drop 25 hostOps0),
    keepF (List.forall₂_drop 25 (List.forall₂_drop 25 fa0)) _ main_v37 (by decide)]
  have h1 := keepF (List.forall₂_take 25 fa0) (W0 m ρ c) main_arg1 (by decide)
  have h10 := keepF (List.forall₂_take 25 fa0) (W0 m ρ c) main_arg10 (by decide)
  have h11 := keepF (List.forall₂_take 25 fa0) (W0 m ρ c) main_arg11 (by decide)
  generalize StableHlo.after (List.take 25 hostOps0) (W0 m ρ c) = V' at h1 h10 h11 ⊢
  dsimp only [hostOps0]
  simp only [List.drop_succ_cons, List.drop_zero, List.take_succ_cons, List.take_zero]
  after_results
  rw [h1, h10, h11]
  rfl

theorem r0_arg0 : V1 m ρ c main_arg0 = (KArgs.a0 m c) :=
  keepF fa0 (W0 m ρ c) main_arg0 (by decide)

set_option maxHeartbeats 4000000 in
theorem r0_v69 (k j : Fin 128) : V1 m ρ c main_v69 (ix2 k j) = (KArgs.a2 m c) (ix3 0 k j) := by
  show StableHlo.after hostOps0 (W0 m ρ c) (Proc.devRef .tc main_v69) (ix2 k j) = _
  rw [after_split 75 hostOps0]
  have h2 := keepF (List.forall₂_take 75 fa0) (W0 m ρ c) main_arg2 (by decide)
  generalize StableHlo.after (List.take 75 hostOps0) (W0 m ρ c) = V' at h2 ⊢
  dsimp only [hostOps0]
  simp only [List.drop_succ_cons, List.drop_zero, List.take_succ_cons, List.take_zero]
  after_results
  rw [h2]
  exact Slices.weight_apply (KArgs.a2 m c) 0 _ _ k j

set_option maxHeartbeats 4000000 in
theorem r0_v71 (k j : Fin 128) : V1 m ρ c main_v71 (ix2 k j) = (KArgs.a2 m c) (ix3 1 k j) := by
  show StableHlo.after hostOps0 (W0 m ρ c) (Proc.devRef .tc main_v71) (ix2 k j) = _
  rw [after_split 75 hostOps0]
  have h2 := keepF (List.forall₂_take 75 fa0) (W0 m ρ c) main_arg2 (by decide)
  generalize StableHlo.after (List.take 75 hostOps0) (W0 m ρ c) = V' at h2 ⊢
  dsimp only [hostOps0]
  simp only [List.drop_succ_cons, List.drop_zero, List.take_succ_cons, List.take_zero]
  after_results
  rw [h2]
  exact Slices.weight_apply (KArgs.a2 m c) 1 _ _ k j

set_option maxHeartbeats 4000000 in
theorem r0_v61 (k j : Fin 128) : V1 m ρ c main_v61 (ix2 k j) = (KArgs.a4 m c) (ix3 0 k j) + (KArgs.a4 m c) (ix3 1 k j) := by
  show StableHlo.after hostOps0 (W0 m ρ c) (Proc.devRef .tc main_v61) (ix2 k j) = _
  rw [after_split 75 hostOps0]
  have h4 := keepF (List.forall₂_take 75 fa0) (W0 m ρ c) main_arg4 (by decide)
  generalize StableHlo.after (List.take 75 hostOps0) (W0 m ρ c) = V' at h4 ⊢
  dsimp only [hostOps0]
  simp only [List.drop_succ_cons, List.drop_zero, List.take_succ_cons, List.take_zero]
  after_results
  rw [h4]
  refine (ValueIdx.addf_apply _ _ _).trans ?_
  refine congr (congrArg HAdd.hAdd ?_) ?_
  · exact Slices.weight_apply (KArgs.a4 m c) 0 _ _ k j
  · exact Slices.weight_apply (KArgs.a4 m c) 1 _ _ k j

set_option maxHeartbeats 4000000 in
theorem r0_v67 (j : Fin 128) : V1 m ρ c main_v67 (ix2 0 j) = (KArgs.a3 m c) (ix2 0 j) + (KArgs.a3 m c) (ix2 1 j) := by
  show StableHlo.after hostOps0 (W0 m ρ c) (Proc.devRef .tc main_v67) (ix2 0 j) = _
  rw [after_split 75 hostOps0]
  have h3 := keepF (List.forall₂_take 75 fa0) (W0 m ρ c) main_arg3 (by decide)
  generalize StableHlo.after (List.take 75 hostOps0) (W0 m ρ c) = V' at h3 ⊢
  dsimp only [hostOps0]
  simp only [List.drop_succ_cons, List.drop_zero, List.take_succ_cons, List.take_zero]
  after_results
  rw [h3]
  refine (Slices.row_apply _ _ j).trans ?_
  refine (ValueIdx.addf_apply _ _ _).trans ?_
  refine congr (congrArg HAdd.hAdd ?_) ?_
  · exact Slices.bias_vec_apply (KArgs.a3 m c) 0 _ _ j
  · exact Slices.bias_vec_apply (KArgs.a3 m c) 1 _ _ j

set_option maxHeartbeats 4000000 in
/-- The mean over the papers an author wrote is computed before the first region and read by the second. -/
theorem v1_v56 : V1 m ρ c main_v56 = Stages.meanWb (F := Ideal) (KArgs.a0 m c) (KArgs.a12 m c) (KArgs.a13 m c) := by
  show StableHlo.after hostOps0 (W0 m ρ c) (Proc.devRef .tc main_v56) = _
  rw [after_split 50 hostOps0, after_split 25 (List.drop 50 hostOps0),
    keepF (List.forall₂_drop 25 (List.forall₂_drop 50 fa0)) _ main_v56 (by decide)]
  have h0 := keepF (List.forall₂_take 50 fa0) (W0 m ρ c) main_arg0 (by decide)
  have h12 := keepF (List.forall₂_take 50 fa0) (W0 m ρ c) main_arg12 (by decide)
  have h13 := keepF (List.forall₂_take 50 fa0) (W0 m ρ c) main_arg13 (by decide)
  generalize StableHlo.after (List.take 50 hostOps0) (W0 m ρ c) = V' at h0 h12 h13 ⊢
  dsimp only [hostOps0]
  simp only [List.drop_succ_cons, List.drop_zero, List.take_succ_cons, List.take_zero]
  after_results
  rw [h0, h12, h13]
  rfl

end Cert.KernelIdeal.KHost

end
-- ==== Proof.KWalk.lean ====
/-
  Walking buffers back through the program's fold.

  The program alternates four stretches of whole-array operations with four pipelined regions. A stretch rewrites
  exactly the buffers its operations name as results and leaves every other buffer alone; a region leaves every
  buffer that is not one of its windows' arrays alone, leaves an input window's array as it found it, and leaves in
  its output window's array what the pipeline wrote. So the contents of a buffer at a later point of the fold are its
  contents at the last point that wrote it: an argument is never written and is found everywhere as it was launched; a
  stretch's result survives until it is read; a region's output is what its pipeline leaves.
-/
import proofs.«103435_j85461259255857_1_alg».proof.Proof.Gen.KernelIdeal.Frame
import Idealize.ShloMosaic.PureOps.Ideal
import Idealize.ShloMosaic.Lib.StableHlo.Run

set_option maxRecDepth 16384

noncomputable section

namespace Cert.KernelIdeal.KWalk

open Idealize.ShloMosaic Idealize.ShloMosaic.TcCoe Idealize.SL.Sem Cert.KernelIdeal Cert.KernelIdeal.Gen

/-! ## What each stretch writes

A reference is a memory space and an index within it. Every result of a stretch has its index on a list of numbers;
a reference whose index is not on the list is therefore none of the results, whatever its space. -/

/-- If every operation of a line writes only references whose index is on a list, a reference whose index is not on
    the list is after the line what it was before. -/
theorem after_keep_of_idx (L : List Nat) (ops : List (HloOp τ sig (Elt Ideal))) (V : Valuation τ sig (Elt Ideal))
    (hW : ops.Forall fun op => ∀ b ∈ op.writes, ∃ y : Ref sig .tc, b = Proc.devRef (τ := τ) .tc y ∧ y.idx.val ∈ L)
    (r : Ref sig .tc) (hr : r.idx.val ∉ L) :
    StableHlo.after ops V (Proc.devRef .tc r) = V (Proc.devRef .tc r) :=
  StableHlo.after_of_forall_not_mem ops V fun op hop hb => by
    obtain ⟨y, he, hy⟩ := List.forall_iff_forall_mem.mp hW op hop _ hb
    have hry : r = y := Proc.devRef_injective _ he
    exact hr (hry ▸ hy)

/-- An operation whose one result has its index on the list writes only such references. -/
theorem writes_idx (L : List Nat) (y : Ref sig .tc) (h : y.idx.val ∈ L) :
    ∀ b ∈ ({Proc.devRef (τ := τ) .tc y} : Finset (DevRef τ sig)),
      ∃ y' : Ref sig .tc, b = Proc.devRef (τ := τ) .tc y' ∧ y'.idx.val ∈ L :=
  fun _ hb => ⟨y, Finset.mem_singleton.mp hb, h⟩

/-- The indices of the results of the first stretch's operations, in order. -/
def written0 : List Nat :=
  [
    14, 15, 16, 17, 18, 19, 20, 21, 22, 23, 24, 25, 26, 27, 28, 29, 30, 31, 32, 33,
    34, 35, 36, 37, 38, 39, 40, 41, 42, 43, 44, 45, 46, 47, 48, 49, 50, 51, 52, 53,
    54, 55, 56, 57, 58, 59, 60, 61, 62, 63, 64, 65, 66, 67, 68, 69, 70, 71, 72, 73,
    74, 75, 76, 77, 78, 79, 80, 81, 82, 83, 84, 85, 86, 87, 88, 89, 90, 91, 92, 93,
    94, 95, 96, 97, 98, 99, 100, 101, 102, 103 ]

theorem sw0 (y : Ref sig .tc) (h : y.idx.val ∈ written0 := by decide) :
    ∀ b ∈ ({Proc.devRef (τ := τ) .tc y} : Finset (DevRef τ sig)),
      ∃ y' : Ref sig .tc, b = Proc.devRef (τ := τ) .tc y' ∧ y'.idx.val ∈ written0 :=
  writes_idx written0 y h

set_option maxHeartbeats 4000000 in
/-- Every operation of the first stretch writes only a reference whose index is listed. -/
theorem hostOps0_writes : (hostOps0 : List (HloOp τ sig (Elt Ideal))).Forall fun op =>
    ∀ b ∈ op.writes, ∃ y : Ref sig .tc, b = Proc.devRef (τ := τ) .tc y ∧ y.idx.val ∈ written0 :=
  ⟨
    sw0 main_c, sw0 main_v0, sw0 main_v1, sw0 main_c_0, sw0 main_v2, sw0 main_v3,
    sw0 main_v4, sw0 main_v5, sw0 main_v6, sw0 main_cst, sw0 main_v7, sw0 main_v8,
    sw0 main_v9, sw0 main_cst_1, sw0 main_v10, sw0 main_cst_2, sw0 main_v11, sw0 main_v12,
    sw0 main_v13, sw0 main_cst_3, sw0 main_v14, sw0 main_v15, sw0 main_v16, sw0 main_v17,
    sw0 main_v18, sw0 main_c_4, sw0 main_v19, sw0 main_v20, sw0 main_c_5, sw0 main_v21,
    sw0 main_v22, sw0 main_v23, sw0 main_v24, sw0 main_v25, sw0 main_cst_6, sw0 main_v26,
    sw0 main_v27, sw0 main_v28, sw0 main_cst_7, sw0 main_v29, sw0 main_cst_8, sw0 main_v30,
    sw0 main_v31, sw0 main_v32, sw0 main_cst_9, sw0 main_v33, sw0 main_v34, sw0 main_v35,
    sw0 main_v36, sw0 main_v37, sw0 main_c_10, sw0 main_v38, sw0 main_v39, sw0 main_c_11,
    sw0 main_v40, sw0 main_v41, sw0 main_v42, sw0 main_v43, sw0 main_v44, sw0 main_cst_12,
    sw0 main_v45, sw0 main_v46, sw0 main_v47, sw0 main_cst_13, sw0 main_v48, sw0 main_cst_14,
    sw0 main_v49, sw0 main_v50, sw0 main_v51, sw0 main_cst_15, sw0 main_v52, sw0 main_v53,
    sw0 main_v54, sw0 main_v55, sw0 main_v56, sw0 main_v57, sw0 main_v58, sw0 main_v59,
    sw0 main_v60, sw0 main_v61, sw0 main_v62, sw0 main_v63, sw0 main_v64, sw0 main_v65,
    sw0 main_v66, sw0 main_v67, sw0 main_v68, sw0 main_v69, sw0 main_v70, sw0 main_v71 ⟩

/-- A buffer whose index is not a result's of the first stretch is after it what it was before. -/
theorem keep0 (V : Valuation τ sig (Elt Ideal)) (r : Ref sig .tc) (hr : r.idx.val ∉ written0) :
    StableHlo.after hostOps0 V (Proc.devRef .tc r) = V (Proc.devRef .tc r) :=
  after_keep_of_idx written0 hostOps0 V hostOps0_writes r hr

/-- The indices of the results of the second stretch's operations, in order. -/
def written1 : List Nat :=
  [
    105, 106, 107, 108, 109, 110, 111 ]

theorem sw1 (y : Ref sig .tc) (h : y.idx.val ∈ written1 := by decide) :
    ∀ b ∈ ({Proc.devRef (τ := τ) .tc y} : Finset (DevRef τ sig)),
      ∃ y' : Ref sig .tc, b = Proc.devRef (τ := τ) .tc y' ∧ y'.idx.val ∈ written1 :=
  writes_idx written1 y h

set_option maxHeartbeats 4000000 in
/-- Every operation of the second stretch writes only a reference whose index is listed. -/
theorem hostOps1_writes : (hostOps1 : List (HloOp τ sig (Elt Ideal))).Forall fun op =>
    ∀ b ∈ op.writes, ∃ y : Ref sig .tc, b = Proc.devRef (τ := τ) .tc y ∧ y.idx.val ∈ written1 :=
  ⟨
    sw1 main_v73, sw1 main_v74, sw1 main_v75, sw1 main_v76, sw1 main_v77, sw1 main_v78,
    sw1 main_v79 ⟩

/-- A buffer whose index is not a result's of the second stretch is after it what it was before. -/
theorem keep1 (V : Valuation τ sig (Elt Ideal)) (r : Ref sig .tc) (hr : r.idx.val ∉ written1) :
    StableHlo.after hostOps1 V (Proc.devRef .tc r) = V (Proc.devRef .tc r) :=
  after_keep_of_idx written1 hostOps1 V hostOps1_writes r hr

/-- The indices of the results of the third stretch's operations, in order. -/
def written2 : List Nat :=
  [
    113, 114, 115, 116, 117, 118, 119, 120, 121, 122, 123, 124, 125, 126, 127, 128, 129, 130, 131, 132,
    133, 134, 135, 136, 137, 138, 139, 140, 141, 142, 143, 144, 145, 146, 147, 148, 149, 150, 151, 152,
    153, 154, 155, 156, 157, 158, 159, 160, 161, 162, 163, 164, 165, 166, 167, 168, 169, 170, 171, 172,
    173, 174, 175, 176, 177, 178, 179, 180, 181, 182, 183, 184, 185, 186, 187, 188, 189, 190, 191, 192,
    193, 194, 195, 196, 197, 198, 199, 200, 201, 202 ]

theorem sw2 (y : Ref sig .tc) (h : y.idx.val ∈ written2 := by decide) :
    ∀ b ∈ ({Proc.devRef (τ := τ) .tc y} : Finset (DevRef τ sig)),
      ∃ y' : Ref sig .tc, b = Proc.devRef (τ := τ) .tc y' ∧ y'.idx.val ∈ written2 :=
  writes_idx written2 y h

set_option maxHeartbeats 4000000 in
/-- Every operation of the third stretch writes only a reference whose index is listed. -/
theorem hostOps2_writes : (hostOps2 : List (HloOp τ sig (Elt Ideal))).Forall fun op =>
    ∀ b ∈ op.writes, ∃ y : Ref sig .tc, b = Proc.devRef (τ := τ) .tc y ∧ y.idx.val ∈ written2 :=
  ⟨
    sw2 main_c_16, sw2 main_v81, sw2 main_v82, sw2 main_c_17, sw2 main_v83, sw2 main_v84,
    sw2 main_v85, sw2 main_v86, sw2 main_v87, sw2 main_cst_18, sw2 main_v88, sw2 main_v89,
    sw2 main_v90, sw2 main_cst_19, sw2 main_v91, sw2 main_cst_20, sw2 main_v92, sw2 main_v93,
    sw2 main_v94, sw2 main_cst_21, sw2 main_v95, sw2 main_v96, sw2 main_v97, sw2 main_v98,
    sw2 main_v99, sw2 main_c_22, sw2 main_v100, sw2 main_v101, sw2 main_c_23, sw2 main_v102,
    sw2 main_v103, sw2 main_v104, sw2 main_v105, sw2 main_v106, sw2 main_cst_24, sw2 main_v107,
    sw2 main_v108, sw2 main_v109, sw2 main_cst_25, sw2 main_v110, sw2 main_cst_26, sw2 main_v111,
    sw2 main_v112, sw2 main_v113, sw2 main_cst_27, sw2 main_v114, sw2 main_v115, sw2 main_v116,
    sw2 main_v117, sw2 main_v118, sw2 main_c_28, sw2 main_v119, sw2 main_v120, sw2 main_c_29,
    sw2 main_v121, sw2 main_v122, sw2 main_v123, sw2 main_v124, sw2 main_v125, sw2 main_cst_30,
    sw2 main_v126, sw2 main_v127, sw2 main_v128, sw2 main_cst_31, sw2 main_v129, sw2 main_cst_32,
    sw2 main_v130, sw2 main_v131, sw2 main_v132, sw2 main_cst_33, sw2 main_v133, sw2 main_v134,
    sw2 main_v135, sw2 main_v136, sw2 main_v137, sw2 main_v138, sw2 main_v139, sw2 main_v140,
    sw2 main_v141, sw2 main_v142, sw2 main_v143, sw2 main_v144, sw2 main_v145, sw2 main_v146,
    sw2 main_v147, sw2 main_v148, sw2 main_v149, sw2 main_v150, sw2 main_v151, sw2 main_v152 ⟩

/-- A buffer whose index is not a result's of the third stretch is after it what it was before. -/
theorem keep2 (V : Valuation τ sig (Elt Ideal)) (r : Ref sig .tc) (hr : r.idx.val ∉ written2) :
    StableHlo.after hostOps2 V (Proc.devRef .tc r) = V (Proc.devRef .tc r) :=
  after_keep_of_idx written2 hostOps2 V hostOps2_writes r hr

/-- The indices of the results of the fourth stretch's operations, in order. -/
def written3 : List Nat :=
  [
    204, 205, 206, 207, 208, 209, 210 ]

theorem sw3 (y : Ref sig .tc) (h : y.idx.val ∈ written3 := by decide) :
    ∀ b ∈ ({Proc.devRef (τ := τ) .tc y} : Finset (DevRef τ sig)),
      ∃ y' : Ref sig .tc, b = Proc.devRef (τ := τ) .tc y' ∧ y'.idx.val ∈ written3 :=
  writes_idx written3 y h

set_option maxHeartbeats 4000000 in
/-- Every operation of the fourth stretch writes only a reference whose index is listed. -/
theorem hostOps3_writes : (hostOps3 : List (HloOp τ sig (Elt Ideal))).Forall fun op =>
    ∀ b ∈ op.writes, ∃ y : Ref sig .tc, b = Proc.devRef (τ := τ) .tc y ∧ y.idx.val ∈ written3 :=
  ⟨
    sw3 main_v154, sw3 main_v155, sw3 main_v156, sw3 main_v157, sw3 main_v158, sw3 main_v159,
    sw3 main_v160 ⟩

/-- A buffer whose index is not a result's of the fourth stretch is after it what it was before. -/
theorem keep3 (V : Valuation τ sig (Elt Ideal)) (r : Ref sig .tc) (hr : r.idx.val ∉ written3) :
    StableHlo.after hostOps3 V (Proc.devRef .tc r) = V (Proc.devRef .tc r) :=
  after_keep_of_idx written3 hostOps3 V hostOps3_writes r hr

/-! ## The fold, walked back -/

variable (m : (ℓ : Loc nD τ sig) → Buf (Elt Ideal) ℓ) (ρ : Dev nD → PrngReg)

/-! ### The arguments after the first region -/

/-- The paper features are an input window of the first region, which leaves them as it found them. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) :=
        (W2_arr m ρ c 2).trans (((dat0 (V1 m ρ) c).arrAt_in 2 rfl _).trans (A_eq0 (V1 m ρ) c 2))
    _ = W0 m ρ c (Proc.devRef .tc main_arg0) := keep0 _ main_arg0 (by decide)
    _ = m ((c : Thread nD τ).loc main_arg0) := rfl

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := keep0 _ main_arg1 (by decide)
    _ = m ((c : Thread nD τ).loc main_arg1) := rfl

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := keep0 _ main_arg2 (by decide)
    _ = m ((c : Thread nD τ).loc main_arg2) := rfl

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := keep0 _ main_arg3 (by decide)
    _ = m ((c : Thread nD τ).loc main_arg3) := rfl

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := keep0 _ main_arg4 (by decide)
    _ = m ((c : Thread nD τ).loc main_arg4) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := keep0 _ main_arg5 (by decide)
    _ = m ((c : Thread nD τ).loc main_arg5) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := keep0 _ main_arg6 (by decide)
    _ = m ((c : Thread nD τ).loc main_arg6) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := keep0 _ main_arg7 (by decide)
    _ = m ((c : Thread nD τ).loc main_arg7) := rfl

theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := keep0 _ main_arg8 (by decide)
    _ = m ((c : Thread nD τ).loc main_arg8) := rfl

theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := keep0 _ main_arg9 (by decide)
    _ = m ((c : Thread nD τ).loc main_arg9) := rfl

theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := keep0 _ main_arg10 (by decide)
    _ = m ((c : Thread nD τ).loc main_arg10) := rfl

theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := keep0 _ main_arg11 (by decide)
    _ = m ((c : Thread nD τ).loc main_arg11) := rfl

theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := keep0 _ main_arg12 (by decide)
    _ = m ((c : Thread nD τ).loc main_arg12) := rfl

theorem W2_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := keep0 _ main_arg13 (by decide)
    _ = m ((c : Thread nD τ).loc main_arg13) := rfl

/-! ### The arguments after the second region -/

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := keep1 _ main_arg5 (by decide)
    _ = m ((c : Thread nD τ).loc main_arg5) := W2_arg5 m ρ c

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := keep1 _ main_arg6 (by decide)
    _ = m ((c : Thread nD τ).loc main_arg6) := W2_arg6 m ρ c

theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := keep1 _ main_arg7 (by decide)
    _ = m ((c : Thread nD τ).loc main_arg7) := W2_arg7 m ρ c

theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := keep1 _ main_arg8 (by decide)
    _ = m ((c : Thread nD τ).loc main_arg8) := W2_arg8 m ρ c

theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := keep1 _ main_arg9 (by decide)
    _ = m ((c : Thread nD τ).loc main_arg9) := W2_arg9 m ρ c

theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := keep1 _ main_arg10 (by decide)
    _ = m ((c : Thread nD τ).loc main_arg10) := W2_arg10 m ρ c

theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := keep1 _ main_arg11 (by decide)
    _ = m ((c : Thread nD τ).loc main_arg11) := W2_arg11 m ρ c

theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := keep1 _ main_arg12 (by decide)
    _ = m ((c : Thread nD τ).loc main_arg12) := W2_arg12 m ρ c

theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := keep1 _ main_arg13 (by decide)
    _ = m ((c : Thread nD τ).loc main_arg13) := W2_arg13 m ρ c

/-! ### The arguments after the third region -/

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := keep2 _ main_arg5 (by decide)
    _ = m ((c : Thread nD τ).loc main_arg5) := W4_arg5 m ρ c

theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := keep2 _ main_arg6 (by decide)
    _ = m ((c : Thread nD τ).loc main_arg6) := W4_arg6 m ρ c

theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := keep2 _ main_arg7 (by decide)
    _ = m ((c : Thread nD τ).loc main_arg7) := W4_arg7 m ρ c

/-! ### Results carried to where they are read -/

/-- The author-side mean of the first layer is computed in the first stretch and is not a window of the first region. -/
theorem W2_v56 (c : Dev nD) : W2 m ρ c (Proc.devRef .tc main_v56) = W1 m ρ c (Proc.devRef .tc main_v56) :=
  W2_of_ne m ρ c main_v56 (by decide)

/-- It reaches the second region as the first stretch left it. -/
theorem V3_v56 (c : Dev nD) : V3 m ρ c main_v56 = V1 m ρ c main_v56 :=
  (keep1 (W2 m ρ c) main_v56 (by decide)).trans (W2_v56 m ρ c)

/-- The author features reach the second region as launched. -/
theorem V3_arg1 (c : Dev nD) : V3 m ρ c main_arg1 = m ((c : Thread nD τ).loc main_arg1) :=
  (keep1 (W2 m ρ c) main_arg1 (by decide)).trans (W2_arg1 m ρ c)

/-- The first region's output after the second region: what the first pipeline left. -/
theorem W4_v72 (c : Dev nD) : W4 m ρ c (Proc.devRef .tc main_v72) = (dat0 (V1 m ρ) c).arrAt 7 cfg0.N :=
  calc W4 m ρ c (Proc.devRef .tc main_v72)
    _ = W3 m ρ c (Proc.devRef .tc main_v72) := W4_of_ne m ρ c main_v72 (by decide)
    _ = W2 m ρ c (Proc.devRef .tc main_v72) := keep1 _ main_v72 (by decide)
    _ = (dat0 (V1 m ρ) c).arrAt 7 cfg0.N := W2_arr m ρ c 7

/-- The second region's output: what the second pipeline left. -/
theorem W4_v80 (c : Dev nD) : W4 m ρ c (Proc.devRef .tc main_v80) = (dat1 (V3 m ρ) c).arrAt 5 cfg1.N :=
  W4_arr m ρ c 5

/-- The first region's output reaches the third region untouched by the third stretch. -/
theorem V5_v72 (c : Dev nD) : V5 m ρ c main_v72 = (dat0 (V1 m ρ) c).arrAt 7 cfg0.N :=
  (keep2 (W4 m ρ c) main_v72 (by decide)).trans (W4_v72 m ρ c)

/-- The second region's output reaches the fourth region untouched by the third stretch, the third region and the
    fourth stretch. -/
theorem V7_v80 (c : Dev nD) : V7 m ρ c main_v80 = (dat1 (V3 m ρ) c).arrAt 5 cfg1.N :=
  calc V7 m ρ c main_v80
    _ = W6 m ρ c (Proc.devRef .tc main_v80) := keep3 _ main_v80 (by decide)
    _ = W5 m ρ c (Proc.devRef .tc main_v80) := W6_of_ne m ρ c main_v80 (by decide)
    _ = W4 m ρ c (Proc.devRef .tc main_v80) := keep2 _ main_v80 (by decide)
    _ = (dat1 (V3 m ρ) c).arrAt 5 cfg1.N := W4_v80 m ρ c

/-- The author-side mean of the second layer is computed in the third stretch and reaches the fourth region as is. -/
theorem V7_v137 (c : Dev nD) : V7 m ρ c main_v137 = V5 m ρ c main_v137 :=
  calc V7 m ρ c main_v137
    _ = W6 m ρ c (Proc.devRef .tc main_v137) := keep3 _ main_v137 (by decide)
    _ = V5 m ρ c main_v137 := W6_of_ne m ρ c main_v137 (by decide)

/-- The third region's output at the end: what the third pipeline left. -/
theorem W8_v153 (c : Dev nD) : W8 m ρ c (Proc.devRef .tc main_v153) = (dat2 (V5 m ρ) c).arrAt 7 cfg2.N :=
  calc W8 m ρ c (Proc.devRef .tc main_v153)
    _ = W7 m ρ c (Proc.devRef .tc main_v153) := W8_of_ne m ρ c main_v153 (by decide)
    _ = W6 m ρ c (Proc.devRef .tc main_v153) := keep3 _ main_v153 (by decide)
    _ = (dat2 (V5 m ρ) c).arrAt 7 cfg2.N := W6_arr m ρ c 7

/-- The fourth region's output at the end: what the fourth pipeline left. -/
theorem W8_v161 (c : Dev nD) : W8 m ρ c (Proc.devRef .tc main_v161) = (dat3 (V7 m ρ) c).arrAt 5 cfg3.N :=
  W8_arr m ρ c 5

end Cert.KernelIdeal.KWalk

end
-- ==== Proof.KHost1.lean ====
/-
  What the second region (author nodes, first layer) finds: the mean over the papers each author wrote (computed before the first region and carried through it), the author features, the third message and root matrices and the third bias row, cut from the arguments by the short stretch between the first two regions.
-/
import proofs.«103435_j85461259255857_1_alg».proof.Proof.Gen.KernelIdeal.Frame
import proofs.«103435_j85461259255857_1_alg».proof.Proof.Stages
import proofs.«103435_j85461259255857_1_alg».proof.Proof.KArgs
import proofs.«103435_j85461259255857_1_alg».proof.Proof.Slices
import proofs.«103435_j85461259255857_1_alg».proof.Proof.KWalk
import proofs.«103435_j85461259255857_1_alg».proof.Proof.KHost0f
import Idealize.ShloMosaic.Lib.StableHlo.Run
import Idealize.ShloMosaic.PureOps.Ideal

set_option maxRecDepth 16384

noncomputable section

namespace Cert.KernelIdeal.KHost

open Idealize.ShloMosaic Idealize.ShloMosaic.TcCoe Idealize.ShloMosaic.ValueIdx Idealize.SL.Sem
open Idealize.ShloMosaic.Pipeline (Dat Cfg Window)
open Cert.KernelIdeal Cert.KernelIdeal.Gen GraphLayer

variable (m : (ℓ : Loc nD τ sig) → Buf (Elt Ideal) ℓ) (ρ : Dev nD → PrngReg) (c : Dev nD)

theorem r1_v56 : V3 m ρ c main_v56 = Stages.meanWb (F := Ideal) (KArgs.a0 m c) (KArgs.a12 m c) (KArgs.a13 m c) :=
  (KWalk.V3_v56 m ρ c).trans (v1_v56 m ρ c)
theorem r1_arg1 : V3 m ρ c main_arg1 = (KArgs.a1 m c) := KWalk.V3_arg1 m ρ c
set_option maxHeartbeats 4000000 in
theorem r1_v77 (k j : Fin 128) : V3 m ρ c main_v77 (ix2 k j) = (KArgs.a2 m c) (ix3 2 k j) := by
  dsimp only [V3, W3, hostOps1]
  after_results
  rw [KWalk.W2_arg2 m ρ c]
  exact Slices.weight_apply (KArgs.a2 m c) 2 _ _ k j
set_option maxHeartbeats 4000000 in
theorem r1_v79 (k j : Fin 128) : V3 m ρ c main_v79 (ix2 k j) = (KArgs.a4 m c) (ix3 2 k j) := by
  dsimp only [V3, W3, hostOps1]
  after_results
  rw [KWalk.W2_arg4 m ρ c]
  exact Slices.weight_apply (KArgs.a4 m c) 2 _ _ k j
set_option maxHeartbeats 4000000 in
theorem r1_v75 (j : Fin 128) : V3 m ρ c main_v75 (ix2 0 j) = (KArgs.a3 m c) (ix2 2 j) := by
  dsimp only [V3, W3, hostOps1]
  after_results
  rw [KWalk.W2_arg3 m ρ c]
  exact (Slices.row_apply _ _ j).trans (Slices.bias_vec_apply (KArgs.a3 m c) 2 _ _ j)

end Cert.KernelIdeal.KHost

end
-- ==== Proof.KHost2f.lean ====
/-
  What the third region (paper nodes, second layer) finds: the two neighbourhood means of the FIRST LAYER'S outputs —
  the output arrays of the first two regions —, the first layer's paper features themselves, and the second layer's
  matrices and bias rows, all computed by the long stretch between the second and third regions.
-/
import proofs.«103435_j85461259255857_1_alg».proof.Proof.Gen.KernelIdeal.Frame
import proofs.«103435_j85461259255857_1_alg».proof.Proof.Stages
import proofs.«103435_j85461259255857_1_alg».proof.Proof.KArgs
import proofs.«103435_j85461259255857_1_alg».proof.Proof.Slices
import proofs.«103435_j85461259255857_1_alg».proof.Proof.KWalk
import proofs.«103435_j85461259255857_1_alg».proof.Proof.KHost0f
import Idealize.ShloMosaic.Lib.StableHlo.Run
import Idealize.ShloMosaic.PureOps.Ideal

set_option maxRecDepth 16384

noncomputable section

namespace Cert.KernelIdeal.KHostF

open Idealize.ShloMosaic Idealize.ShloMosaic.TcCoe Idealize.SL.Sem Cert.KernelIdeal Cert.KernelIdeal.Gen

/-- The indices of the results of the third stretch's operations, in order. -/
abbrev written2 : List Nat :=
  [
    113, 114, 115, 116, 117, 118, 119, 120, 121, 122, 123, 124, 125, 126, 127, 128, 129, 130, 131, 132,
    133, 134, 135, 136, 137, 138, 139, 140, 141, 142, 143, 144, 145, 146, 147, 148, 149, 150, 151, 152,
    153, 154, 155, 156, 157, 158, 159, 160, 161, 162, 163, 164, 165, 166, 167, 168, 169, 170, 171, 172,
    173, 174, 175, 176, 177, 178, 179, 180, 181, 182, 183, 184, 185, 186, 187, 188, 189, 190, 191, 192,
    193, 194, 195, 196, 197, 198, 199, 200, 201, 202 ]

set_option maxHeartbeats 4000000 in
/-- Operation by operation, the third stretch writes the reference of the listed index. -/
theorem fa2 : List.Forall₂ WritesIdx (hostOps2 : List (HloOp τ sig (Elt Ideal))) written2 :=
    List.Forall₂.cons (wi main_c_16 113) <|
    List.Forall₂.cons (wi main_v81 114) <|
    List.Forall₂.cons (wi main_v82 115) <|
    List.Forall₂.cons (wi main_c_17 116) <|
    List.Forall₂.cons (wi main_v83 117) <|
    List.Forall₂.cons (wi main_v84 118) <|
    List.Forall₂.cons (wi main_v85 119) <|
    List.Forall₂.cons (wi main_v86 120) <|
    List.Forall₂.cons (wi main_v87 121) <|
    List.Forall₂.cons (wi main_cst_18 122) <|
    List.Forall₂.cons (wi main_v88 123) <|
    List.Forall₂.cons (wi main_v89 124) <|
    List.Forall₂.cons (wi main_v90 125) <|
    List.Forall₂.cons (wi main_cst_19 126) <|
    List.Forall₂.cons (wi main_v91 127) <|
    List.Forall₂.cons (wi main_cst_20 128) <|
    List.Forall₂.cons (wi main_v92 129) <|
    List.Forall₂.cons (wi main_v93 130) <|
    List.Forall₂.cons (wi main_v94 131) <|
    List.Forall₂.cons (wi main_cst_21 132) <|
    List.Forall₂.cons (wi main_v95 133) <|
    List.Forall₂.cons (wi main_v96 134) <|
    List.Forall₂.cons (wi main_v97 135) <|
    List.Forall₂.cons (wi main_v98 136) <|
    List.Forall₂.cons (wi main_v99 137) <|
    List.Forall₂.cons (wi main_c_22 138) <|
    List.Forall₂.cons (wi main_v100 139) <|
    List.Forall₂.cons (wi main_v101 140) <|
    List.Forall₂.cons (wi main_c_23 141) <|
    List.Forall₂.cons (wi main_v102 142) <|
    List.Forall₂.cons (wi main_v103 143) <|
    List.Forall₂.cons (wi main_v104 144) <|
    List.Forall₂.cons (wi main_v105 145) <|
    List.Forall₂.cons (wi main_v106 146) <|
    List.Forall₂.cons (wi main_cst_24 147) <|
    List.Forall₂.cons (wi main_v107 148) <|
    List.Forall₂.cons (wi main_v108 149) <|
    List.Forall₂.cons (wi main_v109 150) <|
    List.Forall₂.cons (wi main_cst_25 151) <|
    List.Forall₂.cons (wi main_v110 152) <|
    List.Forall₂.cons (wi main_cst_26 153) <|
    List.Forall₂.cons (wi main_v111 154) <|
    List.Forall₂.cons (wi main_v112 155) <|
    List.Forall₂.cons (wi main_v113 156) <|
    List.Forall₂.cons (wi main_cst_27 157) <|
    List.Forall₂.cons (wi main_v114 158) <|
    List.Forall₂.cons (wi main_v115 159) <|
    List.Forall₂.cons (wi main_v116 160) <|
    List.Forall₂.cons (wi main_v117 161) <|
    List.Forall₂.cons (wi main_v118 162) <|
    List.Forall₂.cons (wi main_c_28 163) <|
    List.Forall₂.cons (wi main_v119 164) <|
    List.Forall₂.cons (wi main_v120 165) <|
    List.Forall₂.cons (wi main_c_29 166) <|
    List.Forall₂.cons (wi main_v121 167) <|
    List.Forall₂.cons (wi main_v122 168) <|
    List.Forall₂.cons (wi main_v123 169) <|
    List.Forall₂.cons (wi main_v124 170) <|
    List.Forall₂.cons (wi main_v125 171) <|
    List.Forall₂.cons (wi main_cst_30 172) <|
    List.Forall₂.cons (wi main_v126 173) <|
    List.Forall₂.cons (wi main_v127 174) <|
    List.Forall₂.cons (wi main_v128 175) <|
    List.Forall₂.cons (wi main_cst_31 176) <|
    List.Forall₂.cons (wi main_v129 177) <|
    List.Forall₂.cons (wi main_cst_32 178) <|
    List.Forall₂.cons (wi main_v130 179) <|
    List.Forall₂.cons (wi main_v131 180) <|
    List.Forall₂.cons (wi main_v132 181) <|
    List.Forall₂.cons (wi main_cst_33 182) <|
    List.Forall₂.cons (wi main_v133 183) <|
    List.Forall₂.cons (wi main_v134 184) <|
    List.Forall₂.cons (wi main_v135 185) <|
    List.Forall₂.cons (wi main_v136 186) <|
    List.Forall₂.cons (wi main_v137 187) <|
    List.Forall₂.cons (wi main_v138 188) <|
    List.Forall₂.cons (wi main_v139 189) <|
    List.Forall₂.cons (wi main_v140 190) <|
    List.Forall₂.cons (wi main_v141 191) <|
    List.Forall₂.cons (wi main_v142 192) <|
    List.Forall₂.cons (wi main_v143 193) <|
    List.Forall₂.cons (wi main_v144 194) <|
    List.Forall₂.cons (wi main_v145 195) <|
    List.Forall₂.cons (wi main_v146 196) <|
    List.Forall₂.cons (wi main_v147 197) <|
    List.Forall₂.cons (wi main_v148 198) <|
    List.Forall₂.cons (wi main_v149 199) <|
    List.Forall₂.cons (wi main_v150 200) <|
    List.Forall₂.cons (wi main_v151 201) <|
    List.Forall₂.cons (wi main_v152 202) <|
    List.Forall₂.nil

end Cert.KernelIdeal.KHostF

namespace Cert.KernelIdeal.KHost

open Idealize.ShloMosaic Idealize.ShloMosaic.TcCoe Idealize.ShloMosaic.ValueIdx Idealize.SL.Sem
open Idealize.ShloMosaic.Pipeline (Dat Cfg Window)
open Cert.KernelIdeal Cert.KernelIdeal.Gen GraphLayer Cert.KernelIdeal.KHostF

variable (m : (ℓ : Loc nD τ sig) → Buf (Elt Ideal) ℓ) (ρ : Dev nD → PrngReg) (c : Dev nD)

/-! ## What the third region finds

The third stretch has the first stretch's form: three self-contained runs of twenty-five operations, one per
neighbourhood mean, now of the first layer's outputs, and fifteen slicing operations of the second layer's weights. -/

set_option maxHeartbeats 4000000 in
theorem r2_v99 : V5 m ρ c main_v99 = Stages.meanCites (F := Ideal) ((dat0 (V1 m ρ) c).arrAt 7 cfg0.N : Layer.PaperArr) (KArgs.a8 m c) (KArgs.a9 m c) := by
  show StableHlo.after hostOps2 (W4 m ρ c) (Proc.devRef .tc main_v99) = _
  rw [after_split 25 hostOps2, keepF (List.forall₂_drop 25 fa2) _ main_v99 (by decide)]
  dsimp only [hostOps2]
  simp only [List.drop_succ_cons, List.drop_zero, List.take_succ_cons, List.take_zero]
  after_results
  rw [KWalk.W4_v72 m ρ c, KWalk.W4_arg8 m ρ c, KWalk.W4_arg9 m ρ c]
  rfl

set_option maxHeartbeats 4000000 in
theorem r2_v118 : V5 m ρ c main_v118 = Stages.meanWrites (F := Ideal) ((dat1 (V3 m ρ) c).arrAt 5 cfg1.N : Layer.AuthorArr) (KArgs.a10 m c) (KArgs.a11 m c) := by
  show StableHlo.after hostOps2 (W4 m ρ c) (Proc.devRef .tc main_v118) = _
  rw [after_split 25 hostOps2, after_split 25 (List.drop 25 hostOps2),
    keepF (List.forall₂_drop 25 (List.forall₂_drop 25 fa2)) _ main_v118 (by decide)]
  have h80 := keepF (List.forall₂_take 25 fa2) (W4 m ρ c) main_v80 (by decide)
  have h10 := keepF (List.forall₂_take 25 fa2) (W4 m ρ c) main_arg10 (by decide)
  have h11 := keepF (List.forall₂_take 25 fa2) (W4 m ρ c) main_arg11 (by decide)
  generalize StableHlo.after (List.take 25 hostOps2) (W4 m ρ c) = V' at h80 h10 h11 ⊢
  dsimp only [hostOps2]
  simp only [List.drop_succ_cons, List.drop_zero, List.take_succ_cons, List.take_zero]
  after_results
  rw [h80, h10, h11, KWalk.W4_v80 m ρ c, KWalk.W4_arg10 m ρ c, KWalk.W4_arg11 m ρ c]
  rfl

theorem r2_v72 : V5 m ρ c main_v72 = ((dat0 (V1 m ρ) c).arrAt 7 cfg0.N : Layer.PaperArr) := KWalk.V5_v72 m ρ c

set_option maxHeartbeats 4000000 in
theorem r2_v150 (k j : Fin 128) : V5 m ρ c main_v150 (ix2 k j) = (KArgs.a5 m c) (ix3 0 k j) := by
  show StableHlo.after hostOps2 (W4 m ρ c) (Proc.devRef .tc main_v150) (ix2 k j) = _
  rw [after_split 75 hostOps2]
  have h5 := keepF (List.forall₂_take 75 fa2) (W4 m ρ c) main_arg5 (by decide)
  generalize StableHlo.after (List.take 75 hostOps2) (W4 m ρ c) = V' at h5 ⊢
  dsimp only [hostOps2]
  simp only [List.drop_succ_cons, List.drop_zero, List.take_succ_cons, List.take_zero]
  after_results
  rw [h5, KWalk.W4_arg5 m ρ c]
  exact Slices.weight_apply (KArgs.a5 m c) 0 _ _ k j

set_option maxHeartbeats 4000000 in
theorem r2_v152 (k j : Fin 128) : V5 m ρ c main_v152 (ix2 k j) = (KArgs.a5 m c) (ix3 1 k j) := by
  show StableHlo.after hostOps2 (W4 m ρ c) (Proc.devRef .tc main_v152) (ix2 k j) = _
  rw [after_split 75 hostOps2]
  have h5 := keepF (List.forall₂_take 75 fa2) (W4 m ρ c) main_arg5 (by decide)
  generalize StableHlo.after (List.take 75 hostOps2) (W4 m ρ c) = V' at h5 ⊢
  dsimp only [hostOps2]
  simp only [List.drop_succ_cons, List.drop_zero, List.take_succ_cons, List.take_zero]
  after_results
  rw [h5, KWalk.W4_arg5 m ρ c]
  exact Slices.weight_apply (KArgs.a5 m c) 1 _ _ k j

set_option maxHeartbeats 4000000 in
theorem r2_v142 (k j : Fin 128) : V5 m ρ c main_v142 (ix2 k j) = (KArgs.a7 m c) (ix3 0 k j) + (KArgs.a7 m c) (ix3 1 k j) := by
  show StableHlo.after hostOps2 (W4 m ρ c) (Proc.devRef .tc main_v142) (ix2 k j) = _
  rw [after_split 75 hostOps2]
  have h7 := keepF (List.forall₂_take 75 fa2) (W4 m ρ c) main_arg7 (by decide)
  generalize StableHlo.after (List.take 75 hostOps2) (W4 m ρ c) = V' at h7 ⊢
  dsimp only [hostOps2]
  simp only [List.drop_succ_cons, List.drop_zero, List.take_succ_cons, List.take_zero]
  after_results
  rw [h7, KWalk.W4_arg7 m ρ c]
  refine (ValueIdx.addf_apply _ _ _).trans ?_
  refine congr (congrArg HAdd.hAdd ?_) ?_
  · exact Slices.weight_apply (KArgs.a7 m c) 0 _ _ k j
  · exact Slices.weight_apply (KArgs.a7 m c) 1 _ _ k j

set_option maxHeartbeats 4000000 in
theorem r2_v148 (j : Fin 128) : V5 m ρ c main_v148 (ix2 0 j) = (KArgs.a6 m c) (ix2 0 j) + (KArgs.a6 m c) (ix2 1 j) := by
  show StableHlo.after hostOps2 (W4 m ρ c) (Proc.devRef .tc main_v148) (ix2 0 j) = _
  rw [after_split 75 hostOps2]
  have h6 := keepF (List.forall₂_take 75 fa2) (W4 m ρ c) main_arg6 (by decide)
  generalize StableHlo.after (List.take 75 hostOps2) (W4 m ρ c) = V' at h6 ⊢
  dsimp only [hostOps2]
  simp only [List.drop_succ_cons, List.drop_zero, List.take_succ_cons, List.take_zero]
  after_results
  rw [h6, KWalk.W4_arg6 m ρ c]
  refine (Slices.row_apply _ _ j).trans ?_
  refine (ValueIdx.addf_apply _ _ _).trans ?_
  refine congr (congrArg HAdd.hAdd ?_) ?_
  · exact Slices.bias_vec_apply (KArgs.a6 m c) 0 _ _ j
  · exact Slices.bias_vec_apply (KArgs.a6 m c) 1 _ _ j

set_option maxHeartbeats 4000000 in
/-- The mean over the papers an author wrote, of the first layer's paper features: computed before the third region and
    read by the fourth. -/
theorem v5_v137 : V5 m ρ c main_v137 = Stages.meanWb (F := Ideal) ((dat0 (V1 m ρ) c).arrAt 7 cfg0.N : Layer.PaperArr) (KArgs.a12 m c) (KArgs.a13 m c) := by
  show StableHlo.after hostOps2 (W4 m ρ c) (Proc.devRef .tc main_v137) = _
  rw [after_split 50 hostOps2, after_split 25 (List.drop 50 hostOps2),
    keepF (List.forall₂_drop 25 (List.forall₂_drop 50 fa2)) _ main_v137 (by decide)]
  have h72 := keepF (List.forall₂_take 50 fa2) (W4 m ρ c) main_v72 (by decide)
  have h12 := keepF (List.forall₂_take 50 fa2) (W4 m ρ c) main_arg12 (by decide)
  have h13 := keepF (List.forall₂_take 50 fa2) (W4 m ρ c) main_arg13 (by decide)
  generalize StableHlo.after (List.take 50 hostOps2) (W4 m ρ c) = V' at h72 h12 h13 ⊢
  dsimp only [hostOps2]
  simp only [List.drop_succ_cons, List.drop_zero, List.take_succ_cons, List.take_zero]
  after_results
  rw [h72, h12, h13, KWalk.W4_v72 m ρ c, KWalk.W4_arg12 m ρ c, KWalk.W4_arg13 m ρ c]
  rfl

end Cert.KernelIdeal.KHost

end
-- ==== Proof.KHost3.lean ====
/-
  What the fourth region (author nodes, second layer) finds: the mean over the papers each author wrote of the first layer's paper features (carried through the third region), the first layer's author features, and the second layer's third matrices and bias row.
-/
import proofs.«103435_j85461259255857_1_alg».proof.Proof.Gen.KernelIdeal.Frame
import proofs.«103435_j85461259255857_1_alg».proof.Proof.Stages
import proofs.«103435_j85461259255857_1_alg».proof.Proof.KArgs
import proofs.«103435_j85461259255857_1_alg».proof.Proof.Slices
import proofs.«103435_j85461259255857_1_alg».proof.Proof.KWalk
import proofs.«103435_j85461259255857_1_alg».proof.Proof.KHost2f
import Idealize.ShloMosaic.Lib.StableHlo.Run
import Idealize.ShloMosaic.PureOps.Ideal

set_option maxRecDepth 16384

noncomputable section

namespace Cert.KernelIdeal.KHost

open Idealize.ShloMosaic Idealize.ShloMosaic.TcCoe Idealize.ShloMosaic.ValueIdx Idealize.SL.Sem
open Idealize.ShloMosaic.Pipeline (Dat Cfg Window)
open Cert.KernelIdeal Cert.KernelIdeal.Gen GraphLayer

variable (m : (ℓ : Loc nD τ sig) → Buf (Elt Ideal) ℓ) (ρ : Dev nD → PrngReg) (c : Dev nD)

theorem r3_v137 : V7 m ρ c main_v137 = Stages.meanWb (F := Ideal) ((dat0 (V1 m ρ) c).arrAt 7 cfg0.N : Layer.PaperArr) (KArgs.a12 m c) (KArgs.a13 m c) :=
  (KWalk.V7_v137 m ρ c).trans (v5_v137 m ρ c)
theorem r3_v80 : V7 m ρ c main_v80 = ((dat1 (V3 m ρ) c).arrAt 5 cfg1.N : Layer.AuthorArr) := KWalk.V7_v80 m ρ c
set_option maxHeartbeats 4000000 in
theorem r3_v158 (k j : Fin 128) : V7 m ρ c main_v158 (ix2 k j) = (KArgs.a5 m c) (ix3 2 k j) := by
  dsimp only [V7, W7, hostOps3]
  after_results
  rw [KWalk.W6_arg5 m ρ c]
  exact Slices.weight_apply (KArgs.a5 m c) 2 _ _ k j
set_option maxHeartbeats 4000000 in
theorem r3_v160 (k j : Fin 128) : V7 m ρ c main_v160 (ix2 k j) = (KArgs.a7 m c) (ix3 2 k j) := by
  dsimp only [V7, W7, hostOps3]
  after_results
  rw [KWalk.W6_arg7 m ρ c]
  exact Slices.weight_apply (KArgs.a7 m c) 2 _ _ k j
set_option maxHeartbeats 4000000 in
theorem r3_v156 (j : Fin 128) : V7 m ρ c main_v156 (ix2 0 j) = (KArgs.a6 m c) (ix2 2 j) := by
  dsimp only [V7, W7, hostOps3]
  after_results
  rw [KWalk.W6_arg6 m ρ c]
  exact (Slices.row_apply _ _ j).trans (Slices.bias_vec_apply (KArgs.a6 m c) 2 _ _ j)

end Cert.KernelIdeal.KHost

end
-- ==== Proof.KFinal.lean ====
/-
  The kernel program's run ends at the first arrangement of the two-layer network.

  Each of the four pipelined regions leaves in its output array one function of the arrays it finds (blocks to arrays);
  what it finds are the neighbourhood means, feature arrays and weight slices the host operations before it compute.
  Put together: the first region's output is the first layer's paper features, the second's the first layer's author
  features, and — these being what the third and fourth regions find in the places of the input features — the third
  region's output is the network's paper output and the fourth's its author output. The program's two result buffers
  are exactly those two arrays at the end of the fold through the program.
-/
import proofs.«103435_j85461259255857_1_alg».proof.Proof.Gen.KernelIdeal.Frame
import proofs.«103435_j85461259255857_1_alg».proof.Proof.ValueRun
import proofs.«103435_j85461259255857_1_alg».proof.Proof.Layer
import proofs.«103435_j85461259255857_1_alg».proof.Proof.KArgs
import proofs.«103435_j85461259255857_1_alg».proof.Proof.KBlocks
import proofs.«103435_j85461259255857_1_alg».proof.Proof.KHost0f
import proofs.«103435_j85461259255857_1_alg».proof.Proof.KHost1
import proofs.«103435_j85461259255857_1_alg».proof.Proof.KHost2f
import proofs.«103435_j85461259255857_1_alg».proof.Proof.KHost3
import proofs.«103435_j85461259255857_1_alg».proof.Proof.KWalk

set_option maxRecDepth 16384

open scoped BigOperators

noncomputable section

/-! ## The four regions' outputs as the network's layers -/
namespace Cert.KernelIdeal.KFinal

open Idealize.ShloMosaic Idealize.ShloMosaic.TcCoe Idealize.ShloMosaic.ValueIdx Idealize.SL.Sem
open Cert.KernelIdeal Cert.KernelIdeal.Gen GraphLayer

variable (m : (ℓ : Loc nD τ sig) → Buf (Elt Ideal) ℓ) (ρ : Dev nD → PrngReg) (c : Dev nD)

/-- Region 0 leaves the first layer's paper features, first arrangement. -/
theorem hp : KBlocks.G0 (V1 m ρ) c = Layer.hpK (KArgs.a0 m c) (KArgs.a1 m c) (KArgs.a2 m c) (KArgs.a3 m c) (KArgs.a4 m c) (KArgs.a8 m c) (KArgs.a9 m c) (KArgs.a10 m c) (KArgs.a11 m c) := by
  funext i
  unfold KBlocks.G0 Layer.hpK Layer.paperOutK
  rw [GraphLayer.paperK_eq_node3]
  exact KBlocks.node3_congr true
    (funext fun k => by rw [KHost.r0_v18 m ρ c])
    (funext fun k => by rw [KHost.r0_v37 m ρ c])
    (funext fun k => by rw [KHost.r0_arg0 m ρ c])
    (funext fun k => KHost.r0_v69 m ρ c k (i 1))
    (funext fun k => KHost.r0_v71 m ρ c k (i 1))
    (funext fun k => KHost.r0_v61 m ρ c k (i 1))
    (KHost.r0_v67 m ρ c (i 1))

/-- Region 1 leaves the first layer's author features, first arrangement. -/
theorem ha : KBlocks.G1 (V3 m ρ) c = Layer.haK (KArgs.a0 m c) (KArgs.a1 m c) (KArgs.a2 m c) (KArgs.a3 m c) (KArgs.a4 m c) (KArgs.a12 m c) (KArgs.a13 m c) := by
  funext i
  unfold KBlocks.G1 Layer.haK Layer.authorOutK
  rw [GraphLayer.authorK_eq_node2]
  exact KBlocks.node2_congr true
    (funext fun k => by rw [KHost.r1_v56 m ρ c])
    (funext fun k => by rw [KHost.r1_arg1 m ρ c])
    (funext fun k => KHost.r1_v77 m ρ c k (i 1))
    (funext fun k => KHost.r1_v79 m ρ c k (i 1))
    (KHost.r1_v75 m ρ c (i 1))

/-- Region 0's output array is the first layer's paper features. -/
theorem hHP : ((dat0 (V1 m ρ) c).arrAt 7 cfg0.N : Layer.PaperArr) = Layer.hpK (KArgs.a0 m c) (KArgs.a1 m c) (KArgs.a2 m c) (KArgs.a3 m c) (KArgs.a4 m c) (KArgs.a8 m c) (KArgs.a9 m c) (KArgs.a10 m c) (KArgs.a11 m c) :=
  (KBlocks.final0 (V1 m ρ) c).trans (hp m ρ c)

/-- Region 1's output array is the first layer's author features. -/
theorem hHA : ((dat1 (V3 m ρ) c).arrAt 5 cfg1.N : Layer.AuthorArr) = Layer.haK (KArgs.a0 m c) (KArgs.a1 m c) (KArgs.a2 m c) (KArgs.a3 m c) (KArgs.a4 m c) (KArgs.a12 m c) (KArgs.a13 m c) :=
  (KBlocks.final1 (V3 m ρ) c).trans (ha m ρ c)

/-- Region 2 leaves the second layer's paper output, first arrangement. -/
theorem op : KBlocks.G2 (V5 m ρ) c = Layer.opK (KArgs.a0 m c) (KArgs.a1 m c) (KArgs.a2 m c) (KArgs.a3 m c) (KArgs.a4 m c) (KArgs.a5 m c) (KArgs.a6 m c) (KArgs.a7 m c) (KArgs.a8 m c) (KArgs.a9 m c) (KArgs.a10 m c) (KArgs.a11 m c) (KArgs.a12 m c) (KArgs.a13 m c) := by
  funext i
  unfold KBlocks.G2 Layer.opK Layer.paperOutK
  rw [GraphLayer.paperK_eq_node3]
  exact KBlocks.node3_congr false
    (funext fun k => by rw [KHost.r2_v99 m ρ c, hHP m ρ c])
    (funext fun k => by rw [KHost.r2_v118 m ρ c, hHA m ρ c])
    (funext fun k => by rw [KHost.r2_v72 m ρ c, hHP m ρ c])
    (funext fun k => KHost.r2_v150 m ρ c k (i 1))
    (funext fun k => KHost.r2_v152 m ρ c k (i 1))
    (funext fun k => KHost.r2_v142 m ρ c k (i 1))
    (KHost.r2_v148 m ρ c (i 1))

/-- Region 3 leaves the second layer's author output, first arrangement. -/
theorem oa : KBlocks.G3 (V7 m ρ) c = Layer.oaK (KArgs.a0 m c) (KArgs.a1 m c) (KArgs.a2 m c) (KArgs.a3 m c) (KArgs.a4 m c) (KArgs.a5 m c) (KArgs.a6 m c) (KArgs.a7 m c) (KArgs.a8 m c) (KArgs.a9 m c) (KArgs.a10 m c) (KArgs.a11 m c) (KArgs.a12 m c) (KArgs.a13 m c) := by
  funext i
  unfold KBlocks.G3 Layer.oaK Layer.authorOutK
  rw [GraphLayer.authorK_eq_node2]
  exact KBlocks.node2_congr false
    (funext fun k => by rw [KHost.r3_v137 m ρ c, hHP m ρ c])
    (funext fun k => by rw [KHost.r3_v80 m ρ c, hHA m ρ c])
    (funext fun k => KHost.r3_v158 m ρ c k (i 1))
    (funext fun k => KHost.r3_v160 m ρ c k (i 1))
    (KHost.r3_v156 m ρ c (i 1))

set_option backward.isDefEq.respectTransparency.types false in
/-- The kernel's run at the exact instance: every weakly fair execution terminates with the two result buffers at the
    first arrangement of the two-layer network of the launch arguments, and the arguments unchanged. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v153) = Layer.opK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v161) = Layer.oaK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v153 (by decide))).trans
        ((KWalk.W8_v153 m ρ c).trans ((KBlocks.final2 (V5 m ρ) c).trans (op m ρ c))),
      (h c _ (mem_uc main_v161 (by decide))).trans
        ((KWalk.W8_v161 m ρ c).trans ((KBlocks.final3 (V7 m ρ) c).trans (oa m ρ c))),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c)⟩)
    (KValue.run_final (F := Ideal) m ρ)

end Cert.KernelIdeal.KFinal

end
-- ==== Proof.lean ====
/-
  A two-layer heterogeneous GraphSAGE network (papers cite papers, authors write papers, papers are written by authors):
  the kernel program against its reference, on the extended reals.

  Both programs compute, per layer and edge type, the mean of the source features over each node's incoming edges
  (a gather, a scatter-add and a division by max(degree, 1): the same operations on both sides) and then, per node
  type, contractions of the means and of the node's own features against 128 x 128 weights, plus biases. The kernel
  does the contractions block by block of 2000 rows in four pipelined regions, contracts a paper's own features ONCE
  against the sum of its two root matrices, starts its accumulator at zero and adds the summed bias last; the
  reference contracts against each root matrix separately and adds each bias right after its message term. The two
  arrangements agree because `x * (a + b) = x * a + x * b` on REAL numbers: the precondition makes every float
  argument real, real features give real neighbourhood means and a real first layer, so the law holds in both layers;
  everything else is commutativity and associativity of addition. Rounding to bf16 before the matrix unit is the
  identity on the extended reals.

  Modules: Spec (one entry, as mathematics), Stages (the neighbourhood means as terms), Layer (the network in both
  arrangements), SegReal and Finite (reals), Bridge (the two arrangements agree), RefRead (the reference's results),
  ValueRun, KPay, KBlocks, KWalk, KHost0f, KHost1, KHost2f, KHost3, KFinal (the kernel's results).
-/
import proofs.«103435_j85461259255857_1_alg».proof.Defs
import proofs.«103435_j85461259255857_1_alg».proof.Proof.Gen.Kernel
import proofs.«103435_j85461259255857_1_alg».proof.Proof.Gen.Kernel.Skeleton
import proofs.«103435_j85461259255857_1_alg».proof.Proof.Gen.Kernel.Launch
import proofs.«103435_j85461259255857_1_alg».proof.Proof.Gen.Kernel.Points
import proofs.«103435_j85461259255857_1_alg».proof.Proof.Gen.Kernel.Frame
import proofs.«103435_j85461259255857_1_alg».proof.Proof.Gen.KernelIdeal
import proofs.«103435_j85461259255857_1_alg».proof.Proof.Gen.KernelIdeal.Skeleton
import proofs.«103435_j85461259255857_1_alg».proof.Proof.Gen.KernelIdeal.Launch
import proofs.«103435_j85461259255857_1_alg».proof.Proof.Gen.KernelIdeal.Points
import proofs.«103435_j85461259255857_1_alg».proof.Proof.Gen.KernelIdeal.Frame
import proofs.«103435_j85461259255857_1_alg».proof.Proof.Gen.ReferenceIdeal
import proofs.«103435_j85461259255857_1_alg».proof.Proof.Gen.ReferenceIdeal.Run
import proofs.«103435_j85461259255857_1_alg».proof.Proof.Gen.ReferenceIdeal.Read
import proofs.«103435_j85461259255857_1_alg».proof.Proof.Gen.Pre_finite_inputs
import proofs.«103435_j85461259255857_1_alg».proof.Proof.Layer
import proofs.«103435_j85461259255857_1_alg».proof.Proof.RefRead
import proofs.«103435_j85461259255857_1_alg».proof.Proof.Finite
import proofs.«103435_j85461259255857_1_alg».proof.Proof.Bridge
import proofs.«103435_j85461259255857_1_alg».proof.Proof.KFinal
import Idealize.ShloMosaic.Adequacy
import Idealize.ShloMosaic.Init

noncomputable section

/-! ## The claims -/

namespace Cert.Proof.Claims

open Idealize.ShloMosaic Idealize.SL.Sem

/-- The kernel as printed runs and leaves its arguments unchanged (the generated frame). -/
theorem frame_k : Cert.frame_Kernel := fun m ρ _ => Cert.Kernel.Gen.frame m ρ

/-- The kernel at the exact instance runs and leaves its arguments unchanged (the generated frame). -/
theorem frame_ki : Cert.frame_KernelIdeal := fun m ρ _ => Cert.KernelIdeal.Gen.frame m ρ

/-- The reference runs and leaves its arguments unchanged: the generated run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The exact-instance kernel is the printed kernel's own text: no operation was rewritten. -/
theorem preserves : Cert.preserves_Kernel_KernelIdeal := trivial

/-- At the exact instance, from memories that agree on the arguments, the kernel ends at the first arrangement of the
    two-layer network and the reference at the second; the precondition makes every float argument real, and on real
    arguments the two arrangements are equal. -/
theorem algebraic : Cert.algebraic_KernelIdeal_ReferenceIdeal := by
  intro m ρ m' ρ' hpre hagree
  refine ⟨fun c => Cert.KernelIdeal.Layer.opK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.KernelIdeal.Layer.oaK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.KFinal.run_values m ρ, ?_⟩
  refine (θ_run Cert.ReferenceIdeal.defs _ _).mono (fun r h c => ?_) (Cert.ReferenceIdeal.Value.run (F := Ideal) m' ρ')
  obtain ⟨h0, h1, hargs⟩ := h c
  obtain ⟨e0, e1, e2, e3, e4, e5, e6, e7, e8, e9, e10, e11, e12, e13⟩ := hagree c
  obtain ⟨r0, r1, r2, r3, r4, r5, r6, r7⟩ := Cert.KernelIdeal.Finite.args_real m hpre c
  refine ⟨h0.trans ?_, h1.trans ?_, hargs⟩
  · rw [Cert.ReferenceIdeal.Read.val_main_v158_eq m' c, e0, e1, e2, e3, e4, e5, e6, e7, e8, e9, e10, e11, e12, e13]
    exact (Cert.ReferenceIdeal.RefValue.result_paper _ _ _ _ _ _ _ _ _ _ _ _ _ _).trans
      (Cert.KernelIdeal.Layer.opK_eq_opR _ _ _ _ _ _ _ _ _ _ _ _ _ _ r0 r1 r2 r3 r4 r7).symm
  · rw [Cert.ReferenceIdeal.Read.val_main_v189_eq m' c, e0, e1, e2, e3, e4, e5, e6, e7, e8, e9, e10, e11, e12, e13]
    exact (Cert.ReferenceIdeal.RefValue.result_author _ _ _ _ _ _ _ _ _ _ _ _ _ _).trans
      (Cert.KernelIdeal.Layer.oaK_eq_oaR _ _ _ _ _ _ _ _ _ _ _ _ _ _ r0 r4).symm

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
